-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x2 : Shape := ⟨3, ![64, 128, 2]⟩
abbrev S64x4x512x512 : Shape := ⟨4, ![64, 4, 512, 512]⟩
abbrev S_ : Shape := ⟨0, ![]⟩

class Facts : Prop where
  bcast_S_S64x128x2 : S_.BroadcastsInDim S64x128x2 (![] : Fin 0 → Fin S64x128x2.rank)
  reducesTo_S64x128x2_S_d0_1_2 : S64x128x2.ReducesTo [0, 1, 2] S_
  h_S_ : 0 < S_.numel
  bcast_S_S64x4x512x512 : S_.BroadcastsInDim S64x4x512x512 (![] : Fin 0 → Fin S64x4x512x512.rank)
  reducesTo_S64x4x512x512_S_d0_1_2_3 : S64x4x512x512.ReducesTo [0, 1, 2, 3] S_

variable [Facts]

def fn {F : FTy → Type} [FloatOps F] (main_arg0 : FVec F S64x128x2 .f32) (main_arg1 : FVec F S64x128x2 .f32) (main_arg2 : FVec F S64x4x512x512 .f32) : IVec S_ 1 :=
  let main_v0 : FVec F S64x128x2 .f32 := Host.absf main_arg0
  let main_cst : FVec F S_ .f32 := constant S_ .f32 0x7F800000#32
  let main_v1 : FVec F S64x128x2 .f32 := broadcastInDim S64x128x2 ![] bcast_S_S64x128x2 main_cst
  let main_v2 : IVec S64x128x2 1 := cmpf .olt main_v0 main_v1
  let main_c : IVec S_ 1 := constantI S_ 1 1#1
  let main_v3 : IVec S_ 1 := (fun x v => Host.reduce IntOp.andi x v reducesTo_S64x128x2_S_d0_1_2 h_S_) main_v2 main_c
  let main_v4 : FVec F S64x128x2 .f32 := Host.absf main_arg1
  let main_cst_0 : FVec F S_ .f32 := constant S_ .f32 0x7F800000#32
  let main_v5 : FVec F S64x128x2 .f32 := broadcastInDim S64x128x2 ![] bcast_S_S64x128x2 main_cst_0
  let main_v6 : IVec S64x128x2 1 := cmpf .olt main_v4 main_v5
  let main_c_1 : IVec S_ 1 := constantI S_ 1 1#1
  let main_v7 : IVec S_ 1 := (fun x v => Host.reduce IntOp.andi x v reducesTo_S64x128x2_S_d0_1_2 h_S_) main_v6 main_c_1
  let main_v8 : IVec S_ 1 := andi main_v3 main_v7
  let main_v9 : FVec F S64x4x512x512 .f32 := Host.absf main_arg2
  let main_cst_2 : FVec F S_ .f32 := constant S_ .f32 0x7F800000#32
  let main_v10 : FVec F S64x4x512x512 .f32 := broadcastInDim S64x4x512x512 ![] bcast_S_S64x4x512x512 main_cst_2
  let main_v11 : IVec S64x4x512x512 1 := cmpf .olt main_v9 main_v10
  let main_c_3 : IVec S_ 1 := constantI S_ 1 1#1
  let main_v12 : IVec S_ 1 := (fun x v => Host.reduce IntOp.andi x v reducesTo_S64x4x512x512_S_d0_1_2_3 h_S_) main_v11 main_c_3
  let main_v13 : IVec S_ 1 := andi main_v8 main_v12
  main_v13
-- ==== Kernel.lean ====
abbrev S64x128x2 : Shape := ⟨3, ![64, 128, 2]⟩
abbrev S64x4x512x512 : Shape := ⟨4, ![64, 4, 512, 512]⟩
abbrev S_ : Shape := ⟨0, ![]⟩
abbrev S64x127x2 : Shape := ⟨3, ![64, 127, 2]⟩
abbrev S64x1x2 : Shape := ⟨3, ![64, 1, 2]⟩
abbrev S64x128x1 : Shape := ⟨3, ![64, 128, 1]⟩
abbrev S64x128 : Shape := ⟨2, ![64, 128]⟩
abbrev S64 : Shape := ⟨1, ![64]⟩
abbrev S64x1 : Shape := ⟨2, ![64, 1]⟩
abbrev S1 : Shape := ⟨1, ![1]⟩
abbrev S64x1x128 : Shape := ⟨3, ![64, 1, 128]⟩
abbrev S64x4x128 : Shape := ⟨3, ![64, 4, 128]⟩
abbrev S64x8x128 : Shape := ⟨3, ![64, 8, 128]⟩
abbrev S64x4 : Shape := ⟨2, ![64, 4]⟩
abbrev S2x4x512x512 : Shape := ⟨4, ![2, 4, 512, 512]⟩
abbrev S2x8x128 : Shape := ⟨3, ![2, 8, 128]⟩
abbrev S2x4x128 : Shape := ⟨3, ![2, 4, 128]⟩
abbrev S32x4 : Shape := ⟨2, ![32, 4]⟩
abbrev S512x128 : Shape := ⟨2, ![512, 128]⟩
abbrev S1x8x128 : Shape := ⟨3, ![1, 8, 128]⟩
abbrev S8x128 : Shape := ⟨2, ![8, 128]⟩
abbrev S1x128 : Shape := ⟨2, ![1, 128]⟩
abbrev S1x1x512x512 : Shape := ⟨4, ![1, 1, 512, 512]⟩
abbrev S512x512 : Shape := ⟨2, ![512, 512]⟩
abbrev S128 : Shape := ⟨1, ![128]⟩
abbrev S1x1x128 : Shape := ⟨3, ![1, 1, 128]⟩
abbrev S1x1 : Shape := ⟨2, ![1, 1]⟩

abbrev nBuf : Space → Nat
  | .hbm => 143
  | .vmem => 8
  | .smem => 0
  | _ => 0

abbrev hbmTy0_0 (i : Nat) : BufTy := match i % 128 with
  | 0 => ⟨S64x128x2, .f32⟩
  | 1 => ⟨S64x128x2, .f32⟩
  | 2 => ⟨S64x4x512x512, .f32⟩
  | 3 => ⟨S_, .f32⟩
  | 4 => ⟨S64x128x2, .f32⟩
  | 5 => ⟨S64x128x2, .f32⟩
  | 6 => ⟨S_, .f32⟩
  | 7 => ⟨S64x128x2, .f32⟩
  | 8 => ⟨S64x128x2, .f32⟩
  | 9 => ⟨S64x127x2, .f32⟩
  | 10 => ⟨S64x1x2, .f32⟩
  | 11 => ⟨S64x128x2, .f32⟩
  | 12 => ⟨S64x128x1, .f32⟩
  | 13 => ⟨S64x128, .f32⟩
  | 14 => ⟨S64x128x1, .f32⟩
  | 15 => ⟨S64x128, .f32⟩
  | 16 => ⟨S64x128x1, .f32⟩
  | 17 => ⟨S64x128, .f32⟩
  | 18 => ⟨S64x128x1, .f32⟩
  | 19 => ⟨S64x128, .f32⟩
  | 20 => ⟨S_, .f32⟩
  | 21 => ⟨S64, .f32⟩
  | 22 => ⟨S64x1, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .f32⟩
  | 29 => ⟨S64x128, .f32⟩
  | 30 => ⟨S64x128, .f32⟩
  | 31 => ⟨S_, .f32⟩
  | 32 => ⟨S64, .f32⟩
  | 33 => ⟨S64, .f32⟩
  | 34 => ⟨S64x127x2, .f32⟩
  | 35 => ⟨S64x1x2, .f32⟩
  | 36 => ⟨S64x128x2, .f32⟩
  | 37 => ⟨S64x128x1, .f32⟩
  | 38 => ⟨S64x128, .f32⟩
  | 39 => ⟨S64x128x1, .f32⟩
  | 40 => ⟨S64x128, .f32⟩
  | 41 => ⟨S64x128x1, .f32⟩
  | 42 => ⟨S64x128, .f32⟩
  | 43 => ⟨S64x128x1, .f32⟩
  | 44 => ⟨S64x128, .f32⟩
  | 45 => ⟨S_, .f32⟩
  | 46 => ⟨S64, .f32⟩
  | 47 => ⟨S64x1, .f32⟩
  | 48 => ⟨S64x128, .f32⟩
  | 49 => ⟨S64x128, .f32⟩
  | 50 => ⟨S_, .f32⟩
  | 51 => ⟨S64x128, .f32⟩
  | 52 => ⟨S64x128, .f32⟩
  | 53 => ⟨S64x128, .f32⟩
  | 54 => ⟨S64x128, .f32⟩
  | 55 => ⟨S64x128, .f32⟩
  | 56 => ⟨S_, .f32⟩
  | 57 => ⟨S64, .f32⟩
  | 58 => ⟨S64, .f32⟩
  | 59 => ⟨S64x128x2, .f32⟩
  | 60 => ⟨S64x127x2, .f32⟩
  | 61 => ⟨S64x1x2, .f32⟩
  | 62 => ⟨S64x128x2, .f32⟩
  | 63 => ⟨S64x128x2, .f32⟩
  | 64 => ⟨S64x128x2, .f32⟩
  | 65 => ⟨S64x128x1, .f32⟩
  | 66 => ⟨S64x128, .f32⟩
  | 67 => ⟨S_, .i32⟩
  | 68 => ⟨S1, .i32⟩
  | 69 => ⟨S_, .f32⟩
  | 70 => ⟨S64, .f32⟩
  | 71 => ⟨S64x128, .f32⟩
  | 72 => ⟨S64x128x1, .f32⟩
  | 73 => ⟨S64x128, .f32⟩
  | 74 => ⟨S_, .i32⟩
  | 75 => ⟨S1, .i32⟩
  | 76 => ⟨S_, .f32⟩
  | 77 => ⟨S64, .f32⟩
  | 78 => ⟨S64x128, .f32⟩
  | 79 => ⟨S64x128, .f32⟩
  | 80 => ⟨S_, .f32⟩
  | 81 => ⟨S64x128, .f32⟩
  | 82 => ⟨S64x128, .f32⟩
  | 83 => ⟨S64x128, .f32⟩
  | 84 => ⟨S_, .f32⟩
  | 85 => ⟨S64x128, .f32⟩
  | 86 => ⟨S64x128, .f32⟩
  | 87 => ⟨S64x127x2, .f32⟩
  | 88 => ⟨S64x1x2, .f32⟩
  | 89 => ⟨S64x128x2, .f32⟩
  | 90 => ⟨S64x128x2, .f32⟩
  | 91 => ⟨S64x128x1, .f32⟩
  | 92 => ⟨S64x128, .f32⟩
  | 93 => ⟨S64x128, .f32⟩
  | 94 => ⟨S64x128x1, .f32⟩
  | 95 => ⟨S64x128, .f32⟩
  | 96 => ⟨S64x128, .f32⟩
  | 97 => ⟨S64x128, .f32⟩
  | 98 => ⟨S64x128, .f32⟩
  | 99 => ⟨S64x1x128, .f32⟩
  | 100 => ⟨S64x1x128, .f32⟩
  | 101 => ⟨S64x1x128, .f32⟩
  | 102 => ⟨S64x1x128, .f32⟩
  | 103 => ⟨S64x4x128, .f32⟩
  | 104 => ⟨S64x128x1, .f32⟩
  | 105 => ⟨S64x128, .f32⟩
  | 106 => ⟨S64x128x1, .f32⟩
  | 107 => ⟨S64x128, .f32⟩
  | 108 => ⟨S64x128, .f32⟩
  | 109 => ⟨S64x128, .f32⟩
  | 110 => ⟨S_, .f32⟩
  | 111 => ⟨S64x128, .f32⟩
  | 112 => ⟨S64x128, .f32⟩
  | 113 => ⟨S_, .f32⟩
  | 114 => ⟨S64x128, .f32⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S64x1x128, .f32⟩
  | 121 => ⟨S64x1x128, .f32⟩
  | 122 => ⟨S64x1x128, .f32⟩
  | 123 => ⟨S64x1x128, .f32⟩
  | 124 => ⟨S64x1x128, .f32⟩
  | 125 => ⟨S64x1x128, .f32⟩
  | 126 => ⟨S64x1x128, .f32⟩
  | 127 => ⟨S64x1x128, .f32⟩
  | _ => ⟨S64x128x2, .f32⟩

abbrev hbmTy0_1 (i : Nat) : BufTy := match i % 128 with
  | 0 => ⟨S64x8x128, .f32⟩
  | 1 => ⟨S64x4, .f32⟩
  | 2 => ⟨S64x4, .f32⟩
  | 3 => ⟨S_, .f32⟩
  | 4 => ⟨S64, .f32⟩
  | 5 => ⟨S_, .f32⟩
  | 6 => ⟨S64, .f32⟩
  | 7 => ⟨S64, .f32⟩
  | 8 => ⟨S64, .f32⟩
  | 9 => ⟨S64, .f32⟩
  | 10 => ⟨S64, .f32⟩
  | 11 => ⟨S_, .f32⟩
  | 12 => ⟨S_, .f32⟩
  | 13 => ⟨S_, .f32⟩
  | 14 => ⟨S_, .f32⟩
  | _ => ⟨S64x128x2, .f32⟩

abbrev hbmTy (i : Nat) : BufTy := match i / 128 with
  | 0 => hbmTy0_0 i
  | 1 => hbmTy0_1 i
  | _ => ⟨S64x128x2, .f32⟩

abbrev bufTy : (tb : Table) → Fin (tcTables nBuf tb) → BufTy
  | .hbm, ⟨i, _⟩ => hbmTy i
  | .local _ .vmem, ⟨0, _⟩ => ⟨S2x4x512x512, .f32⟩
  | .local _ .vmem, ⟨1, _⟩ => ⟨S2x4x512x512, .f32⟩
  | .local _ .vmem, ⟨2, _⟩ => ⟨S2x8x128, .f32⟩
  | .local _ .vmem, ⟨3, _⟩ => ⟨S2x8x128, .f32⟩
  | .local _ .vmem, ⟨4, _⟩ => ⟨S2x4x128, .f32⟩
  | .local _ .vmem, ⟨5, _⟩ => ⟨S2x4x128, .f32⟩
  | .local _ .vmem, ⟨6, _⟩ => ⟨S32x4, .f32⟩
  | .local _ .vmem, ⟨7, _⟩ => ⟨S32x4, .f32⟩
  | _, _ => ⟨S64x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call2_v0 : Ref sig .tc := ⟨.hbm, 60, rfl⟩
abbrev main_call2_v1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_call3_v0 : Ref sig .tc := ⟨.hbm, 87, rfl⟩
abbrev main_call3_v1 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_12 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_v104 : Ref sig .tc := ⟨.hbm, 132, rfl⟩
abbrev main_cst_15 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_16 : Ref sig .tc := ⟨.hbm, 139, rfl⟩
abbrev main_v110 : Ref sig .tc := ⟨.hbm, 140, rfl⟩
abbrev main_cst_17 : Ref sig .tc := ⟨.hbm, 141, rfl⟩
abbrev main_v111 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S64x128x2 : S_.BroadcastsInDim S64x128x2 (![] : Fin 0 → Fin S64x128x2.rank)
  slices_S64x128x2_S64x127x2_0_1_0 : S64x128x2.Slices ![0, 1, 0] S64x127x2
  slices_S64x128x2_S64x1x2_0_0_0 : S64x128x2.Slices ![0, 0, 0] S64x1x2
  concatenates_S64x127x2_S64x1x2_S64x128x2_d1 : Shape.Concatenates [S64x127x2, S64x1x2] S64x128x2 1
  slices_S64x128x2_S64x128x1_0_0_0 : S64x128x2.Slices ![0, 0, 0] S64x128x1
  shapeCasts_S64x128x1_S64x128 : S64x128x1.ShapeCasts S64x128
  slices_S64x128x2_S64x128x1_0_0_1 : S64x128x2.Slices ![0, 0, 1] S64x128x1
  reducesTo_S64x128_S64_d1 : S64x128.ReducesTo [1] S64
  h_S_ : 0 < S_.numel
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  bcast_S_S1 : S_.BroadcastsInDim S1 (![] : Fin 0 → Fin S1.rank)
  bcast_S_S64 : S_.BroadcastsInDim S64 (![] : Fin 0 → Fin S64.rank)
  bcast_S64x128_S64x1x128_0_2 : S64x128.BroadcastsInDim S64x1x128 (![0, 2] : Fin 2 → Fin S64x1x128.rank)
  concatenates_S64x1x128_S64x1x128_S64x1x128_S64x1x128_S64x4x128_d1 : Shape.Concatenates [S64x1x128, S64x1x128, S64x1x128, S64x1x128] S64x4x128 1
  concatenates_S64x1x128_S64x1x128_S64x1x128_S64x1x128_S64x1x128_S64x1x128_S64x1x128_S64x1x128_S64x8x128_d1 : Shape.Concatenates [S64x1x128, S64x1x128, S64x1x128, S64x1x128, S64x1x128, S64x1x128, S64x1x128, S64x1x128] S64x8x128 1
  inb_S32x4_S32x4_0_0 : ∀ a, (![0, 0] : Fin 2 → Nat) a + S32x4.size a ≤ S32x4.size a
  h_S32x4 : 0 < S32x4.numel
  iota_S32x4_d0_w32 : S32x4.Iotas .tc 32 [0]
  iota_S32x4_d1_w32 : S32x4.Iotas .tc 32 [1]
  iota_S512x128_d0_w32 : S512x128.Iotas .tc 32 [0]
  inb_S2x8x128_S1x8x128_0_0_0 : ∀ a, (![0, 0, 0] : Fin 3 → Nat) a + S1x8x128.size a ≤ S2x8x128.size a
  h_S1x8x128 : 0 < S1x8x128.numel
  shapeCasts_S1x8x128_S8x128 : S1x8x128.ShapeCasts S8x128
  slices_S8x128_o0_0_S1x128 : S8x128.Slices ![0, 0] S1x128
  slices_S8x128_o1_0_S1x128 : S8x128.Slices ![1, 0] S1x128
  slices_S8x128_o2_0_S1x128 : S8x128.Slices ![2, 0] S1x128
  slices_S8x128_o3_0_S1x128 : S8x128.Slices ![3, 0] S1x128
  slices_S8x128_o4_0_S1x128 : S8x128.Slices ![4, 0] S1x128
  slices_S8x128_o5_0_S1x128 : S8x128.Slices ![5, 0] S1x128
  slices_S8x128_o6_0_S1x128 : S8x128.Slices ![6, 0] S1x128
  slices_S8x128_o7_0_S1x128 : S8x128.Slices ![7, 0] S1x128
  broadcasts_S1x128_S512x128 : S1x128.Broadcasts S512x128
  shapeCasts_S1x128_S1x128 : S1x128.ShapeCasts S1x128
  bitsLt_bf16_f32 : FTy.bits .bf16 < FTy.bits .f32
  natLt_1_32 : 1 < 32
  inb_S2x4x512x512_S1x1x512x512_0_0_0_0 : ∀ a, (![0, 0, 0, 0] : Fin 4 → Nat) a + S1x1x512x512.size a ≤ S2x4x512x512.size a
  h_S1x1x512x512 : 0 < S1x1x512x512.numel
  shapeCasts_S1x1x512x512_S512x512 : S1x1x512x512.ShapeCasts S512x512
  reduces_S512x128_S128 : S512x128.Reduces [0] S128
  shapeCasts_S128_S1x128 : S128.ShapeCasts S1x128
  inb_S2x4x128_S1x1x128_0_0_0 : ∀ a, (![0, 0, 0] : Fin 3 → Nat) a + S1x1x128.size a ≤ S2x4x128.size a
  h_S1x1x128 : 0 < S1x1x128.numel
  shapeCasts_S1x1x128_S1x128 : S1x1x128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  shapeCasts_S32x4_S32x4 : S32x4.ShapeCasts S32x4
  inb_S2x4x512x512_S1x1x512x512_0_1_0_0 : ∀ a, (![0, 1, 0, 0] : Fin 4 → Nat) a + S1x1x512x512.size a ≤ S2x4x512x512.size a
  inb_S2x4x128_S1x1x128_0_1_0 : ∀ a, (![0, 1, 0] : Fin 3 → Nat) a + S1x1x128.size a ≤ S2x4x128.size a
  inb_S2x4x512x512_S1x1x512x512_0_2_0_0 : ∀ a, (![0, 2, 0, 0] : Fin 4 → Nat) a + S1x1x512x512.size a ≤ S2x4x512x512.size a
  inb_S2x4x128_S1x1x128_0_2_0 : ∀ a, (![0, 2, 0] : Fin 3 → Nat) a + S1x1x128.size a ≤ S2x4x128.size a
  inb_S2x4x512x512_S1x1x512x512_0_3_0_0 : ∀ a, (![0, 3, 0, 0] : Fin 4 → Nat) a + S1x1x512x512.size a ≤ S2x4x512x512.size a
  inb_S2x4x128_S1x1x128_0_3_0 : ∀ a, (![0, 3, 0] : Fin 3 → Nat) a + S1x1x128.size a ≤ S2x4x128.size a
  inb_S2x8x128_S1x8x128_1_0_0 : ∀ a, (![1, 0, 0] : Fin 3 → Nat) a + S1x8x128.size a ≤ S2x8x128.size a
  inb_S2x4x512x512_S1x1x512x512_1_0_0_0 : ∀ a, (![1, 0, 0, 0] : Fin 4 → Nat) a + S1x1x512x512.size a ≤ S2x4x512x512.size a
  inb_S2x4x128_S1x1x128_1_0_0 : ∀ a, (![1, 0, 0] : Fin 3 → Nat) a + S1x1x128.size a ≤ S2x4x128.size a
  inb_S2x4x512x512_S1x1x512x512_1_1_0_0 : ∀ a, (![1, 1, 0, 0] : Fin 4 → Nat) a + S1x1x512x512.size a ≤ S2x4x512x512.size a
  inb_S2x4x128_S1x1x128_1_1_0 : ∀ a, (![1, 1, 0] : Fin 3 → Nat) a + S1x1x128.size a ≤ S2x4x128.size a
  inb_S2x4x512x512_S1x1x512x512_1_2_0_0 : ∀ a, (![1, 2, 0, 0] : Fin 4 → Nat) a + S1x1x512x512.size a ≤ S2x4x512x512.size a
  inb_S2x4x128_S1x1x128_1_2_0 : ∀ a, (![1, 2, 0] : Fin 3 → Nat) a + S1x1x128.size a ≤ S2x4x128.size a
  inb_S2x4x512x512_S1x1x512x512_1_3_0_0 : ∀ a, (![1, 3, 0, 0] : Fin 4 → Nat) a + S1x1x512x512.size a ≤ S2x4x512x512.size a
  inb_S2x4x128_S1x1x128_1_3_0 : ∀ a, (![1, 3, 0] : Fin 3 → Nat) a + S1x1x128.size a ≤ S2x4x128.size a
  reducesTo_S64x4_S64_d1 : S64x4.ReducesTo [1] S64
  reducesTo_S64_S_d0 : S64.ReducesTo [0] S_
  scatter_S64x128_S1_S64_0_1_1_0_wf : ScatterDims.WF S64x128 S1 S64 [0] [1] [1] 0
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4x512x512.size a ≤ S64x4x512x512.size a
  hwx0_0 : ∀ i : grid0.Coords, EltTy.bits .f32 = 32 ∨ (Rect.block (s := S64x4x512x512) S2x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8x128.size a ≤ S64x8x128.size a
  hwx0_1 : ∀ i : grid0.Coords, EltTy.bits .f32 = 32 ∨ (Rect.block (s := S64x8x128) S2x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4x128.size a ≤ S64x4x128.size a
  hwx0_2 : ∀ i : grid0.Coords, EltTy.bits .f32 = 32 ∨ (Rect.block (s := S64x4x128) S2x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4.size a ≤ S64x4.size a
  hwx0_3 : ∀ i : grid0.Coords, EltTy.bits .f32 = 32 ∨ (Rect.block (s := S64x4) S32x4.size (cc0_transform_3 i) (hinb0_3 i)).WholeWords (EltTy.packing .f32)

variable [Facts₀]

def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg2) S2x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S2x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S2x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v102) S32x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128x2 : Shape := ⟨3, ![64, 128, 2]⟩
abbrev S64x4x512x512 : Shape := ⟨4, ![64, 4, 512, 512]⟩
abbrev S_ : Shape := ⟨0, ![]⟩
abbrev S64x127x2 : Shape := ⟨3, ![64, 127, 2]⟩
abbrev S64x1x2 : Shape := ⟨3, ![64, 1, 2]⟩
abbrev S64x128x1 : Shape := ⟨3, ![64, 128, 1]⟩
abbrev S64x128 : Shape := ⟨2, ![64, 128]⟩
abbrev S64 : Shape := ⟨1, ![64]⟩
abbrev S64x1 : Shape := ⟨2, ![64, 1]⟩
abbrev S1 : Shape := ⟨1, ![1]⟩
abbrev S64x4x128 : Shape := ⟨3, ![64, 4, 128]⟩
abbrev S64x1x128 : Shape := ⟨3, ![64, 1, 128]⟩
abbrev S64x4 : Shape := ⟨2, ![64, 4]⟩

abbrev nBuf : Space → Nat
  | .hbm => 267
  | .vmem => 0
  | .smem => 0
  | _ => 0

abbrev hbmTy0_0 (i : Nat) : BufTy := match i % 128 with
  | 0 => ⟨S64x128x2, .f32⟩
  | 1 => ⟨S64x128x2, .f32⟩
  | 2 => ⟨S64x4x512x512, .f32⟩
  | 3 => ⟨S_, .f32⟩
  | 4 => ⟨S64x128x2, .f32⟩
  | 5 => ⟨S64x128x2, .f32⟩
  | 6 => ⟨S_, .f32⟩
  | 7 => ⟨S64x128x2, .f32⟩
  | 8 => ⟨S64x128x2, .f32⟩
  | 9 => ⟨S64x127x2, .f32⟩
  | 10 => ⟨S64x1x2, .f32⟩
  | 11 => ⟨S64x128x2, .f32⟩
  | 12 => ⟨S64x128x1, .f32⟩
  | 13 => ⟨S64x128, .f32⟩
  | 14 => ⟨S64x128x1, .f32⟩
  | 15 => ⟨S64x128, .f32⟩
  | 16 => ⟨S64x128x1, .f32⟩
  | 17 => ⟨S64x128, .f32⟩
  | 18 => ⟨S64x128x1, .f32⟩
  | 19 => ⟨S64x128, .f32⟩
  | 20 => ⟨S_, .f32⟩
  | 21 => ⟨S64, .f32⟩
  | 22 => ⟨S64x1, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .f32⟩
  | 29 => ⟨S64x128, .f32⟩
  | 30 => ⟨S64x128, .f32⟩
  | 31 => ⟨S_, .f32⟩
  | 32 => ⟨S64, .f32⟩
  | 33 => ⟨S64, .f32⟩
  | 34 => ⟨S64x127x2, .f32⟩
  | 35 => ⟨S64x1x2, .f32⟩
  | 36 => ⟨S64x128x2, .f32⟩
  | 37 => ⟨S64x128x1, .f32⟩
  | 38 => ⟨S64x128, .f32⟩
  | 39 => ⟨S64x128x1, .f32⟩
  | 40 => ⟨S64x128, .f32⟩
  | 41 => ⟨S64x128x1, .f32⟩
  | 42 => ⟨S64x128, .f32⟩
  | 43 => ⟨S64x128x1, .f32⟩
  | 44 => ⟨S64x128, .f32⟩
  | 45 => ⟨S_, .f32⟩
  | 46 => ⟨S64, .f32⟩
  | 47 => ⟨S64x1, .f32⟩
  | 48 => ⟨S64x128, .f32⟩
  | 49 => ⟨S64x128, .f32⟩
  | 50 => ⟨S_, .f32⟩
  | 51 => ⟨S64x128, .f32⟩
  | 52 => ⟨S64x128, .f32⟩
  | 53 => ⟨S64x128, .f32⟩
  | 54 => ⟨S64x128, .f32⟩
  | 55 => ⟨S64x128, .f32⟩
  | 56 => ⟨S_, .f32⟩
  | 57 => ⟨S64, .f32⟩
  | 58 => ⟨S64, .f32⟩
  | 59 => ⟨S64x128x2, .f32⟩
  | 60 => ⟨S64x127x2, .f32⟩
  | 61 => ⟨S64x1x2, .f32⟩
  | 62 => ⟨S64x128x2, .f32⟩
  | 63 => ⟨S64x128x2, .f32⟩
  | 64 => ⟨S64x128x2, .f32⟩
  | 65 => ⟨S64x128x1, .f32⟩
  | 66 => ⟨S64x128, .f32⟩
  | 67 => ⟨S_, .i32⟩
  | 68 => ⟨S1, .i32⟩
  | 69 => ⟨S_, .f32⟩
  | 70 => ⟨S64, .f32⟩
  | 71 => ⟨S64x128, .f32⟩
  | 72 => ⟨S64x128x1, .f32⟩
  | 73 => ⟨S64x128, .f32⟩
  | 74 => ⟨S_, .i32⟩
  | 75 => ⟨S1, .i32⟩
  | 76 => ⟨S_, .f32⟩
  | 77 => ⟨S64, .f32⟩
  | 78 => ⟨S64x128, .f32⟩
  | 79 => ⟨S64x128, .f32⟩
  | 80 => ⟨S_, .f32⟩
  | 81 => ⟨S64x128, .f32⟩
  | 82 => ⟨S64x128, .f32⟩
  | 83 => ⟨S64x128, .f32⟩
  | 84 => ⟨S_, .f32⟩
  | 85 => ⟨S64x128, .f32⟩
  | 86 => ⟨S64x128, .f32⟩
  | 87 => ⟨S64x127x2, .f32⟩
  | 88 => ⟨S64x1x2, .f32⟩
  | 89 => ⟨S64x128x2, .f32⟩
  | 90 => ⟨S64x128x2, .f32⟩
  | 91 => ⟨S64x128x1, .f32⟩
  | 92 => ⟨S64x128, .f32⟩
  | 93 => ⟨S64x128, .f32⟩
  | 94 => ⟨S64x128x1, .f32⟩
  | 95 => ⟨S64x128, .f32⟩
  | 96 => ⟨S64x128, .f32⟩
  | 97 => ⟨S64x128x1, .f32⟩
  | 98 => ⟨S64x128, .f32⟩
  | 99 => ⟨S64x128x1, .f32⟩
  | 100 => ⟨S64x128, .f32⟩
  | 101 => ⟨S64x128, .f32⟩
  | 102 => ⟨S64x128, .f32⟩
  | 103 => ⟨S_, .f32⟩
  | 104 => ⟨S64x128, .f32⟩
  | 105 => ⟨S64x128, .f32⟩
  | 106 => ⟨S_, .f32⟩
  | 107 => ⟨S64x128, .f32⟩
  | 108 => ⟨S64x128, .f32⟩
  | 109 => ⟨S64x128, .f32⟩
  | 110 => ⟨S64x128, .f32⟩
  | 111 => ⟨S64x128, .f32⟩
  | 112 => ⟨S64x128, .f32⟩
  | 113 => ⟨S64x128, .f32⟩
  | 114 => ⟨S64x128, .f32⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S64x128, .f32⟩
  | 121 => ⟨S_, .i32⟩
  | 122 => ⟨S_, .i32⟩
  | 123 => ⟨S_, .f32⟩
  | 124 => ⟨S64x128, .f32⟩
  | 125 => ⟨S64x128, .f32⟩
  | 126 => ⟨S_, .f32⟩
  | 127 => ⟨S64x128, .f32⟩
  | _ => ⟨S64x128x2, .f32⟩

abbrev hbmTy0_1 (i : Nat) : BufTy := match i % 128 with
  | 0 => ⟨S64x128, .f32⟩
  | 1 => ⟨S64x128, .i32⟩
  | 2 => ⟨S_, .i32⟩
  | 3 => ⟨S_, .i32⟩
  | 4 => ⟨S_, .f32⟩
  | 5 => ⟨S64x128, .f32⟩
  | 6 => ⟨S64x128, .f32⟩
  | 7 => ⟨S_, .f32⟩
  | 8 => ⟨S64x128, .f32⟩
  | 9 => ⟨S64x128, .f32⟩
  | 10 => ⟨S64x128, .i32⟩
  | 11 => ⟨S_, .i32⟩
  | 12 => ⟨S_, .i32⟩
  | 13 => ⟨S_, .f32⟩
  | 14 => ⟨S64x128, .f32⟩
  | 15 => ⟨S64x128, .f32⟩
  | 16 => ⟨S_, .f32⟩
  | 17 => ⟨S64x128, .f32⟩
  | 18 => ⟨S64x128, .f32⟩
  | 19 => ⟨S64x128, .i32⟩
  | 20 => ⟨S_, .i32⟩
  | 21 => ⟨S_, .i32⟩
  | 22 => ⟨S_, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .i32⟩
  | 29 => ⟨S_, .i32⟩
  | 30 => ⟨S64x128, .i32⟩
  | 31 => ⟨S64x128, .i1⟩
  | 32 => ⟨S_, .i32⟩
  | 33 => ⟨S64x128, .i32⟩
  | 34 => ⟨S64x128, .i32⟩
  | 35 => ⟨S64x128, .i32⟩
  | 36 => ⟨S_, .i32⟩
  | 37 => ⟨S64x128, .i32⟩
  | 38 => ⟨S64x128, .i1⟩
  | 39 => ⟨S_, .i32⟩
  | 40 => ⟨S64x128, .i32⟩
  | 41 => ⟨S64x128, .i32⟩
  | 42 => ⟨S64x128, .i32⟩
  | 43 => ⟨S64x128x1, .i32⟩
  | 44 => ⟨S64x128x1, .i32⟩
  | 45 => ⟨S64x128x2, .i32⟩
  | 46 => ⟨S64x4x128, .f32⟩
  | 47 => ⟨S_, .i32⟩
  | 48 => ⟨S64x128, .i32⟩
  | 49 => ⟨S64x128, .i1⟩
  | 50 => ⟨S_, .i32⟩
  | 51 => ⟨S64x128, .i32⟩
  | 52 => ⟨S64x128, .i32⟩
  | 53 => ⟨S64x128, .i32⟩
  | 54 => ⟨S_, .i32⟩
  | 55 => ⟨S64x128, .i32⟩
  | 56 => ⟨S64x128, .i1⟩
  | 57 => ⟨S_, .i32⟩
  | 58 => ⟨S64x128, .i32⟩
  | 59 => ⟨S64x128, .i32⟩
  | 60 => ⟨S64x128, .i32⟩
  | 61 => ⟨S64x128x1, .i32⟩
  | 62 => ⟨S64x128x1, .i32⟩
  | 63 => ⟨S64x128x2, .i32⟩
  | 64 => ⟨S64x4x128, .f32⟩
  | 65 => ⟨S_, .i32⟩
  | 66 => ⟨S64x128, .i32⟩
  | 67 => ⟨S64x128, .i1⟩
  | 68 => ⟨S_, .i32⟩
  | 69 => ⟨S64x128, .i32⟩
  | 70 => ⟨S64x128, .i32⟩
  | 71 => ⟨S64x128, .i32⟩
  | 72 => ⟨S_, .i32⟩
  | 73 => ⟨S64x128, .i32⟩
  | 74 => ⟨S64x128, .i1⟩
  | 75 => ⟨S_, .i32⟩
  | 76 => ⟨S64x128, .i32⟩
  | 77 => ⟨S64x128, .i32⟩
  | 78 => ⟨S64x128, .i32⟩
  | 79 => ⟨S64x128x1, .i32⟩
  | 80 => ⟨S64x128x1, .i32⟩
  | 81 => ⟨S64x128x2, .i32⟩
  | 82 => ⟨S64x4x128, .f32⟩
  | 83 => ⟨S_, .i32⟩
  | 84 => ⟨S64x128, .i32⟩
  | 85 => ⟨S64x128, .i1⟩
  | 86 => ⟨S_, .i32⟩
  | 87 => ⟨S64x128, .i32⟩
  | 88 => ⟨S64x128, .i32⟩
  | 89 => ⟨S64x128, .i32⟩
  | 90 => ⟨S_, .i32⟩
  | 91 => ⟨S64x128, .i32⟩
  | 92 => ⟨S64x128, .i1⟩
  | 93 => ⟨S_, .i32⟩
  | 94 => ⟨S64x128, .i32⟩
  | 95 => ⟨S64x128, .i32⟩
  | 96 => ⟨S64x128, .i32⟩
  | 97 => ⟨S64x128x1, .i32⟩
  | 98 => ⟨S64x128x1, .i32⟩
  | 99 => ⟨S64x128x2, .i32⟩
  | 100 => ⟨S64x4x128, .f32⟩
  | 101 => ⟨S64x1x128, .f32⟩
  | 102 => ⟨S64x1x128, .f32⟩
  | 103 => ⟨S64x1x128, .f32⟩
  | 104 => ⟨S64x1x128, .f32⟩
  | 105 => ⟨S64x4x128, .f32⟩
  | 106 => ⟨S64x4x128, .f32⟩
  | 107 => ⟨S64x4x128, .f32⟩
  | 108 => ⟨S64x4x128, .f32⟩
  | 109 => ⟨S64x4x128, .f32⟩
  | 110 => ⟨S64x4x128, .f32⟩
  | 111 => ⟨S64x4x128, .f32⟩
  | 112 => ⟨S64x4x128, .f32⟩
  | 113 => ⟨S64x4x128, .f32⟩
  | 114 => ⟨S64x4x128, .f32⟩
  | 115 => ⟨S64x4x128, .f32⟩
  | 116 => ⟨S64x128, .f32⟩
  | 117 => ⟨S64x128, .f32⟩
  | 118 => ⟨S64x1x128, .f32⟩
  | 119 => ⟨S64x1x128, .f32⟩
  | 120 => ⟨S64x1x128, .f32⟩
  | 121 => ⟨S64x1x128, .f32⟩
  | 122 => ⟨S64x4x128, .f32⟩
  | 123 => ⟨S64x4x128, .f32⟩
  | 124 => ⟨S_, .f32⟩
  | 125 => ⟨S64x4, .f32⟩
  | 126 => ⟨S64x4, .f32⟩
  | 127 => ⟨S_, .f32⟩
  | _ => ⟨S64x128x2, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64, .f32⟩
  | 7 => ⟨S_, .f32⟩
  | 8 => ⟨S_, .f32⟩
  | 9 => ⟨S_, .f32⟩
  | 10 => ⟨S_, .f32⟩
  | _ => ⟨S64x128x2, .f32⟩

abbrev hbmTy (i : Nat) : BufTy := match i / 128 with
  | 0 => hbmTy0_0 i
  | 1 => hbmTy0_1 i
  | 2 => hbmTy0_2 i
  | _ => ⟨S64x128x2, .f32⟩

abbrev bufTy : (tb : Table) → Fin (tcTables nBuf tb) → BufTy
  | .hbm, ⟨i, _⟩ => hbmTy i
  | _, _ => ⟨S64x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call2_v0 : Ref sig .tc := ⟨.hbm, 60, rfl⟩
abbrev main_call2_v1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_call3_v0 : Ref sig .tc := ⟨.hbm, 87, rfl⟩
abbrev main_call3_v1 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_14 : Ref sig .tc := ⟨.hbm, 121, rfl⟩
abbrev main_c_15 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v94 : Ref sig .tc := ⟨.hbm, 128, rfl⟩
abbrev main_v95 : Ref sig .tc := ⟨.hbm, 129, rfl⟩
abbrev main_c_16 : Ref sig .tc := ⟨.hbm, 130, rfl⟩
abbrev main_c_17 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v96 : Ref sig .tc := ⟨.hbm, 137, rfl⟩
abbrev main_v97 : Ref sig .tc := ⟨.hbm, 138, rfl⟩
abbrev main_c_18 : Ref sig .tc := ⟨.hbm, 139, rfl⟩
abbrev main_c_19 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_c_21 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_v100 : Ref sig .tc := ⟨.hbm, 155, rfl⟩
abbrev main_v101 : Ref sig .tc := ⟨.hbm, 156, rfl⟩
abbrev main_c_22 : Ref sig .tc := ⟨.hbm, 157, rfl⟩
abbrev main_v102 : Ref sig .tc := ⟨.hbm, 158, rfl⟩
abbrev main_v103 : Ref sig .tc := ⟨.hbm, 159, rfl⟩
abbrev main_c_23 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_24 : Ref sig .tc := ⟨.hbm, 164, rfl⟩
abbrev main_v107 : Ref sig .tc := ⟨.hbm, 165, rfl⟩
abbrev main_v108 : Ref sig .tc := ⟨.hbm, 166, rfl⟩
abbrev main_c_25 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_26 : Ref sig .tc := ⟨.hbm, 175, rfl⟩
abbrev main_v116 : Ref sig .tc := ⟨.hbm, 176, rfl⟩
abbrev main_v117 : Ref sig .tc := ⟨.hbm, 177, rfl⟩
abbrev main_c_27 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_c_28 : Ref sig .tc := ⟨.hbm, 182, rfl⟩
abbrev main_v121 : Ref sig .tc := ⟨.hbm, 183, rfl⟩
abbrev main_v122 : Ref sig .tc := ⟨.hbm, 184, rfl⟩
abbrev main_c_29 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_c_30 : Ref sig .tc := ⟨.hbm, 193, rfl⟩
abbrev main_v130 : Ref sig .tc := ⟨.hbm, 194, rfl⟩
abbrev main_v131 : Ref sig .tc := ⟨.hbm, 195, rfl⟩
abbrev main_c_31 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_32 : Ref sig .tc := ⟨.hbm, 200, rfl⟩
abbrev main_v135 : Ref sig .tc := ⟨.hbm, 201, rfl⟩
abbrev main_v136 : Ref sig .tc := ⟨.hbm, 202, rfl⟩
abbrev main_c_33 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_c_34 : Ref sig .tc := ⟨.hbm, 211, rfl⟩
abbrev main_v144 : Ref sig .tc := ⟨.hbm, 212, rfl⟩
abbrev main_v145 : Ref sig .tc := ⟨.hbm, 213, rfl⟩
abbrev main_c_35 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_c_36 : Ref sig .tc := ⟨.hbm, 218, rfl⟩
abbrev main_v149 : Ref sig .tc := ⟨.hbm, 219, rfl⟩
abbrev main_v150 : Ref sig .tc := ⟨.hbm, 220, rfl⟩
abbrev main_c_37 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_38 : Ref sig .tc := ⟨.hbm, 252, rfl⟩
abbrev main_v181 : Ref sig .tc := ⟨.hbm, 253, rfl⟩
abbrev main_v182 : Ref sig .tc := ⟨.hbm, 254, rfl⟩
abbrev main_cst_39 : Ref sig .tc := ⟨.hbm, 255, rfl⟩
abbrev main_v183 : Ref sig .tc := ⟨.hbm, 256, rfl⟩
abbrev main_cst_40 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_41 : Ref sig .tc := ⟨.hbm, 263, rfl⟩
abbrev main_v189 : Ref sig .tc := ⟨.hbm, 264, rfl⟩
abbrev main_cst_42 : Ref sig .tc := ⟨.hbm, 265, rfl⟩
abbrev main_v190 : Ref sig .tc := ⟨.hbm, 266, rfl⟩

abbrev nD : Nat := 1
abbrev τ : Topo := Topo.v7x

variable {F : FTy → Type} [FloatOps F]

class Facts₀ : Prop where
  bcast_S_S64x128x2 : S_.BroadcastsInDim S64x128x2 (![] : Fin 0 → Fin S64x128x2.rank)
  slices_S64x128x2_S64x127x2_0_1_0 : S64x128x2.Slices ![0, 1, 0] S64x127x2
  slices_S64x128x2_S64x1x2_0_0_0 : S64x128x2.Slices ![0, 0, 0] S64x1x2
  concatenates_S64x127x2_S64x1x2_S64x128x2_d1 : Shape.Concatenates [S64x127x2, S64x1x2] S64x128x2 1
  slices_S64x128x2_S64x128x1_0_0_0 : S64x128x2.Slices ![0, 0, 0] S64x128x1
  shapeCasts_S64x128x1_S64x128 : S64x128x1.ShapeCasts S64x128
  slices_S64x128x2_S64x128x1_0_0_1 : S64x128x2.Slices ![0, 0, 1] S64x128x1
  reducesTo_S64x128_S64_d1 : S64x128.ReducesTo [1] S64
  h_S_ : 0 < S_.numel
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  bcast_S_S1 : S_.BroadcastsInDim S1 (![] : Fin 0 → Fin S1.rank)
  bcast_S_S64 : S_.BroadcastsInDim S64 (![] : Fin 0 → Fin S64.rank)
  bcast_S64x128_S64x128x1_0_1 : S64x128.BroadcastsInDim S64x128x1 (![0, 1] : Fin 2 → Fin S64x128x1.rank)
  concatenates_S64x128x1_S64x128x1_S64x128x2_d2 : Shape.Concatenates [S64x128x1, S64x128x1] S64x128x2 2
  bcast_S64x128_S64x1x128_0_2 : S64x128.BroadcastsInDim S64x1x128 (![0, 2] : Fin 2 → Fin S64x1x128.rank)
  bcast_S64x1x128_S64x4x128_0_1_2 : S64x1x128.BroadcastsInDim S64x4x128 (![0, 1, 2] : Fin 3 → Fin S64x4x128.rank)
  concatenates_S64x1x128_S64x1x128_S64x1x128_S64x1x128_S64x4x128_d1 : Shape.Concatenates [S64x1x128, S64x1x128, S64x1x128, S64x1x128] S64x4x128 1
  reducesTo_S64x4x128_S64x4_d2 : S64x4x128.ReducesTo [2] S64x4
  reducesTo_S64x4_S64_d1 : S64x4.ReducesTo [1] S64
  reducesTo_S64_S_d0 : S64.ReducesTo [0] S_
  scatter_S64x128_S1_S64_0_1_1_0_wf : ScatterDims.WF S64x128 S1 S64 [0] [1] [1] 0
  gather_S64x4x512x512_S64x128x2_S64x4x128_1_23_0_0_23_2_1411_wf : GatherDims.WF S64x4x512x512 S64x128x2 S64x4x128 [1] [2, 3] [0] [2, 3] [0] 2 ![1, 4, 1, 1]

variable [Facts₀]

def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def gather_S64x4x512x512_S64x128x2_S64x4x128_1_23_0_0_23_2_1411 : GatherDims S64x4x512x512 S64x128x2 S64x4x128 where
  offsetDims := [1]
  collapsedSliceDims := [2, 3]
  operandBatchingDims := [0]
  startIndicesBatchingDims := [0]
  startIndexMap := [2, 3]
  indexVectorDim := 2
  sliceSizes := ![1, 4, 1, 1]
  wf := gather_S64x4x512x512_S64x128x2_S64x4x128_1_23_0_0_23_2_1411_wf

class Facts : Prop extends Facts₀ where

variable [Facts]
-- ==== Proof.KBBase.lean ====
/-
  The frame of the program around its one pallas_call, first part: the host operations before the call (nine
  stretches: scaling the points, the rolled copies, the polygon areas, the uniqueness masks and signs, the stacked
  sign-mask and point-data arrays) as a valuation `V` of the device buffers at the region's entry, the nine host
  operations after it as the region's continuation, the argument arrays untouched by either, the windows' blocks read
  off `V`, and the body's one branch condition (grid coordinate 1 is zero: the first step of each half) decided
  over the 32 grid points.
-/
import proofs.«174235_j4939212390583_2_alg».proof.Proof.Gen.Kernel.Launch
import proofs.«174235_j4939212390583_2_alg».proof.Proof.Gen.Kernel.Skeleton
import proofs.«174235_j4939212390583_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers' contents when the region is entered: after the host operations before the call. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  have key : ∀ w : Fin 4, (hostOps1 : List (HloOp τ sig (Elt F))).Forall fun op => Proc.devRef .tc (Pipeline.arrRef spec0 w) ∉ op.writes := by
    intro w
    fin_cases w <;> (simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]; repeat' apply And.intro) <;> exact StableHlo.devRef_ne_of_ne (by decide)
  exact List.forall_iff_forall_mem.mp (key w) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the mask array is a staged input (it ends at its entry contents), the two point arrays
    are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 0).trans (((dats 0 c).arrAt_in 0 rfl _).trans ((hA c 0).trans (V_main_arg2 m c)))⟩) h

/-! ## The body's branch condition -/

/-- The condition of the body's one `scf.if`: grid coordinate 1 is zero. -/
abbrev cond0_0 (i : grid0.Coords) : Prop := (Scalar.cmpi .ne (Scalar.extui (Scalar.cmpi .eq (BitVec.ofNat 32 (i 1).val) 0#32)) 0#32) = 1#1
/-- It holds at the first step of each half — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of the output window, through which its contents are stated. -/
abbrev VO0_3 : View sig .tc .vmem S32x4 .f32 := (Memref.whole cc0_stg3_0 : Memref sig .tc .vmem S32x4 .f32).view
abbrev ms0_0 (t : Fin cfg0.N) : Memref sig .tc .vmem S2x4x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)

end Cert.Kernel.Frm

end
-- ==== Proof.KBRunA.lean ====
/-
  The kernel body run whole on any whole staging memrefs, at a first step of a half (grid coordinate 1 is zero): the output block is stored as zeros, then
  loaded and stored back eight times, once per batch of the block and channel. The three input buffers are read only;
  what the output buffer ends with is the list of its stores' rectangles and values, found by the run.
-/
import proofs.«174235_j4939212390583_2_alg».proof.Proof.KBBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords)
    (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole)
    (hc0 : cond0_0 i)
    (x0 : Vec F S2x4x512x512 .f32) (x1 : Vec F S2x8x128 .f32) (x2 : Vec F S2x4x128 .f32) :
    { L3 : List (View.Piece (Elt F) S32x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frm

end
-- ==== Proof.KBRunB.lean ====
/-
  The kernel body run whole on any whole staging memrefs, at a later step (grid coordinate 1 is not zero): the output block, which holds what the step before left, is
  loaded and stored back eight times, once per batch of the block and channel. The three input buffers are read only;
  what the output buffer ends with is the list of its stores' rectangles and values, found by the run.
-/
import proofs.«174235_j4939212390583_2_alg».proof.Proof.KBRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords)
    (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole)
    (hc0 : ¬cond0_0 i)
    (x0 : Vec F S2x4x512x512 .f32) (x1 : Vec F S2x8x128 .f32) (x2 : Vec F S2x4x128 .f32) (xo3 : Vec F S32x4 .f32) :
    { L3 : List (View.Piece (Elt F) S32x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frm

end
-- ==== Proof.KBFrame.lean ====
/-
  The frame of the program, last part. What the output block's staging buffer holds after the body at each grid
  point: at a first step of a half the zero block with eight accumulated stores over it, at a later step eight
  accumulated stores over what the step before left (the block is written back only after the last step of a half,
  so the buffer carries the running sums). From that: the proof data of the pipeline, the body obligation at a
  generic point (which case the point is in is decided by its index modulo 16), the run of @main around the
  region, and the frame: the three argument arrays end as launched.
-/
import proofs.«174235_j4939212390583_2_alg».proof.Proof.KBRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first step the stores into the output block tile it (each store is the whole block), so they cover it. -/
theorem cover0_A_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : cond0_0 i) (x0 : Vec F S2x4x512x512 .f32) (x1 : Vec F S2x8x128 .f32) (x2 : Vec F S2x4x128 .f32) (y : S32x4.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S32x4.size (by sl_kernel_rfl) y

/-- What a first step leaves in the output block's staging buffer: its stores read back. -/
def out0_A_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : cond0_0 i) (x0 : Vec F S2x4x512x512 .f32) (x1 : Vec F S2x8x128 .f32) (x2 : Vec F S2x4x128 .f32) : Vec F S32x4 .f32 :=
  VO0_3.read (Elt F) (VO0_3.writes (Elt F) VO0_3.junk (kernelRun0_A c i arg2 harg2 arg3 harg3 arg4 harg4 arg5 harg5 hc0 x0 x1 x2).1)

/-- At a later step the stores into the output block cover it likewise. -/
theorem cover0_B_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : ¬cond0_0 i) (x0 : Vec F S2x4x512x512 .f32) (x1 : Vec F S2x8x128 .f32) (x2 : Vec F S2x4x128 .f32) (xo3 : Vec F S32x4 .f32) (y : S32x4.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S32x4.size (by sl_kernel_rfl) y

/-- What a later step leaves in the output block's staging buffer, from what the step before left (`xo3`). -/
def out0_B_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : ¬cond0_0 i) (x0 : Vec F S2x4x512x512 .f32) (x1 : Vec F S2x8x128 .f32) (x2 : Vec F S2x4x128 .f32) (xo3 : Vec F S32x4 .f32) : Vec F S32x4 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- The accumulation: the output block's staging buffer after the body at position `n`. -/
def outsAt0 (c : Dev nD) : (n : ℕ) → n < cfg0.N → Vec F S32x4 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first step of a half. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later step: over what the step before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later step the output block's staging buffer holds what the body left at the step before: the buffer was not
    written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data computes
    and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the three argument arrays end as launched, at any instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.KIBase.lean ====
/-
  The frame of the program around its one pallas_call, first part: the host operations before the call (nine
  stretches: scaling the points, the rolled copies, the polygon areas, the uniqueness masks and signs, the stacked
  sign-mask and point-data arrays) as a valuation `V` of the device buffers at the region's entry, the nine host
  operations after it as the region's continuation, the argument arrays untouched by either, the windows' blocks read
  off `V`, and the body's one branch condition (grid coordinate 1 is zero: the first step of each half) decided
  over the 32 grid points.
-/
import proofs.«174235_j4939212390583_2_alg».proof.Proof.Gen.KernelIdeal.Launch
import proofs.«174235_j4939212390583_2_alg».proof.Proof.Gen.KernelIdeal.Skeleton
import proofs.«174235_j4939212390583_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers' contents when the region is entered: after the host operations before the call. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it: it reduces to the region
    continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  have key : ∀ w : Fin 4, (hostOps1 : List (HloOp τ sig (Elt F))).Forall fun op => Proc.devRef .tc (Pipeline.arrRef spec0 w) ∉ op.writes := by
    intro w
    fin_cases w <;> (simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]; repeat' apply And.intro) <;> exact StableHlo.devRef_ne_of_ne (by decide)
  exact List.forall_iff_forall_mem.mp (key w) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the mask array is a staged input (it ends at its entry contents), the two point arrays
    are staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 0).trans (((dats 0 c).arrAt_in 0 rfl _).trans ((hA c 0).trans (V_main_arg2 m c)))⟩) h

/-! ## The body's branch condition -/

/-- The condition of the body's one `scf.if`: grid coordinate 1 is zero. -/
abbrev cond0_0 (i : grid0.Coords) : Prop := (Scalar.cmpi .ne (Scalar.extui (Scalar.cmpi .eq (BitVec.ofNat 32 (i 1).val) 0#32)) 0#32) = 1#1
/-- It holds at the first step of each half — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs the body is called with -/

/-- One staging buffer of the output window, through which its contents are stated. -/
abbrev VO0_3 : View sig .tc .vmem S32x4 .f32 := (Memref.whole cc0_stg3_0 : Memref sig .tc .vmem S32x4 .f32).view
abbrev ms0_0 (t : Fin cfg0.N) : Memref sig .tc .vmem S2x4x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4 .f32 := win0_3.stage (cfg0.slots t 3)
abbrev hs0_3 (t : Fin cfg0.N) : (ms0_3 t).IsWhole := hstage0_3 ((cfg0.slots t 3).cast nbuf0_3)

end Cert.KernelIdeal.Frm

end
-- ==== Proof.KIRunA.lean ====
/-
  The kernel body run whole on any whole staging memrefs, at a first step of a half (grid coordinate 1 is zero): the output block is stored as zeros, then
  loaded and stored back eight times, once per batch of the block and channel. The three input buffers are read only;
  what the output buffer ends with is the list of its stores' rectangles and values, found by the run.
-/
import proofs.«174235_j4939212390583_2_alg».proof.Proof.KIBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords)
    (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole)
    (hc0 : cond0_0 i)
    (x0 : Vec F S2x4x512x512 .f32) (x1 : Vec F S2x8x128 .f32) (x2 : Vec F S2x4x128 .f32) :
    { L3 : List (View.Piece (Elt F) S32x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frm

end
-- ==== Proof.KIRunB.lean ====
/-
  The kernel body run whole on any whole staging memrefs, at a later step (grid coordinate 1 is not zero): the output block, which holds what the step before left, is
  loaded and stored back eight times, once per batch of the block and channel. The three input buffers are read only;
  what the output buffer ends with is the list of its stores' rectangles and values, found by the run.
-/
import proofs.«174235_j4939212390583_2_alg».proof.Proof.KIRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords)
    (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole)
    (hc0 : ¬cond0_0 i)
    (x0 : Vec F S2x4x512x512 .f32) (x1 : Vec F S2x8x128 .f32) (x2 : Vec F S2x4x128 .f32) (xo3 : Vec F S32x4 .f32) :
    { L3 : List (View.Piece (Elt F) S32x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frm

end
-- ==== Proof.KIFrame.lean ====
/-
  The frame of the program, last part. What the output block's staging buffer holds after the body at each grid
  point: at a first step of a half the zero block with eight accumulated stores over it, at a later step eight
  accumulated stores over what the step before left (the block is written back only after the last step of a half,
  so the buffer carries the running sums). From that: the proof data of the pipeline, the body obligation at a
  generic point (which case the point is in is decided by its index modulo 16), the run of @main around the
  region, and the frame: the three argument arrays end as launched.
-/
import proofs.«174235_j4939212390583_2_alg».proof.Proof.KIRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first step the stores into the output block tile it (each store is the whole block), so they cover it. -/
theorem cover0_A_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : cond0_0 i) (x0 : Vec F S2x4x512x512 .f32) (x1 : Vec F S2x8x128 .f32) (x2 : Vec F S2x4x128 .f32) (y : S32x4.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S32x4.size (by sl_kernel_rfl) y

/-- What a first step leaves in the output block's staging buffer: its stores read back. -/
def out0_A_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : cond0_0 i) (x0 : Vec F S2x4x512x512 .f32) (x1 : Vec F S2x8x128 .f32) (x2 : Vec F S2x4x128 .f32) : Vec F S32x4 .f32 :=
  VO0_3.read (Elt F) (VO0_3.writes (Elt F) VO0_3.junk (kernelRun0_A c i arg2 harg2 arg3 harg3 arg4 harg4 arg5 harg5 hc0 x0 x1 x2).1)

/-- At a later step the stores into the output block cover it likewise. -/
theorem cover0_B_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : ¬cond0_0 i) (x0 : Vec F S2x4x512x512 .f32) (x1 : Vec F S2x8x128 .f32) (x2 : Vec F S2x4x128 .f32) (xo3 : Vec F S32x4 .f32) (y : S32x4.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S32x4.size (by sl_kernel_rfl) y

/-- What a later step leaves in the output block's staging buffer, from what the step before left (`xo3`). -/
def out0_B_3 (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc0 : ¬cond0_0 i) (x0 : Vec F S2x4x512x512 .f32) (x1 : Vec F S2x8x128 .f32) (x2 : Vec F S2x4x128 .f32) (xo3 : Vec F S32x4 .f32) : Vec F S32x4 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- The accumulation: the output block's staging buffer after the body at position `n`. -/
def outsAt0 (c : Dev nD) : (n : ℕ) → n < cfg0.N → Vec F S32x4 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first step of a half. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later step: over what the step before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later step the output block's staging buffer holds what the body left at the step before: the buffer was not
    written back between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data computes
    and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the three argument arrays end as launched, at any instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frm

end
-- ==== Proof.KIBlocks.lean ====
/-
  From blocks to arrays. The printed index maps over the 32 grid points: point t fetches batches 2t and 2t+1 of the
  mask, point-data and sign-mask arrays, and the output block of point t is rows 32·(t/16) … 32·(t/16)+31, written back
  after the last step of each half. So an entry of an input block is the array's entry two batches per point down, and
  the result array is whatever function its two written-back blocks are the restrictions of. Then the nine host
  operations after the call, as one function of the call's result and the two polygon areas.
-/
import proofs.«174235_j4939212390583_2_alg».proof.Proof.KIFrame
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Frm Idealize.ShloMosaic.ValueIdx

theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val / 16 ∧ win0_3.index t (1 : Fin 2) = 0 :=
  (by decide +kernel : ∀ t : Fin grid0.N, _)

/-- An entry of the mask block at point `t` is the mask array's entry at batch `2t + (batch within the block)`. -/
theorem iblk0_apply (c : Dev nD) (t : Fin cfg0.N) (y : S2x4x512x512.Idx) (i : S64x4x512x512.Idx)
    (h0 : (i 0).val = 2 * t.val + (y 0).val) (h1 : (i 1).val = (y 1).val) (h2 : (i 2).val = (y 2).val) (h3 : (i 3).val = (y 3).val) :
    iblk m c 0 t y = V m c main_arg2 i := by
  obtain ⟨e0, e1, e2, e3, -⟩ := idx_facts t
  show V m c main_arg2 (((cfg0.win 0).blk t).view.emb y) = V m c main_arg2 i
  refine congrArg _ ?_
  funext a; apply Fin.ext
  match a with
  | ⟨0, _⟩ => show win0_0.index t (0 : Fin 4) * 2 + 1 * (y 0).val = (i 0).val; omega
  | ⟨1, _⟩ => show win0_0.index t (1 : Fin 4) * 4 + 1 * (y 1).val = (i 1).val; omega
  | ⟨2, _⟩ => show win0_0.index t (2 : Fin 4) * 512 + 1 * (y 2).val = (i 2).val; omega
  | ⟨3, _⟩ => show win0_0.index t (3 : Fin 4) * 512 + 1 * (y 3).val = (i 3).val; omega

/-- An entry of the point-data block at point `t`. -/
theorem iblk1_apply (c : Dev nD) (t : Fin cfg0.N) (y : S2x8x128.Idx) (i : S64x8x128.Idx)
    (h0 : (i 0).val = 2 * t.val + (y 0).val) (h1 : (i 1).val = (y 1).val) (h2 : (i 2).val = (y 2).val) :
    iblk m c 1 t y = V m c main_v101 i := by
  obtain ⟨-, -, -, -, e0, e1, e2, -⟩ := idx_facts t
  show V m c main_v101 (((cfg0.win 1).blk t).view.emb y) = V m c main_v101 i
  refine congrArg _ ?_
  funext a; apply Fin.ext
  match a with
  | ⟨0, _⟩ => show win0_1.index t (0 : Fin 3) * 2 + 1 * (y 0).val = (i 0).val; omega
  | ⟨1, _⟩ => show win0_1.index t (1 : Fin 3) * 8 + 1 * (y 1).val = (i 1).val; omega
  | ⟨2, _⟩ => show win0_1.index t (2 : Fin 3) * 128 + 1 * (y 2).val = (i 2).val; omega

/-- An entry of the sign-mask block at point `t`. -/
theorem iblk2_apply (c : Dev nD) (t : Fin cfg0.N) (y : S2x4x128.Idx) (i : S64x4x128.Idx)
    (h0 : (i 0).val = 2 * t.val + (y 0).val) (h1 : (i 1).val = (y 1).val) (h2 : (i 2).val = (y 2).val) :
    iblk m c 2 t y = V m c main_v78 i := by
  obtain ⟨-, -, -, -, -, -, -, e0, e1, e2, -⟩ := idx_facts t
  show V m c main_v78 (((cfg0.win 2).blk t).view.emb y) = V m c main_v78 i
  refine congrArg _ ?_
  funext a; apply Fin.ext
  match a with
  | ⟨0, _⟩ => show win0_2.index t (0 : Fin 3) * 2 + 1 * (y 0).val = (i 0).val; omega
  | ⟨1, _⟩ => show win0_2.index t (1 : Fin 3) * 4 + 1 * (y 1).val = (i 1).val; omega
  | ⟨2, _⟩ => show win0_2.index t (2 : Fin 3) * 128 + 1 * (y 2).val = (i 2).val; omega

/-- An index of the result array is in point `t`'s output block iff each coordinate is in the block's range. -/
theorem mem_blk3 (t : Fin cfg0.N) (i : S64x4.Idx) :
    i ∈ ((cfg0.win 3).blk t).view.set ↔ ∀ a : Fin 2, win0_3.index t a * S32x4.size a ≤ (i a).val ∧ (i a).val < win0_3.index t a * S32x4.size a + S32x4.size a := by
  show i ∈ ((View.whole main_v102).slice (win0_3.rect t)).set ↔ _
  rw [View.set_slice_whole, Rect.mem_set_unit]
  exact Iff.rfl

/-- The result array after the run is any function `KG` whose restriction to rows 32h … 32h+31 is what the output
    block's buffer holds after the last step of half `h`. -/
theorem final3 (c : Dev nD) (KG : S64x4.Idx → Elt F .f32)
    (h : ∀ (t : Fin cfg0.N), t.val % 16 = 15 → ∀ (y : S32x4.Idx) (i : S64x4.Idx), (i 0).val = 32 * (t.val / 16) + (y 0).val → (i 1).val = (y 1).val →
      outsAt0 m c t.val t.isLt y = KG i) :
    (dats m 0 c).arrAt 3 cfg0.N = KG := by
  have hN : cfg0.N = 32 := N_0
  refine (dats m 0 c).arrAt_eq_of_cover 3 KG (fun t hf => ?_) (fun i => ?_)
  · have h15 : t.val % 16 = 15 := (flush0_3 t).mp hf
    obtain ⟨-, -, -, -, -, -, -, -, -, -, e0, e1⟩ := idx_facts t
    show (cfg0.win 3).cut (grid0.coords t) ((dats m 0 c).after 3 t) = _
    rw [after0_3]
    funext y
    show outsAt0 m c t.val t.isLt y = KG (((cfg0.win 3).blk t).view.emb y)
    refine h t h15 y _ ?_ ?_
    · show win0_3.index t (0 : Fin 2) * 32 + 1 * (y 0).val = _; omega
    · show win0_3.index t (1 : Fin 2) * 4 + 1 * (y 1).val = _; omega
  · have hi0 : (i 0).val < 64 := (i 0).isLt
    have hi1 : (i 1).val < 4 := (i 1).isLt
    have ht : 16 * ((i 0).val / 32) + 15 < cfg0.N := by rw [hN]; omega
    obtain ⟨-, -, -, -, -, -, -, -, -, -, e0, e1⟩ := idx_facts ⟨16 * ((i 0).val / 32) + 15, ht⟩
    refine ⟨⟨16 * ((i 0).val / 32) + 15, ht⟩, (flush0_3 _).mpr (by show (16 * ((i 0).val / 32) + 15) % 16 = 15; omega), ?_⟩
    rw [mem_blk3]
    intro a
    dsimp only at e0 e1
    match a with
    | ⟨0, _⟩ => show win0_3.index _ (0 : Fin 2) * 32 ≤ (i 0).val ∧ (i 0).val < win0_3.index _ (0 : Fin 2) * 32 + 32; omega
    | ⟨1, _⟩ => show win0_3.index _ (1 : Fin 2) * 4 ≤ (i 1).val ∧ (i 1).val < win0_3.index _ (1 : Fin 2) * 4 + 4; omega

/-! ## The host operations after the call -/

/-- The nine host operations after the call as one function: |out| summed over the channels and divided by 4 is the
    intersection area; it is divided by (the two polygon areas' sum minus itself), and the 64 quotients are averaged. -/
def tailK (out : S64x4.Idx → Elt F .f32) (pa ga : S64.Idx → Elt F .f32) : S_.Idx → Elt F .f32 :=
  Host.divf
    (Host.reduceAdd
      (Host.divf
        (Host.divf (Host.reduceAdd (Host.absf out) (constant S_ .f32 0#32) reducesTo_S64x4_S64_d1 h_S_)
          (broadcastInDim S64 ![] bcast_S_S64 (constant S_ .f32 1082130432#32)))
        (subf (addf pa ga)
          (Host.divf (Host.reduceAdd (Host.absf out) (constant S_ .f32 0#32) reducesTo_S64x4_S64_d1 h_S_)
            (broadcastInDim S64 ![] bcast_S_S64 (constant S_ .f32 1082130432#32)))))
      (constant S_ .f32 0#32) reducesTo_S64_S_d0 h_S_)
    (constant S_ .f32 1115684864#32)

/-- The program's result after the run: the tail of the result array and of the two polygon areas as the region
    found them. -/
theorem tail_eq (c : Dev nD) :
    Pipeline.afterTail₀ cfgs (dats m) 0 (V0 m) [hostOps1] c main_v111
      = tailK ((dats m 0 c).arrAt 3 cfg0.N) (V m c main_v23) (V m c main_v43) := by
  unfold Pipeline.afterTail₀
  show StableHlo.after hostOps1 _ (Proc.devRef .tc main_v111) = _
  after_results
  rw [Pipeline.withArrays_arr spec0 launch0.win.arr_inj c _ _ 3,
    Pipeline.withArrays_of_ne _ c (V0 m c) _ main_v23 (by exact (by decide : ∀ w, Pipeline.arrRef spec0 w ≠ main_v23)),
    Pipeline.withArrays_of_ne _ c (V0 m c) _ main_v43 (by exact (by decide : ∀ w, Pipeline.arrRef spec0 w ≠ main_v43))]
  rfl

/-- The run, read: the result at the tail of the result array, the arguments unchanged. -/
theorem run_tail : θ_run defs (onTc (τ := τ) (main (F := F))) ⟨m, fun _ => 0, ρ⟩ (fun r => ∀ c : Dev nD,
      r.2.mem ((c.tc : Thread nD τ).loc main_v111) = tailK ((dats m 0 c).arrAt 3 cfg0.N) (V m c main_v23) (V m c main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v111 (Pipeline.mem_restRefs_of main_v111 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩) (run_main m ρ)

end Cert.KernelIdeal.Val

end
-- ==== Proof.RefSpec.lean ====
/-
  The reference side of the certificate, as mathematics over literal shapes (no program is imported here, so
  both programs' value proofs can be stated over these definitions).

  For a batch `b`, a channel `c` and a vertex `v`, with `X = 512 · pred[b,v,0]`, `Y = 512 · pred[b,v,1]`,
  `X0f = ⌊X⌋`, `X1f = X0f + 1` (and the same for `Y`), the bilinear interpolation of the mask at `(X, Y)` is
    `interp[b,c,v] = w00·M[b,c,Y0,X0] + w01·M[b,c,Y1,X0] + w10·M[b,c,Y0,X1] + w11·M[b,c,Y1,X1]`
  with the weights `w00 = (X1f−X)(Y1f−Y)`, `w01 = (X1f−X)(Y−Y0f)`, `w10 = (X−X0f)(Y1f−Y)`, `w11 = (X−X0f)(Y−Y0f)`
  and the integer positions `X0 = int(clip(X0f, 0, 511))`, … read as StableHLO's gather reads a start index (a
  negative word wrapped by 512, then read signed and clamped into `[0, 511]`).  The raw intersection term is
    `raw[b,c] = 0 + Σ_v interp[b,c,v] · sm[b,c,v]`,
  where `sm` (a sign times a 0/1-valued uniqueness mask, per direction) is kept as ONE array, the composition
  of the array operations that build it; the result is the nine closing array operations (`tailArr`) applied to
  `raw` and to the two polygon areas.
-/
import Idealize.ShloMosaic.PureOps.Ideal
import Idealize.ShloMosaic.Lib.ValueIdx

noncomputable section

open scoped BigOperators

namespace Cert.RefSide

open Idealize.ShloMosaic Idealize.ShloMosaic.ValueIdx

/-! ## Shapes -/

abbrev Sh0 : Shape := ⟨0, ![]⟩
abbrev ShPts : Shape := ⟨3, ![64, 128, 2]⟩
abbrev ShMask : Shape := ⟨4, ![64, 4, 512, 512]⟩
abbrev ShPts127 : Shape := ⟨3, ![64, 127, 2]⟩
abbrev ShPts1 : Shape := ⟨3, ![64, 1, 2]⟩
abbrev ShCol1 : Shape := ⟨3, ![64, 128, 1]⟩
abbrev ShBV : Shape := ⟨2, ![64, 128]⟩
abbrev ShB : Shape := ⟨1, ![64]⟩
abbrev ShB1 : Shape := ⟨2, ![64, 1]⟩
abbrev Sh1 : Shape := ⟨1, ![1]⟩
abbrev ShBCV : Shape := ⟨3, ![64, 4, 128]⟩
abbrev ShB1V : Shape := ⟨3, ![64, 1, 128]⟩
abbrev ShBC : Shape := ⟨2, ![64, 4]⟩
abbrev ShB8V : Shape := ⟨3, ![64, 8, 128]⟩

/-! ## The arrays both programs build from the points: scaled points, the roll, the two columns -/

/-- The points scaled by 512. -/
def scaled (a : FVec Ideal ShPts .f32) : FVec Ideal ShPts .f32 :=
  mulf a (broadcastInDim ShPts (![] : Fin 0 → Fin 3) (by decide) (constant (F := Ideal) Sh0 .f32 0x44000000#32))

/-- The vertices rolled by one along the vertex axis: vertex `v` holds vertex `v + 1`, the last one vertex `0`. -/
def rolled (p : FVec Ideal ShPts .f32) : FVec Ideal ShPts .f32 :=
  concatenate ShPts 1 [⟨ShPts127, extractStridedSlice ShPts127 ![0, 1, 0] p (by decide)⟩,
    ⟨ShPts1, extractStridedSlice ShPts1 ![0, 0, 0] p (by decide)⟩]
    (by decide : Shape.Concatenates [ShPts127, ShPts1] ShPts 1)

/-- The `x` column of a points array. -/
def colX (p : FVec Ideal ShPts .f32) : FVec Ideal ShBV .f32 :=
  shapeCast ShBV (extractStridedSlice ShCol1 ![0, 0, 0] p (by decide)) (by decide)

/-- The `y` column of a points array. -/
def colY (p : FVec Ideal ShPts .f32) : FVec Ideal ShBV .f32 :=
  shapeCast ShBV (extractStridedSlice ShCol1 ![0, 0, 1] p (by decide)) (by decide)

/-! ## The polygon area (shoelace anchored at the largest `y`) -/

/-- `|Σ_v (x_{v+1} − x_v) · (y_max − (y_{v+1} + y_v)/2)|` per batch, of the points scaled by 512. -/
def areaArr (a : FVec Ideal ShPts .f32) : FVec Ideal ShB .f32 :=
  Host.absf (Host.reduceAdd
    (mulf (subf (colX (rolled (scaled a))) (colX (scaled a)))
      (subf
        (broadcastInDim ShBV (![0, 1] : Fin 2 → Fin 2) (by decide)
          (broadcastInDim ShB1 (![0] : Fin 1 → Fin 2) (by decide)
            (Host.reduce FloatOps.maximumf (colY (scaled a)) (constant (F := Ideal) Sh0 .f32 0xFF800000#32)
              (by decide : ShBV.ReducesTo [1] ShB) (by decide))))
        (mulf (addf (colY (rolled (scaled a))) (colY (scaled a)))
          (broadcastInDim ShBV (![] : Fin 0 → Fin 2) (by decide) (constant (F := Ideal) Sh0 .f32 0x3F000000#32)))))
    (constant (F := Ideal) Sh0 .f32 0x00000000#32) (by decide : ShBV.ReducesTo [1] ShB) (by decide))

/-! ## The signed uniqueness mask `sm` -/

/-- The dimension numbers of `x.at[:, 0].set(u)` on a `[64, 128]` array. -/
def col0Dims : ScatterDims ShBV Sh1 ShB where
  updateWindowDims := [0]
  insertedWindowDims := [1]
  scatterDimsToOperandDims := [1]
  indexVectorDim := 0

/-- Column `0` replaced by ones. -/
def setCol0 (x : FVec Ideal ShBV .f32) : FVec Ideal ShBV .f32 :=
  Host.scatter col0Dims (fun _ b => b) x
    (broadcastInDim Sh1 (![] : Fin 0 → Fin 1) (by decide) (constantI Sh0 32 0#32))
    (broadcastInDim ShB (![] : Fin 0 → Fin 1) (by decide) (constant (F := Ideal) Sh0 .f32 0x3F800000#32))

/-- `min(|d with column 0 set to 1|, 1)`. -/
def uniq (d : FVec Ideal ShBV .f32) : FVec Ideal ShBV .f32 :=
  minimumf (Host.absf (setCol0 d))
    (broadcastInDim ShBV (![] : Fin 0 → Fin 2) (by decide) (constant (F := Ideal) Sh0 .f32 0x3F800000#32))

/-- The `x` direction: the sign of `x_{v+1} − x_v` times the uniqueness mask of `⌊x_{v+1}⌋ − ⌊x_v⌋`. -/
def smX (p : FVec Ideal ShPts .f32) : FVec Ideal ShBV .f32 :=
  mulf (Host.sign (colX (subf (rolled p) p))) (uniq (colX (subf (Host.floor (rolled p)) (Host.floor p))))

/-- The `y` direction. -/
def smY (p : FVec Ideal ShPts .f32) : FVec Ideal ShBV .f32 :=
  mulf (Host.sign (colY (subf (rolled p) p))) (uniq (colY (subf (Host.floor (rolled p)) (Host.floor p))))

/-- `sm[b, c, v]`: channels 0 and 1 the `x` direction, channels 2 and 3 the `y` direction. -/
def smArr (a : FVec Ideal ShPts .f32) : FVec Ideal ShBCV .f32 :=
  concatenate ShBCV 1
    [⟨ShB1V, broadcastInDim ShB1V (![0, 2] : Fin 2 → Fin 3) (by decide) (smX (scaled a))⟩,
     ⟨ShB1V, broadcastInDim ShB1V (![0, 2] : Fin 2 → Fin 3) (by decide) (smX (scaled a))⟩,
     ⟨ShB1V, broadcastInDim ShB1V (![0, 2] : Fin 2 → Fin 3) (by decide) (smY (scaled a))⟩,
     ⟨ShB1V, broadcastInDim ShB1V (![0, 2] : Fin 2 → Fin 3) (by decide) (smY (scaled a))⟩]
    (by decide : Shape.Concatenates [ShB1V, ShB1V, ShB1V, ShB1V] ShBCV 1)

/-! ## The interpolation, array by array

The same operations the scalar definitions further down spell at one vertex; `rawArr_eq` (in the module that
reads these arrays at an index) says the two agree. -/

/-- The `[64, 128]` array of ones. -/
def oneBV : FVec Ideal ShBV .f32 :=
  broadcastInDim ShBV (![] : Fin 0 → Fin 2) (by decide) (constant (F := Ideal) Sh0 .f32 0x3F800000#32)

/-- `X` and `Y`, per batch and vertex. -/
def xsA (a : FVec Ideal ShPts .f32) : FVec Ideal ShBV .f32 := colX (scaled a)
def ysA (a : FVec Ideal ShPts .f32) : FVec Ideal ShBV .f32 := colY (scaled a)
def x0fA (a : FVec Ideal ShPts .f32) : FVec Ideal ShBV .f32 := Host.floor (xsA a)
def y0fA (a : FVec Ideal ShPts .f32) : FVec Ideal ShBV .f32 := Host.floor (ysA a)
def x1fA (a : FVec Ideal ShPts .f32) : FVec Ideal ShBV .f32 := addf (x0fA a) oneBV
def y1fA (a : FVec Ideal ShPts .f32) : FVec Ideal ShBV .f32 := addf (y0fA a) oneBV

def w00A (a : FVec Ideal ShPts .f32) : FVec Ideal ShBV .f32 := mulf (subf (x1fA a) (xsA a)) (subf (y1fA a) (ysA a))
def w01A (a : FVec Ideal ShPts .f32) : FVec Ideal ShBV .f32 := mulf (subf (x1fA a) (xsA a)) (subf (ysA a) (y0fA a))
def w10A (a : FVec Ideal ShPts .f32) : FVec Ideal ShBV .f32 := mulf (subf (xsA a) (x0fA a)) (subf (y1fA a) (ysA a))
def w11A (a : FVec Ideal ShPts .f32) : FVec Ideal ShBV .f32 := mulf (subf (xsA a) (x0fA a)) (subf (ysA a) (y0fA a))

/-- `clip(t, 0, 511)`, the integer bounds converted to floats. -/
def clipA (t : FVec Ideal ShBV .f32) : FVec Ideal ShBV .f32 :=
  minimumf (broadcastInDim ShBV (![] : Fin 0 → Fin 2) (by decide) (sitofp .f32 (constantI Sh0 32 511#32)))
    (maximumf (broadcastInDim ShBV (![] : Fin 0 → Fin 2) (by decide) (sitofp .f32 (constantI Sh0 32 0#32))) t)

/-- The clipped position as a 32-bit integer. -/
def wordA (t : FVec Ideal ShBV .f32) : IVec ShBV 32 := fptosi 32 (clipA t)

/-- A negative word has 512 added (numpy's negative indexing). -/
def wrapA (w : IVec ShBV 32) : IVec ShBV 32 :=
  select (cmpi .slt w (broadcastInDim ShBV (![] : Fin 0 → Fin 2) (by decide) (constantI Sh0 32 0#32)))
    (addi w (broadcastInDim ShBV (![] : Fin 0 → Fin 2) (by decide) (constantI Sh0 32 512#32))) w

/-- The start indices `[row, column]` per batch and vertex. -/
def startA (wy wx : IVec ShBV 32) : IVec ShPts 32 :=
  concatenate ShPts 2
    [⟨ShCol1, broadcastInDim ShCol1 (![0, 1] : Fin 2 → Fin 3) (by decide) (wrapA wy)⟩,
     ⟨ShCol1, broadcastInDim ShCol1 (![0, 1] : Fin 2 → Fin 3) (by decide) (wrapA wx)⟩]
    (by decide : Shape.Concatenates [ShCol1, ShCol1] ShPts 2)

/-- The dimension numbers of `masks[b, :, y[b, v], x[b, v]]`. -/
def maskDims : GatherDims ShMask ShPts ShBCV where
  offsetDims := [1]
  collapsedSliceDims := [2, 3]
  operandBatchingDims := [0]
  startIndicesBatchingDims := [0]
  startIndexMap := [2, 3]
  indexVectorDim := 2
  sliceSizes := ![1, 4, 1, 1]

/-- The mask entries at the rows `wy` and columns `wx`. -/
def pickA (a2 : FVec Ideal ShMask .f32) (wy wx : IVec ShBV 32) : FVec Ideal ShBCV .f32 :=
  Host.gather maskDims a2 (startA wy wx)

/-- A per-vertex weight repeated over the four channels. -/
def spread (w : FVec Ideal ShBV .f32) : FVec Ideal ShBCV .f32 :=
  broadcastInDim ShBCV (![0, 1, 2] : Fin 3 → Fin 3) (by decide)
    (broadcastInDim ShB1V (![0, 2] : Fin 2 → Fin 3) (by decide) w)

/-- The interpolated mask values `[64, 4, 128]`. -/
def interpA (a0 : FVec Ideal ShPts .f32) (a2 : FVec Ideal ShMask .f32) : FVec Ideal ShBCV .f32 :=
  addf
    (addf
      (addf (mulf (spread (w00A a0)) (pickA a2 (wordA (y0fA a0)) (wordA (x0fA a0))))
        (mulf (spread (w01A a0)) (pickA a2 (wordA (y1fA a0)) (wordA (x0fA a0)))))
      (mulf (spread (w10A a0)) (pickA a2 (wordA (y0fA a0)) (wordA (x1fA a0)))))
    (mulf (spread (w11A a0)) (pickA a2 (wordA (y1fA a0)) (wordA (x1fA a0))))

/-- The raw term as the array operations give it: the sum over the vertices of `interp · sm`. -/
def rawArr (a0 : FVec Ideal ShPts .f32) (a2 : FVec Ideal ShMask .f32) : FVec Ideal ShBC .f32 :=
  Host.reduceAdd (mulf (interpA a0 a2) (smArr a0)) (constant (F := Ideal) Sh0 .f32 0x00000000#32)
    (by decide : ShBCV.ReducesTo [2] ShBC) (by decide)

/-! ## The per-vertex data the kernel is handed: eight rows per batch -/

/-- A `[64, 128]` array as a `[64, 1, 128]` one. -/
def row1 (w : FVec Ideal ShBV .f32) : FVec Ideal ShB1V .f32 :=
  broadcastInDim ShB1V (![0, 2] : Fin 2 → Fin 3) (by decide) w

/-- Rows `X0f, X1f, X1f − X, X − X0f, Y0f, Y1f, Y1f − Y, Y − Y0f` of every batch. -/
def ptsArr (a : FVec Ideal ShPts .f32) : FVec Ideal ShB8V .f32 :=
  concatenate ShB8V 1
    [⟨ShB1V, row1 (x0fA a)⟩, ⟨ShB1V, row1 (x1fA a)⟩,
     ⟨ShB1V, row1 (subf (x1fA a) (xsA a))⟩, ⟨ShB1V, row1 (subf (xsA a) (x0fA a))⟩,
     ⟨ShB1V, row1 (y0fA a)⟩, ⟨ShB1V, row1 (y1fA a)⟩,
     ⟨ShB1V, row1 (subf (y1fA a) (ysA a))⟩, ⟨ShB1V, row1 (subf (ysA a) (y0fA a))⟩]
    (by decide : Shape.Concatenates [ShB1V, ShB1V, ShB1V, ShB1V, ShB1V, ShB1V, ShB1V, ShB1V] ShB8V 1)

/-! ## The closing operations -/

/-- From the raw term `raw[b,c]` and the two areas: `I_b = (Σ_c |raw[b,c]|) / 4`, the result the mean over the
    batches of `I_b / (A_b + B_b − I_b)`. -/
def tailArr (A B : FVec Ideal ShB .f32) (raw : FVec Ideal ShBC .f32) : FVec Ideal Sh0 .f32 :=
  Host.divf
    (Host.reduceAdd
      (Host.divf
        (Host.divf (Host.reduceAdd (Host.absf raw) (constant (F := Ideal) Sh0 .f32 0x00000000#32)
            (by decide : ShBC.ReducesTo [1] ShB) (by decide))
          (broadcastInDim ShB (![] : Fin 0 → Fin 1) (by decide) (constant (F := Ideal) Sh0 .f32 0x40800000#32)))
        (subf (addf A B)
          (Host.divf (Host.reduceAdd (Host.absf raw) (constant (F := Ideal) Sh0 .f32 0x00000000#32)
              (by decide : ShBC.ReducesTo [1] ShB) (by decide))
            (broadcastInDim ShB (![] : Fin 0 → Fin 1) (by decide) (constant (F := Ideal) Sh0 .f32 0x40800000#32)))))
      (constant (F := Ideal) Sh0 .f32 0x00000000#32) (by decide : ShB.ReducesTo [0] Sh0) (by decide))
    (constant (F := Ideal) Sh0 .f32 0x42800000#32)

/-- The closing operations on the two polygons' areas. -/
def tailR (a0 a1 : FVec Ideal ShPts .f32) (raw : FVec Ideal ShBC .f32) : FVec Ideal Sh0 .f32 :=
  tailArr (areaArr a0) (areaArr a1) raw

/-! ## One vertex: position, weights, integer positions -/

/-- `X = pred[b, v, 0] · 512`. -/
def px (a0 : FVec Ideal ShPts .f32) (b : Fin 64) (v : Fin 128) : EReal :=
  a0 (ix3 b v (0 : Fin 2)) * Ideal.ofBits .f32 0x44000000#32
/-- `Y = pred[b, v, 1] · 512`. -/
def py (a0 : FVec Ideal ShPts .f32) (b : Fin 64) (v : Fin 128) : EReal :=
  a0 (ix3 b v (1 : Fin 2)) * Ideal.ofBits .f32 0x44000000#32

/-- The floor, fixing the infinities. -/
def flr (t : EReal) : EReal := Ideal.liftRound Int.floor t

def x0f (a0 : FVec Ideal ShPts .f32) (b : Fin 64) (v : Fin 128) : EReal := flr (px a0 b v)
def y0f (a0 : FVec Ideal ShPts .f32) (b : Fin 64) (v : Fin 128) : EReal := flr (py a0 b v)
def x1f (a0 : FVec Ideal ShPts .f32) (b : Fin 64) (v : Fin 128) : EReal := x0f a0 b v + Ideal.ofBits .f32 0x3F800000#32
def y1f (a0 : FVec Ideal ShPts .f32) (b : Fin 64) (v : Fin 128) : EReal := y0f a0 b v + Ideal.ofBits .f32 0x3F800000#32

/-- `X1f − X`, the weight of column `X0`. -/
def wx0 (a0 : FVec Ideal ShPts .f32) (b : Fin 64) (v : Fin 128) : EReal := x1f a0 b v - px a0 b v
/-- `X − X0f`, the weight of column `X1`. -/
def wx1 (a0 : FVec Ideal ShPts .f32) (b : Fin 64) (v : Fin 128) : EReal := px a0 b v - x0f a0 b v
/-- `Y1f − Y`, the weight of row `Y0`. -/
def wy0 (a0 : FVec Ideal ShPts .f32) (b : Fin 64) (v : Fin 128) : EReal := y1f a0 b v - py a0 b v
/-- `Y − Y0f`, the weight of row `Y1`. -/
def wy1 (a0 : FVec Ideal ShPts .f32) (b : Fin 64) (v : Fin 128) : EReal := py a0 b v - y0f a0 b v

/-- `clip(t, 0, 511)`, the bounds the integers `0` and `511` converted to floats. -/
def clipF (t : EReal) : EReal :=
  min (((511#32 : BitVec 32).toInt : ℝ) : EReal) (max (((0#32 : BitVec 32).toInt : ℝ) : EReal) t)

/-- A start-index word as the reference prepares it: a negative word has 512 added. -/
def wrapW (w : BitVec 32) : BitVec 32 :=
  Scalar.select (IntOp.cmpi .slt w 0#32) (IntOp.addi w 512#32) w

/-- The word `int(clip(t, 0, 511))`, wrapped. -/
def idxWord (t : EReal) : BitVec 32 := wrapW (Ideal.fptosi 32 (clipF t))

/-- The position a gather reads for the float position `t`: the word read signed and clamped into `[0, 511]`. -/
def clipIdx (t : EReal) : Fin 512 := ⟨min (idxWord t).toInt.toNat 511, by omega⟩

def X0 (a0 : FVec Ideal ShPts .f32) (b : Fin 64) (v : Fin 128) : Fin 512 := clipIdx (x0f a0 b v)
def X1 (a0 : FVec Ideal ShPts .f32) (b : Fin 64) (v : Fin 128) : Fin 512 := clipIdx (x1f a0 b v)
def Y0 (a0 : FVec Ideal ShPts .f32) (b : Fin 64) (v : Fin 128) : Fin 512 := clipIdx (y0f a0 b v)
def Y1 (a0 : FVec Ideal ShPts .f32) (b : Fin 64) (v : Fin 128) : Fin 512 := clipIdx (y1f a0 b v)

/-! ## The interpolation and the raw term -/

/-- `((w00·M[Y0,X0] + w01·M[Y1,X0]) + w10·M[Y0,X1]) + w11·M[Y1,X1]` on channel `c` of batch `b`. -/
def interp (a0 : FVec Ideal ShPts .f32) (a2 : FVec Ideal ShMask .f32) (b : Fin 64) (c : Fin 4) (v : Fin 128) : EReal :=
  ((wx0 a0 b v * wy0 a0 b v * a2 (ix4 b c (Y0 a0 b v) (X0 a0 b v))
      + wx0 a0 b v * wy1 a0 b v * a2 (ix4 b c (Y1 a0 b v) (X0 a0 b v)))
    + wx1 a0 b v * wy0 a0 b v * a2 (ix4 b c (Y0 a0 b v) (X1 a0 b v)))
  + wx1 a0 b v * wy1 a0 b v * a2 (ix4 b c (Y1 a0 b v) (X1 a0 b v))

/-- `raw[b, c] = 0 + Σ_v interp[b, c, v] · sm[b, c, v]`. -/
def rawAt (a0 : FVec Ideal ShPts .f32) (a2 : FVec Ideal ShMask .f32) (b : Fin 64) (c : Fin 4) : EReal :=
  Ideal.ofBits .f32 0x00000000#32 + ∑ v : Fin 128, interp a0 a2 b c v * smArr a0 (ix3 b c v)

/-- The raw term as an array. -/
def rawR (a0 : FVec Ideal ShPts .f32) (a2 : FVec Ideal ShMask .f32) : FVec Ideal ShBC .f32 :=
  fun j => rawAt a0 a2 (j 0) (j 1)

theorem rawR_apply (a0 : FVec Ideal ShPts .f32) (a2 : FVec Ideal ShMask .f32) (b : Fin 64) (c : Fin 4) :
    rawR a0 a2 (ix2 b c)
      = Ideal.ofBits .f32 0x00000000#32 + ∑ v : Fin 128, interp a0 a2 b c v * smArr a0 (ix3 b c v) := rfl

end Cert.RefSide

end
-- ==== Proof.KIPreA.lean ====
/-
  The host operations before the call, read: the buffers the region finds hold the polygon areas of the scaled
  predicted and ground-truth points, the stacked sign-mask array and the stacked point-data array (floors, floors plus
  one, and the four distances to them), as functions of the two point arrays.
-/
import proofs.«174235_j4939212390583_2_alg».proof.Proof.KIBase
import proofs.«174235_j4939212390583_2_alg».proof.Proof.RefSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 4000000 in
theorem V_area0 (c : Dev nD) : V m c main_v23 = Cert.RefSide.areaArr (m ((c.tc : Thread nD τ).loc main_arg0)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 4000000 in
theorem V_area1 (c : Dev nD) : V m c main_v43 = Cert.RefSide.areaArr (m ((c.tc : Thread nD τ).loc main_arg1)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Val

end
-- ==== Proof.KIInv.lean ====
/-
  The running sums in the output block. Suppose that at every grid point the body adds, to the entry (r, q) of the
  block, a contribution `cell t r q` when r / 2 is the point's step within its half (t mod 16) and nothing otherwise,
  the first step of a half starting from the zero block. Then after step t the entry (r, q) holds the contribution
  of the step r / 2 of the same half if that step is not later than t, and zero otherwise; after the last step of a half
  every entry holds its own step's contribution. (On the extended reals adding zero changes nothing, so no finiteness
  is needed here.) The result array is therefore the array of those contributions.
-/
import proofs.«174235_j4939212390583_2_alg».proof.Proof.KIBlocks
import Idealize.ShloMosaic.PureOps.Ideal

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

/-- What a first step of a half and a later step do to the entry (r, q), as hypotheses on the cases' found contents. -/
structure StepLaw (c : Dev nD) (cell : ℕ → Fin 32 → Fin 4 → Ideal .f32) : Prop where
  first : ∀ (t : Fin cfg0.N) (h0 : t.val % 16 = 0) (r : Fin 32) (q : Fin 4),
    out0_A_3 c (grid0.coords t) (ms0_0 t) (hs0_0 t) (ms0_1 t) (hs0_1 t) (ms0_2 t) (hs0_2 t) (ms0_3 t) (hs0_3 t)
        ((hcond0_0 t).mpr h0) (iblk m c 0 t) (iblk m c 1 t) (iblk m c 2 t) (ix2 r q)
      = if r.val / 2 = t.val % 16 then cell t.val r q else 0
  later : ∀ (t : Fin cfg0.N) (h0 : ¬t.val % 16 = 0) (xo : Vec Ideal S32x4 .f32) (r : Fin 32) (q : Fin 4),
    out0_B_3 c (grid0.coords t) (ms0_0 t) (hs0_0 t) (ms0_1 t) (hs0_1 t) (ms0_2 t) (hs0_2 t) (ms0_3 t) (hs0_3 t)
        (fun h => h0 ((hcond0_0 t).mp h)) (iblk m c 0 t) (iblk m c 1 t) (iblk m c 2 t) xo (ix2 r q)
      = xo (ix2 r q) + (if r.val / 2 = t.val % 16 then cell t.val r q else 0)

/-- After step n the entry (r, q) holds the contribution of step r / 2 of the same half, once that step has run. -/
theorem outsAt_inv (c : Dev nD) (cell : ℕ → Fin 32 → Fin 4 → Ideal .f32) (L : StepLaw m c cell) :
    ∀ (n : ℕ) (h : n < cfg0.N) (r : Fin 32) (q : Fin 4),
      outsAt0 m c n h (ix2 r q) = if r.val / 2 ≤ n % 16 then cell (n - n % 16 + r.val / 2) r q else 0
  | 0, h, r, q => by
    rw [outsAt0_A m c ⟨0, h⟩ rfl, L.first ⟨0, h⟩ rfl r q]
    by_cases hr : r.val / 2 = 0
    · rw [if_pos (by simpa using hr), if_pos (by simp [hr]), hr]
    · rw [if_neg (by simpa using hr), if_neg (by simp; omega)]
  | n + 1, h, r, q => by
    have hN : cfg0.N = 32 := N_0
    by_cases h0 : (n + 1) % 16 = 0
    · rw [outsAt0_A m c ⟨n + 1, h⟩ h0, L.first ⟨n + 1, h⟩ h0 r q]
      show (if r.val / 2 = (n + 1) % 16 then cell (n + 1) r q else 0) = _
      by_cases hr : r.val / 2 = 0
      · rw [if_pos (by omega), if_pos (by omega), show n + 1 - (n + 1) % 16 + r.val / 2 = n + 1 from by omega]
      · rw [if_neg (by omega), if_neg (by omega)]
    · rw [outsAt0_B m c ⟨n + 1, h⟩ h0, L.later ⟨n + 1, h⟩ h0 _ r q]
      show outsAt0 m c n _ (ix2 r q) + (if r.val / 2 = (n + 1) % 16 then cell (n + 1) r q else 0) = _
      rw [outsAt_inv c cell L n (Nat.lt_of_succ_lt h) r q]
      by_cases h1 : r.val / 2 ≤ n % 16
      · rw [if_pos h1, if_neg (by omega), if_pos (by omega), add_zero,
          show n + 1 - (n + 1) % 16 + r.val / 2 = n - n % 16 + r.val / 2 from by omega]
      · rw [if_neg h1]
        by_cases h2 : r.val / 2 = (n + 1) % 16
        · rw [if_pos h2, if_pos (by omega), zero_add, show n + 1 - (n + 1) % 16 + r.val / 2 = n + 1 from by omega]
        · rw [if_neg h2, if_neg (by omega), add_zero]

/-- The array of the contributions: entry (B, q) is the contribution at step (B mod 32) / 2 of half B / 32, at row
    B mod 32 of that half's block. -/
def cellArr (cell : ℕ → Fin 32 → Fin 4 → Ideal .f32) : S64x4.Idx → Ideal .f32 := fun i =>
  cell (16 * ((i 0).val / 32) + ((i 0).val % 32) / 2) ⟨(i 0).val % 32, Nat.mod_lt _ (by decide)⟩ (i 1)

/-- The result array after the run is the array of the contributions. -/
theorem final_cells (c : Dev nD) (cell : ℕ → Fin 32 → Fin 4 → Ideal .f32) (L : StepLaw m c cell) :
    (dats m 0 c).arrAt 3 cfg0.N = cellArr cell := by
  refine final3 m c (cellArr cell) (fun t h15 y i hi0 hi1 => ?_)
  have hN : cfg0.N = 32 := N_0
  have ht := t.isLt
  obtain ⟨r, q, rfl⟩ : ∃ (r : Fin 32) (q : Fin 4), y = ix2 r q := ⟨y 0, y 1, eq_ix2 y⟩
  have hi0' : (i 0).val = 32 * (t.val / 16) + r.val := hi0
  have hi1' : (i 1).val = q.val := hi1
  have hr := r.isLt
  rw [outsAt_inv m c cell L t.val t.isLt r q, if_pos (by omega)]
  unfold cellArr
  have e1 : i 1 = q := Fin.ext hi1'
  have e0 : (⟨(i 0).val % 32, Nat.mod_lt _ (by decide)⟩ : Fin 32) = r := Fin.ext (by show (i 0).val % 32 = r.val; omega)
  rw [e1, e0, show t.val - t.val % 16 + r.val / 2 = 16 * ((i 0).val / 32) + (i 0).val % 32 / 2 from by omega]

end Cert.KernelIdeal.Val

end
-- ==== Proof.BodyLaw.lean ====
/-
  The separability law behind bilinear interpolation written as two one-hot contractions, on the
  extended reals, for real-valued data.

  For a table M(y, x), two column positions X0, X1 with weights a0, a1 and two row positions Y0, Y1
  with weights b0, b1, put
      kx(x) = (a0 if x = X0 else 0) + (a1 if x = X1 else 0),
      ky(y) = (b0 if y = Y0 else 0) + (b1 if y = Y1 else 0).
  Then
      ∑_y (∑_x M(y, x) · kx(x)) · ky(y)
        = ((a0·b0) · M(Y0, X0) + (a0·b1) · M(Y1, X0) + (a1·b0) · M(Y0, X1)) + (a1·b1) · M(Y1, X1).
  Nothing is assumed about the positions: X0 = X1 and Y0 = Y1 are allowed (both one-hot terms then
  land on the same entry and the right-hand side repeats it with the two weights, which is the same
  number). On the extended reals the identity needs every entry and weight to be a real number
  (distributivity fails at the infinities); so it is proved in ℝ and carried over by the coercion.
-/
import Idealize.ShloMosaic.PureOps.Ideal

namespace Cert.BodyMath

open scoped BigOperators

/-! ## Extended reals that are real numbers -/

/-- An extended real that is (the coercion of) a real number. -/
def IsReal (a : EReal) : Prop := ∃ r : ℝ, a = (r : EReal)

theorem isReal_coe (r : ℝ) : IsReal (r : EReal) := ⟨r, rfl⟩

theorem isReal_iff (a : EReal) : IsReal a ↔ a ≠ ⊥ ∧ a ≠ ⊤ := by
  constructor
  · rintro ⟨r, rfl⟩; exact ⟨EReal.coe_ne_bot r, EReal.coe_ne_top r⟩
  · rintro ⟨hb, ht⟩
    induction a using EReal.rec with
    | bot => exact absurd rfl hb
    | top => exact absurd rfl ht
    | coe r => exact ⟨r, rfl⟩

theorem IsReal.ne_bot {a : EReal} (h : IsReal a) : a ≠ ⊥ := ((isReal_iff a).mp h).1
theorem IsReal.ne_top {a : EReal} (h : IsReal a) : a ≠ ⊤ := ((isReal_iff a).mp h).2

theorem isReal_zero : IsReal 0 := ⟨0, rfl⟩
theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

theorem IsReal.ite {p : Prop} [Decidable p] {a b : EReal} (ha : IsReal a) (hb : IsReal b) :
    IsReal (if p then a else b) := by
  split <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Rounding a real number to an integer (floor, ceiling, truncation …) gives a real number. -/
theorem isReal_liftRound (f : ℝ → ℤ) {a : EReal} (ha : IsReal a) :
    IsReal (Idealize.ShloMosaic.Ideal.liftRound f a) := by
  obtain ⟨r, rfl⟩ := ha
  exact ⟨((f r : ℤ) : ℝ), by rw [Idealize.ShloMosaic.Ideal.liftRound_coe]⟩

/-! ## The law in ℝ -/

section Real

variable {ι κ : Type*} [Fintype ι] [DecidableEq ι] [Fintype κ] [DecidableEq κ]

/-- One one-hot contraction: a row of the table against the two-position weight vector. -/
theorem sum_mul_twoHot (f : ι → ℝ) (X0 X1 : ι) (a0 a1 : ℝ) :
    ∑ x, f x * ((if x = X0 then a0 else 0) + (if x = X1 then a1 else 0)) = f X0 * a0 + f X1 * a1 := by
  simp only [mul_add, mul_ite, mul_zero, Finset.sum_add_distrib, Finset.sum_ite_eq', Finset.mem_univ, if_true]

/-- The separability law in ℝ. -/
theorem separable_real (M : κ → ι → ℝ) (X0 X1 : ι) (Y0 Y1 : κ) (a0 a1 b0 b1 : ℝ) :
    ∑ y, (∑ x, M y x * ((if x = X0 then a0 else 0) + (if x = X1 then a1 else 0)))
          * ((if y = Y0 then b0 else 0) + (if y = Y1 then b1 else 0))
      = (((a0 * b0) * M Y0 X0 + (a0 * b1) * M Y1 X0) + (a1 * b0) * M Y0 X1) + (a1 * b1) * M Y1 X1 := by
  simp only [sum_mul_twoHot]
  ring

end Real

/-! ## The law on the extended reals -/

theorem coe_ite (p : Prop) [Decidable p] (a b : ℝ) :
    ((if p then a else b : ℝ) : EReal) = if p then (a : EReal) else (b : EReal) := by
  split <;> rfl

section EReal

variable {ι κ : Type*} [Fintype ι] [DecidableEq ι] [Fintype κ] [DecidableEq κ]

/-- One one-hot contraction on the extended reals, for real-valued data. -/
theorem sum_mul_twoHot_ereal (f : ι → EReal) (X0 X1 : ι) (a0 a1 : EReal)
    (hf : ∀ x, IsReal (f x)) (ha0 : IsReal a0) (ha1 : IsReal a1) :
    ∑ x, f x * ((if x = X0 then a0 else 0) + (if x = X1 then a1 else 0)) = f X0 * a0 + f X1 * a1 := by
  choose g hg using hf
  obtain ⟨r0, rfl⟩ := ha0; obtain ⟨r1, rfl⟩ := ha1
  have key := congrArg (fun r : ℝ => (r : EReal)) (sum_mul_twoHot g X0 X1 r0 r1)
  simp only [coe_sum, EReal.coe_add, EReal.coe_mul, coe_ite, EReal.coe_zero] at key
  simp only [hg]
  exact key

/-- The separability law on the extended reals, for real-valued data: two one-hot contractions of a
    table against two-position weight vectors are the four-corner weighted sum. The positions may
    coincide. -/
theorem separable_ereal (M : κ → ι → EReal) (X0 X1 : ι) (Y0 Y1 : κ) (a0 a1 b0 b1 : EReal)
    (hM : ∀ y x, IsReal (M y x)) (ha0 : IsReal a0) (ha1 : IsReal a1) (hb0 : IsReal b0) (hb1 : IsReal b1) :
    ∑ y, (∑ x, M y x * ((if x = X0 then a0 else 0) + (if x = X1 then a1 else 0)))
          * ((if y = Y0 then b0 else 0) + (if y = Y1 then b1 else 0))
      = (((a0 * b0) * M Y0 X0 + (a0 * b1) * M Y1 X0) + (a1 * b0) * M Y0 X1) + (a1 * b1) * M Y1 X1 := by
  choose R hR using hM
  obtain ⟨r0, rfl⟩ := ha0; obtain ⟨r1, rfl⟩ := ha1
  obtain ⟨s0, rfl⟩ := hb0; obtain ⟨s1, rfl⟩ := hb1
  have key := congrArg (fun r : ℝ => (r : EReal)) (separable_real R X0 X1 Y0 Y1 r0 r1 s0 s1)
  simp only [coe_sum, EReal.coe_add, EReal.coe_mul, coe_ite, EReal.coe_zero] at key
  simp only [hR]
  exact key

end EReal

/-! ## Positions given as 32-bit words compared against a row counter

A kernel builds its one-hot vectors by comparing a counter 0, 1, …, n-1 (as 32-bit words) with a
position word. When the position word is below n the comparison singles out one index. -/

theorem ofNat_eq_iff {n : Nat} (hn : n ≤ 2 ^ 32) (x : Fin n) (b : BitVec 32) (h : b.toNat < n) :
    BitVec.ofNat 32 x.val = b ↔ x = ⟨b.toNat, h⟩ := by
  constructor
  · intro e
    apply Fin.ext
    have := congrArg BitVec.toNat e
    rw [BitVec.toNat_ofNat, Nat.mod_eq_of_lt (lt_of_lt_of_le x.isLt hn)] at this
    exact this
  · rintro rfl
    exact BitVec.eq_of_toNat_eq (by rw [BitVec.toNat_ofNat]; exact Nat.mod_eq_of_lt b.isLt)

/-- The separability law with the four positions given as 32-bit words below the table's extents,
    the one-hot vectors built by comparing the counter word with the position word. -/
theorem separable_words {n m : Nat} (hn : n ≤ 2 ^ 32) (hm : m ≤ 2 ^ 32) (M : Fin m → Fin n → EReal)
    (X0 X1 Y0 Y1 : BitVec 32) (hX0 : X0.toNat < n) (hX1 : X1.toNat < n) (hY0 : Y0.toNat < m) (hY1 : Y1.toNat < m)
    (a0 a1 b0 b1 : EReal)
    (hM : ∀ y x, IsReal (M y x)) (ha0 : IsReal a0) (ha1 : IsReal a1) (hb0 : IsReal b0) (hb1 : IsReal b1) :
    ∑ y : Fin m, (∑ x : Fin n, M y x * ((if BitVec.ofNat 32 x.val = X0 then a0 else 0)
                                          + (if BitVec.ofNat 32 x.val = X1 then a1 else 0)))
          * ((if BitVec.ofNat 32 y.val = Y0 then b0 else 0) + (if BitVec.ofNat 32 y.val = Y1 then b1 else 0))
      = (((a0 * b0) * M ⟨Y0.toNat, hY0⟩ ⟨X0.toNat, hX0⟩ + (a0 * b1) * M ⟨Y1.toNat, hY1⟩ ⟨X0.toNat, hX0⟩)
          + (a1 * b0) * M ⟨Y0.toNat, hY0⟩ ⟨X1.toNat, hX1⟩) + (a1 * b1) * M ⟨Y1.toNat, hY1⟩ ⟨X1.toNat, hX1⟩ := by
  simp only [ofNat_eq_iff hn _ _ hX0, ofNat_eq_iff hn _ _ hX1, ofNat_eq_iff hm _ _ hY0, ofNat_eq_iff hm _ _ hY1]
  exact separable_ereal M _ _ _ _ a0 a1 b0 b1 hM ha0 ha1 hb0 hb1

end Cert.BodyMath
-- ==== Proof.BodyClip.lean ====
/-
  Small facts, at the extended reals, about the words a kernel builds its one-hot vectors from:
  a select on a word comparison is an if-then-else on the equality of the words; the 0/1 word of a
  comparison, widened and converted to a float, is the number 1 or 0; the float literal 511; and the
  word of a value clipped to [0, 511] and truncated to an integer is below 512.
-/
import proofs.«174235_j4939212390583_2_alg».proof.Proof.BodyLaw
import Idealize.ShloMosaic.Lib.ValueIdx
import Idealize.ShloMosaic.Lib.Affine
import Idealize.ShloMosaic.PureOps.Ideal.Laws

namespace Cert.BodyMath

open Idealize.ShloMosaic

/-- A select on the word of an equality comparison chooses by the equality. -/
theorem select_cmpi_eq {α : Type} {w : Nat} (a b : BitVec w) (u v : α) :
    Scalar.select (IntOp.cmpi .eq a b) u v = if a = b then u else v := by
  show (if IntOp.cmpi .eq a b = 1#1 then u else v) = _
  by_cases h : a = b
  · rw [if_pos h, if_pos (IntOp.cmpi_eq.mpr h)]
  · rw [if_neg h, if_neg (fun e => h (IntOp.cmpi_eq.mp e))]

/-- The word of an equality comparison, widened to 32 bits and read as a signed integer, is 1 or 0. -/
theorem toInt_setWidth_cmpi_eq {w : Nat} (a b : BitVec w) :
    ((IntOp.cmpi .eq a b).setWidth 32).toInt = if a = b then 1 else 0 := by
  by_cases h : a = b
  · rw [if_pos h, IntOp.cmpi_eq.mpr h]; decide
  · rw [if_neg h, ValueIdx.eq_zero_of_ne_one (fun e => h (IntOp.cmpi_eq.mp e))]; decide

/-- … and converted to a float at the extended reals it is the number 1 or 0. -/
theorem coe_toInt_setWidth_cmpi_eq {w : Nat} (a b : BitVec w) :
    ((((IntOp.cmpi .eq a b).setWidth 32).toInt : ℝ) : EReal) = if a = b then 1 else 0 := by
  rw [toInt_setWidth_cmpi_eq]
  split <;> simp

/-- The float literal 511. -/
theorem ofBits_511 : Ideal.ofBits .f32 0x43FF8000#32 = ((511 : ℝ) : EReal) := by
  simp [Ideal.ofBits, Ideal.ieee]
  rw [← EReal.coe_mul]
  exact congrArg _ (by norm_num)

/-- The index word of a float: the value clipped to [0, 511], truncated to a 32-bit integer. -/
noncomputable def idxWord (a : EReal) : BitVec 32 :=
  Ideal.fptosi 32 (min (Ideal.ofBits .f32 0x43FF8000#32) (max (Ideal.ofBits .f32 0x00000000#32) a))

/-- The clipped value is a real number between 0 and 511, whatever the float (the infinities included). -/
theorem clip_real (a : EReal) :
    ∃ r : ℝ, 0 ≤ r ∧ r ≤ 511 ∧
      min (Ideal.ofBits .f32 0x43FF8000#32) (max (Ideal.ofBits .f32 0x00000000#32) a) = (r : EReal) := by
  rw [ofBits_511, Ideal.ofBits_zero_f32]
  have h0 : (0 : EReal) ≤ min ((511 : ℝ) : EReal) (max 0 a) :=
    le_min (by exact_mod_cast (by norm_num : (0 : ℝ) ≤ 511)) (le_max_left _ _)
  have h1 : min ((511 : ℝ) : EReal) (max 0 a) ≤ ((511 : ℝ) : EReal) := min_le_left _ _
  induction hc : min ((511 : ℝ) : EReal) (max 0 a) using EReal.rec with
  | bot => rw [hc] at h0; exact absurd h0 (by simp)
  | top => rw [hc] at h1; exact absurd h1 (by simp)
  | coe r =>
    rw [hc] at h0 h1
    exact ⟨r, by exact_mod_cast h0, by exact_mod_cast h1, rfl⟩

/-- The index word is below 512. -/
theorem idxWord_lt (a : EReal) : (idxWord a).toNat < 512 := by
  obtain ⟨r, h0, h1, hr⟩ := clip_real a
  unfold idxWord
  rw [hr, Ideal.fptosi, Ideal.toIntClamped_coe, if_pos h0]
  have hf0 : 0 ≤ ⌊r⌋ := Int.floor_nonneg.mpr h0
  have hf1 : ⌊r⌋ ≤ 511 := by
    have : ⌊r⌋ ≤ ⌊(511 : ℝ)⌋ := Int.floor_le_floor h1
    simpa using this
  have e : max (-((2 ^ (32 - 1) : ℕ) : ℤ)) (min (((2 ^ (32 - 1) : ℕ) : ℤ) - 1) ⌊r⌋) = ⌊r⌋ := by
    norm_num
    omega
  rw [e, BitVec.toNat_ofInt]
  omega

end Cert.BodyMath
-- ==== Proof.BodyPayAcc.lean ====
/-
  The accumulate step of the kernel body, and its 0/1 masks, read at an index of the [32, 4] block.

  Each of the eight stores of the body writes  old + (rowmask · colmask) · s,  where old is the block
  loaded just before, s a scalar, rowmask the 0/1 vector of the rows equal to a given row word and
  colmask the 0/1 vector of the columns equal to a literal. Read at the coordinates (r, q):
      old(r, q) + ((1 if r = row else 0) · (1 if q = col else 0)) · s.
-/
import proofs.«174235_j4939212390583_2_alg».proof.Proof.Gen.KernelIdeal.Skeleton
import proofs.«174235_j4939212390583_2_alg».proof.Proof.BodyClip
import Idealize.ShloMosaic.Lib.Pipeline.Value
import Idealize.ShloMosaic.Lib.ValueLayout

namespace Cert.BodyMath

open Idealize.ShloMosaic Idealize.ShloMosaic.ValueIdx Cert.KernelIdeal Cert.KernelIdeal.Gen

/-! ## The accumulate step -/

/-- The stored value of an accumulate step at an index: the loaded block there plus the product of
    the two masks there times the scalar. -/
theorem pay16_apply (v68 : FVec Ideal S32x4 .f32) (v81 : Ideal .f32) (v85 : FVec Ideal S32x4 .f32)
    (v86 : Vec Ideal S32x4 .f32) (j : S32x4.Idx) :
    k0_pay16 (F := Ideal) v68 v81 v85 v86 j = v86 j + (v68 j * v85 j) * v81 := by
  unfold k0_pay16
  simp only [shapeCast_self]
  rfl

/-- The other three stores whose masks and scalar are computed before them are the same function. -/
theorem pay22_eq : @k0_pay22 Ideal _ = @k0_pay16 Ideal _ := rfl
theorem pay36_eq : @k0_pay36 Ideal _ = @k0_pay16 Ideal _ := rfl
theorem pay1_eq : @k0_pay1 Ideal _ = @k0_pay16 Ideal _ := rfl

/-! ## The masks -/

/-- A 0/1 float mask built from a word comparison against a counter along one axis, at an index. -/
theorem mask_apply (d : Fin S32x4.rank) (h : S32x4.Iotas .tc 32 [d]) (c : BitVec 32) (h' : 1 < 32) (j : S32x4.Idx) :
    (sitofp (F := Ideal) .f32 (extui 32 (cmpi .eq (iota .tc S32x4 32 [d] h) (broadcast S32x4 c)) h') : FVec Ideal S32x4 .f32) j
      = if BitVec.ofNat 32 (j d).val = c then 1 else 0 := by
  show ((((IntOp.cmpi .eq (iota .tc S32x4 32 [d] h j) c).setWidth 32).toInt : ℝ) : EReal) = _
  rw [coe_toInt_setWidth_cmpi_eq, iota_single_apply]

/-- The row mask of the first batch of a grid step: rows equal to twice the step word (plus zero). -/
theorem pay13_apply (arg1 : BitVec 32) (r : Fin 32) (q : Fin 4) :
    k0_pay13 (F := Ideal) arg1 (iota .tc S32x4 32 [0] iota_S32x4_d0_w32) (ix2 r q)
      = if BitVec.ofNat 32 r.val = arg1 * 2#32 + 0#32 then 1 else 0 := by
  unfold k0_pay13
  exact mask_apply 0 _ _ _ (ix2 r q)

/-- The row mask of the second batch: rows equal to twice the step word plus one. -/
theorem pay33_apply (arg1 : BitVec 32) (r : Fin 32) (q : Fin 4) :
    k0_pay33 (F := Ideal) arg1 (iota .tc S32x4 32 [0] iota_S32x4_d0_w32) (ix2 r q)
      = if BitVec.ofNat 32 r.val = arg1 * 2#32 + 1#32 then 1 else 0 := by
  unfold k0_pay33
  exact mask_apply 0 _ _ _ (ix2 r q)

/-- The row words as natural numbers: at step g < 16, batch i < 2, the row word is 2·g + i. -/
theorem rowword_iff (g : Nat) (hg : g < 16) (i : Nat) (hi : i < 2) (r : Fin 32) :
    BitVec.ofNat 32 r.val = BitVec.ofNat 32 g * 2#32 + BitVec.ofNat 32 i ↔ r.val = 2 * g + i := by
  have hr := r.isLt
  constructor
  · intro e
    have := congrArg BitVec.toNat e
    simp only [BitVec.toNat_add, BitVec.toNat_mul, BitVec.toNat_ofNat] at this
    omega
  · intro e
    apply BitVec.eq_of_toNat_eq
    simp only [BitVec.toNat_add, BitVec.toNat_mul, BitVec.toNat_ofNat]
    omega

/-- A column word as a natural number. -/
theorem colword_iff (c : Nat) (hc : c < 4) (q : Fin 4) : BitVec.ofNat 32 q.val = BitVec.ofNat 32 c ↔ q.val = c := by
  have hq := q.isLt
  constructor
  · intro e
    have := congrArg BitVec.toNat e
    simp only [BitVec.toNat_ofNat] at this
    omega
  · intro e; rw [e]

/-- The column masks computed apart from their store: columns 0 and 3 of the first batch, 0 and 3 of the second. -/
theorem pay15_apply (r : Fin 32) (q : Fin 4) :
    k0_pay15 (F := Ideal) (iota .tc S32x4 32 [1] iota_S32x4_d1_w32) (ix2 r q) = if q.val = 0 then 1 else 0 := by
  unfold k0_pay15
  rw [mask_apply 1 _ _ _ (ix2 r q)]
  exact if_congr (colword_iff 0 (by decide) q) rfl rfl

theorem pay21_apply (r : Fin 32) (q : Fin 4) :
    k0_pay21 (F := Ideal) (iota .tc S32x4 32 [1] iota_S32x4_d1_w32) (ix2 r q) = if q.val = 3 then 1 else 0 := by
  unfold k0_pay21
  rw [mask_apply 1 _ _ _ (ix2 r q)]
  exact if_congr (colword_iff 3 (by decide) q) rfl rfl

theorem pay35_eq : @k0_pay35 Ideal _ = @k0_pay15 Ideal _ := rfl
theorem pay41_eq : @k0_pay41 Ideal _ = @k0_pay21 Ideal _ := rfl

end Cert.BodyMath
-- ==== Proof.BodyPayK.lean ====
/-
  The two one-hot weight matrices of the kernel body, read at an index.

  From the [8, 128] table of point data of one batch (rows: X0f, X1f, wx0, wx1, Y0f, Y1f, wy0, wy1;
  columns: the vertices) the body builds, over a counter x = 0 … 511 along the rows,
      kx(x, v) = (wx0(v) if x = X0(v) else 0) + (wx1(v) if x = X1(v) else 0),
      ky(y, v) = (wy0(v) if y = Y0(v) else 0) + (wy1(v) if y = Y1(v) else 0),
  where X0(v) is the index word of X0f(v) (clipped to [0, 511], truncated), and likewise X1, Y0, Y1.
-/
import proofs.«174235_j4939212390583_2_alg».proof.Proof.Gen.KernelIdeal.Skeleton
import proofs.«174235_j4939212390583_2_alg».proof.Proof.BodyClip
import Idealize.ShloMosaic.Lib.Pipeline.Value
import Idealize.ShloMosaic.Lib.ValueLayout

namespace Cert.BodyMath

open Idealize.ShloMosaic Idealize.ShloMosaic.ValueIdx Cert.KernelIdeal Cert.KernelIdeal.Gen

/-- The x-weights at row x, vertex v, from the loaded table of point data. -/
noncomputable def kxAt (pts : Vec Ideal S1x8x128 .f32) (x : Fin 512) (v : Fin 128) : EReal :=
  (if BitVec.ofNat 32 x.val = idxWord (pts (ix3 (0 : Fin 1) (0 : Fin 8) v)) then pts (ix3 (0 : Fin 1) (2 : Fin 8) v) else 0)
    + (if BitVec.ofNat 32 x.val = idxWord (pts (ix3 (0 : Fin 1) (1 : Fin 8) v)) then pts (ix3 (0 : Fin 1) (3 : Fin 8) v) else 0)

/-- The y-weights at row y, vertex v. -/
noncomputable def kyAt (pts : Vec Ideal S1x8x128 .f32) (y : Fin 512) (v : Fin 128) : EReal :=
  (if BitVec.ofNat 32 y.val = idxWord (pts (ix3 (0 : Fin 1) (4 : Fin 8) v)) then pts (ix3 (0 : Fin 1) (6 : Fin 8) v) else 0)
    + (if BitVec.ofNat 32 y.val = idxWord (pts (ix3 (0 : Fin 1) (5 : Fin 8) v)) then pts (ix3 (0 : Fin 1) (7 : Fin 8) v) else 0)

/-! ## Rows of the table -/

theorem pay3_apply (pts : Vec Ideal S1x8x128 .f32) (k : Fin 8) (v : Fin 128) :
    k0_pay3 (F := Ideal) pts (ix2 k v) = pts (ix3 (0 : Fin 1) k v) := by
  unfold k0_pay3
  exact shapeCast_1ab_ab_apply pts _ k v

/-- Row o of the table, cut out as a [1, 128] vector, at its one row and column v. -/
theorem row_apply (pts : Vec Ideal S1x8x128 .f32) (o : Nat) (h : S8x128.Slices ![o, 0] S1x128) (k : Fin 8) (hk : k.val = o)
    (u : Fin 1) (v : Fin 128) :
    extractStridedSlice S1x128 ![o, 0] (k0_pay3 (F := Ideal) pts) h (ix2 u v) = pts (ix3 (0 : Fin 1) k v) := by
  rw [slice2_axis0_apply o _ h u v k (by have := u.isLt; omega), pay3_apply]

theorem pay4_apply (pts : Vec Ideal S1x8x128 .f32) (u : Fin 1) (v : Fin 128) :
    k0_pay4 (F := Ideal) pts (ix2 u v) = pts (ix3 (0 : Fin 1) (3 : Fin 8) v) := by
  unfold k0_pay4; exact row_apply pts 3 _ 3 rfl u v
theorem pay5_apply (pts : Vec Ideal S1x8x128 .f32) (u : Fin 1) (v : Fin 128) :
    k0_pay5 (F := Ideal) pts (ix2 u v) = pts (ix3 (0 : Fin 1) (6 : Fin 8) v) := by
  unfold k0_pay5; exact row_apply pts 6 _ 6 rfl u v
theorem pay6_apply (pts : Vec Ideal S1x8x128 .f32) (u : Fin 1) (v : Fin 128) :
    k0_pay6 (F := Ideal) pts (ix2 u v) = pts (ix3 (0 : Fin 1) (7 : Fin 8) v) := by
  unfold k0_pay6; exact row_apply pts 7 _ 7 rfl u v

/-- The index words of rows 4 and 5 (Y0, Y1). -/
theorem pay7_apply (pts : Vec Ideal S1x8x128 .f32) (u : Fin 1) (v : Fin 128) :
    k0_pay7 (F := Ideal) pts (ix2 u v) = idxWord (pts (ix3 (0 : Fin 1) (4 : Fin 8) v)) := by
  unfold k0_pay7
  show idxWord (extractStridedSlice S1x128 ![4, 0] (k0_pay3 (F := Ideal) pts) _ (ix2 u v)) = _
  rw [row_apply pts 4 _ 4 rfl u v]
theorem pay8_apply (pts : Vec Ideal S1x8x128 .f32) (u : Fin 1) (v : Fin 128) :
    k0_pay8 (F := Ideal) pts (ix2 u v) = idxWord (pts (ix3 (0 : Fin 1) (5 : Fin 8) v)) := by
  unfold k0_pay8
  show idxWord (extractStridedSlice S1x128 ![5, 0] (k0_pay3 (F := Ideal) pts) _ (ix2 u v)) = _
  rw [row_apply pts 5 _ 5 rfl u v]

/-! ## One one-hot term -/

/-- A [1, 128] vector of weights selected where a counter along the rows equals a [1, 128] vector of
    words, both broadcast over the 512 rows; zero elsewhere. At (x, v). -/
theorem onehot_apply (v5 : IVec S512x128 32) (w : IVec S1x128 32) (a : FVec Ideal S1x128 .f32)
    (h1 : S1x128.Broadcasts S512x128) (h2 : S1x128.ShapeCasts S1x128) (x : Fin 512) (v : Fin 128) :
    (select (cmpi .eq v5 (broadcastTo S512x128 w h1)) (broadcastTo S512x128 (shapeCast S1x128 a h2) h1)
        (broadcast S512x128 (Scalar.ofBits (F := Ideal) .f32 0x00000000#32)) : FVec Ideal S512x128 .f32) (ix2 x v)
      = if v5 (ix2 x v) = w (ix2 (0 : Fin 1) v) then a (ix2 (0 : Fin 1) v) else 0 := by
  rw [shapeCast_self]
  show Scalar.select (IntOp.cmpi .eq (v5 (ix2 x v)) (broadcastTo S512x128 w h1 (ix2 x v)))
      (broadcastTo S512x128 a h1 (ix2 x v)) (Ideal.ofBits .f32 0x00000000#32) = _
  rw [select_cmpi_eq, broadcastTo_1b_ab_apply, broadcastTo_1b_ab_apply, Ideal.ofBits_zero_f32]

theorem iota5_apply (x : Fin 512) (v : Fin 128) :
    (iota .tc S512x128 32 [0] iota_S512x128_d0_w32 : IVec S512x128 32) (ix2 x v) = BitVec.ofNat 32 x.val :=
  iota_single_apply _ _ _ _ _ _

/-! ## The two matrices -/

theorem pay9_apply (pts : Vec Ideal S1x8x128 .f32) (x : Fin 512) (v : Fin 128) :
    k0_pay9 (F := Ideal) pts (ix2 x v)
      = if BitVec.ofNat 32 x.val = idxWord (pts (ix3 (0 : Fin 1) (0 : Fin 8) v)) then pts (ix3 (0 : Fin 1) (2 : Fin 8) v) else 0 := by
  unfold k0_pay9
  refine (onehot_apply _ _ _ _ _ x v).trans ?_
  rw [iota5_apply, row_apply pts 2 _ 2 rfl]
  show (if _ = idxWord (extractStridedSlice S1x128 ![0, 0] (k0_pay3 (F := Ideal) pts) _ (ix2 (0 : Fin 1) v)) then _ else _) = _
  rw [row_apply pts 0 _ 0 rfl]

theorem pay10_apply (pts : Vec Ideal S1x8x128 .f32) (x : Fin 512) (v : Fin 128) :
    k0_pay10 (F := Ideal) pts (ix2 x v) = idxWord (pts (ix3 (0 : Fin 1) (1 : Fin 8) v)) := by
  unfold k0_pay10
  rw [broadcastTo_1b_ab_apply]
  show idxWord (extractStridedSlice S1x128 ![1, 0] (k0_pay3 (F := Ideal) pts) _ (ix2 (0 : Fin 1) v)) = _
  rw [row_apply pts 1 _ 1 rfl]

/-- The x-weight matrix the body multiplies the table by, at (x, v). -/
theorem kx_apply (pts : Vec Ideal S1x8x128 .f32) (x : Fin 512) (v : Fin 128) :
    k0_pay11 (F := Ideal) (iota .tc S512x128 32 [0] iota_S512x128_d0_w32) (k0_pay4 pts) (k0_pay9 pts) (k0_pay10 pts) (ix2 x v)
      = kxAt pts x v := by
  unfold k0_pay11 kxAt
  refine congrArg₂ (· + ·) (pay9_apply pts x v) ((onehot_apply _ _ _ _ _ x v).trans ?_)
  rw [iota5_apply, pay4_apply]
  show (if _ = idxWord (extractStridedSlice S1x128 ![1, 0] (k0_pay3 (F := Ideal) pts) _ (ix2 (0 : Fin 1) v)) then _ else _) = _
  rw [row_apply pts 1 _ 1 rfl]

/-- The y-weight matrix the body multiplies the first contraction by, at (y, v). -/
theorem ky_apply (pts : Vec Ideal S1x8x128 .f32) (y : Fin 512) (v : Fin 128) :
    k0_pay12 (F := Ideal) (iota .tc S512x128 32 [0] iota_S512x128_d0_w32) (k0_pay5 pts) (k0_pay6 pts) (k0_pay7 pts) (k0_pay8 pts) (ix2 y v)
      = kyAt pts y v := by
  unfold k0_pay12 kyAt
  refine congrArg₂ (· + ·) ((onehot_apply _ _ _ _ _ y v).trans ?_) ((onehot_apply _ _ _ _ _ y v).trans ?_)
  · rw [iota5_apply, pay7_apply, pay5_apply]
  · rw [iota5_apply, pay8_apply, pay6_apply]

/-! ## The second batch of a grid step: the same functions of its own table -/

theorem pay24_eq (pts : Vec Ideal S1x8x128 .f32) : k0_pay24 (F := Ideal) pts = k0_pay4 pts := rfl
theorem pay25_eq (pts : Vec Ideal S1x8x128 .f32) : k0_pay25 (F := Ideal) pts = k0_pay5 pts := rfl
theorem pay26_eq (pts : Vec Ideal S1x8x128 .f32) : k0_pay26 (F := Ideal) pts = k0_pay6 pts := rfl
theorem pay27_eq (pts : Vec Ideal S1x8x128 .f32) : k0_pay27 (F := Ideal) pts = k0_pay7 pts := rfl
theorem pay28_eq (pts : Vec Ideal S1x8x128 .f32) : k0_pay28 (F := Ideal) pts = k0_pay8 pts := rfl
theorem pay29_eq (pts : Vec Ideal S1x8x128 .f32) :
    k0_pay29 (F := Ideal) (iota .tc S512x128 32 [0] iota_S512x128_d0_w32) pts = k0_pay9 pts := rfl
theorem pay30_eq (pts : Vec Ideal S1x8x128 .f32) : k0_pay30 (F := Ideal) pts = k0_pay10 pts := rfl
theorem pay31_eq (v5 : IVec S512x128 32) (a : FVec Ideal S1x128 .f32) (b : FVec Ideal S512x128 .f32) (c : IVec S512x128 32) :
    k0_pay31 (F := Ideal) v5 a b c = k0_pay11 v5 a b c := rfl
theorem pay32_eq (v5 : IVec S512x128 32) (a b : FVec Ideal S1x128 .f32) (c d : IVec S1x128 32) :
    k0_pay32 (F := Ideal) v5 a b c d = k0_pay12 v5 a b c d := rfl

end Cert.BodyMath
-- ==== Proof.BodyPaySum.lean ====
/-
  The scalar of one cell of the kernel body: the table of one (batch, channel), contracted over x
  with the x-weight matrix by the matrix unit, multiplied by the y-weight matrix and summed over y,
  multiplied by the per-vertex sign row and summed over the vertices.

      s = ∑_v (∑_y (∑_x M(y, x) · kx(x, v)) · ky(y, v)) · sm(v)

  The matrix product accumulates into a zero block, the change of float format before it is the
  identity on the extended reals, and each lane reduction is the finite sum over its axis.
-/
import proofs.«174235_j4939212390583_2_alg».proof.Proof.Gen.KernelIdeal.Skeleton
import proofs.«174235_j4939212390583_2_alg».proof.Proof.BodyClip
import Idealize.ShloMosaic.Lib.Pipeline.Value
import Idealize.ShloMosaic.Lib.ValueLayout
import Idealize.ShloMosaic.PureOps.Ideal.Laws

namespace Cert.BodyMath

open Idealize.ShloMosaic Idealize.ShloMosaic.ValueIdx Cert.KernelIdeal Cert.KernelIdeal.Gen

/-- The doubly contracted, sign-weighted sum over the vertices, for any two weight matrices. -/
noncomputable def contract (M : Vec Ideal S1x1x512x512 .f32) (kx : FVec Ideal S512x128 .bf16) (ky : FVec Ideal S512x128 .f32)
    (sm : Vec Ideal S1x1x128 .f32) : EReal :=
  ∑ v : Fin 128, (∑ y : Fin 512, (∑ x : Fin 512, M (ix4 (0 : Fin 1) (0 : Fin 1) y x) * kx (ix2 x v)) * ky (ix2 y v))
      * sm (ix3 (0 : Fin 1) (0 : Fin 1) v)

/-- The loaded [1, 1, 512, 512] table viewed as a [512, 512] matrix, at (y, x). -/
theorem table_apply (M : Vec Ideal S1x1x512x512 .f32) (h : S1x1x512x512.ShapeCasts S512x512) (y x : Fin 512) :
    shapeCast S512x512 M h (ix2 y x) = M (ix4 (0 : Fin 1) (0 : Fin 1) y x) :=
  shapeCast_apply M h _ _ (by
    rw [Shape.rowMajor_val_four, Shape.rowMajor_val_two]
    show ((0 * 1 + 0) * 512 + y.val) * 512 + x.val = y.val * 512 + x.val
    omega)

/-- The matrix unit's product into a zero block, at (y, v): the sum over x of the products. -/
theorem matmul_apply_ix (A : FVec Ideal S512x512 .bf16) (B : FVec Ideal S512x128 .bf16) (y : Fin 512) (v : Fin 128) :
    (matmul dot_S512x512_S512x128_S512x128_1_0_0_1_n_n none A B (constant (F := Ideal) S512x128 .f32 0x00000000#32)
        : FVec Ideal S512x128 .f32) (ix2 y v)
      = ∑ x : Fin 512, A (ix2 y x) * B (ix2 x v) := by
  show FloatOps.matmul dot_S512x512_S512x128_S512x128_1_0_0_1_n_n none A B _ (ix2 y v) = _
  rw [Ideal.matmul_constant_zero_apply,
    ← Equiv.sum_comp (contrEquiv1 dot_S512x512_S512x128_S512x128_1_0_0_1_n_n 512 rfl rfl).symm]
  refine Finset.sum_congr rfl fun c _ => ?_
  have c2 := contrEquiv1_symm_val dot_S512x512_S512x128_S512x128_1_0_0_1_n_n 512 rfl rfl c
  have l2 : dot_S512x512_S512x128_S512x128_1_0_0_1_n_n.lhsIdx (ix2 y v)
      ((contrEquiv1 dot_S512x512_S512x128_S512x128_1_0_0_1_n_n 512 rfl rfl).symm c) = ix2 y c := by
    funext ax; apply Fin.ext
    match ax with
    | ⟨0, _⟩ => simp [DotDims.lhsIdx, dot_S512x512_S512x128_S512x128_1_0_0_1_n_n]; rfl
    | ⟨1, _⟩ => simp [DotDims.lhsIdx, dot_S512x512_S512x128_S512x128_1_0_0_1_n_n]; exact c2
  have r2 : dot_S512x512_S512x128_S512x128_1_0_0_1_n_n.rhsIdx (ix2 y v)
      ((contrEquiv1 dot_S512x512_S512x128_S512x128_1_0_0_1_n_n 512 rfl rfl).symm c) = ix2 c v := by
    funext ax; apply Fin.ext
    match ax with
    | ⟨0, _⟩ => simp [DotDims.rhsIdx, dot_S512x512_S512x128_S512x128_1_0_0_1_n_n]; exact c2
    | ⟨1, _⟩ => simp [DotDims.rhsIdx, dot_S512x512_S512x128_S512x128_1_0_0_1_n_n]; rfl
  rw [l2, r2]

/-- The first contraction of a cell (the matrix product of the table with the x-weights), at (y, v). -/
theorem pay18_apply (kx : FVec Ideal S512x128 .bf16) (M : Vec Ideal S1x1x512x512 .f32) (y : Fin 512) (v : Fin 128) :
    k0_pay18 (F := Ideal) kx M (ix2 y v) = ∑ x : Fin 512, M (ix4 (0 : Fin 1) (0 : Fin 1) y x) * kx (ix2 x v) := by
  unfold k0_pay18
  refine (matmul_apply_ix _ kx y v).trans (Finset.sum_congr rfl fun x _ => ?_)
  show shapeCast S512x512 M _ (ix2 y x) * _ = _
  rw [table_apply]

end Cert.BodyMath
-- ==== Proof.BodyPaySum2.lean ====
/-
  The scalar of one cell of the kernel body, continued: the two lane reductions after the matrix
  product, and the four scalars of a batch as the one doubly contracted sum.
-/
import proofs.«174235_j4939212390583_2_alg».proof.Proof.BodyPaySum

namespace Cert.BodyMath

open Idealize.ShloMosaic Idealize.ShloMosaic.ValueIdx Cert.KernelIdeal Cert.KernelIdeal.Gen

/-- The sum over the 512 rows of a [512, 128] vector, at lane v. -/
theorem sumRows_apply (src : FVec Ideal S512x128 .f32) (h : S512x128.Reduces [0] S128) (hφ : FKind.Formats .f32)
    (hacc : (0x00000000#32 : BitVec 32) = FKind.add.neutral .f32 hφ) (v : Fin 128) :
    multiReduction .add [0] S128 src 0x00000000#32 h hφ hacc (ix1 v) = ∑ y : Fin 512, src (ix2 y v) := by
  refine (Ideal.multiReduction_add_single src _ h hφ hacc (ix1 v)).trans ?_
  exact Finset.sum_congr rfl fun y _ => congrArg src (funext fun a => Fin.ext (by
    match a with
    | ⟨0, _⟩ => rfl
    | ⟨1, _⟩ => rfl))

/-- The sum over the 128 lanes of a [1, 128] vector, at its one index. -/
theorem sumLanes_apply (src : FVec Ideal S1x128 .f32) (h : S1x128.Reduces [1] S1) (hφ : FKind.Formats .f32)
    (hacc : (0x00000000#32 : BitVec 32) = FKind.add.neutral .f32 hφ) (u : Fin 1) :
    multiReduction .add [1] S1 src 0x00000000#32 h hφ hacc (ix1 u) = ∑ v : Fin 128, src (ix2 (0 : Fin 1) v) := by
  refine (Ideal.multiReduction_add_single src _ h hφ hacc (ix1 u)).trans ?_
  exact Finset.sum_congr rfl fun v _ => congrArg src (funext fun a => Fin.ext (by
    match a with
    | ⟨0, _⟩ => show (u : Nat) = 0; omega
    | ⟨1, _⟩ => rfl))

/-- The one element of a [1] vector, viewed [1, 1] and extracted at (0, 0). -/
theorem extract11_apply {α : Type} (g : S1.Idx → α) (h : S1.ShapeCasts S1x1)
    (h' : ∀ a, (![0, 0] : Fin 2 → Nat) a < S1x1.size a) :
    extractAt ![0, 0] (shapeCast S1x1 g h) h' = g (ix1 (0 : Fin 1)) := by
  unfold extractAt
  have e : (fun a => (⟨(![0, 0] : Fin 2 → Nat) a, h' a⟩ : Fin (S1x1.size a))) = ix2 (0 : Fin 1) (0 : Fin 1) := by
    funext a
    match a with
    | ⟨0, _⟩ => rfl
    | ⟨1, _⟩ => rfl
  rw [e]
  exact shapeCast_a_1a_apply g h 0 0

/-- From the first contraction t(y, v) on: multiply by the y-weights, sum over y, multiply by the
    sign row, sum over the vertices. -/
theorem tail_apply (t ky : FVec Ideal S512x128 .f32) (sm : Vec Ideal S1x1x128 .f32)
    (h0 : S512x128.Reduces [0] S128) (h1 : S128.ShapeCasts S1x128) (h2 : S1x1x128.ShapeCasts S1x128)
    (h3 : S1x128.Reduces [1] S1) (h4 : S1.ShapeCasts S1x1) (h5 : ∀ a, (![0, 0] : Fin 2 → Nat) a < S1x1.size a)
    (hφ : FKind.Formats .f32) (hacc : (0x00000000#32 : BitVec 32) = FKind.add.neutral .f32 hφ) :
    extractAt ![0, 0]
        (shapeCast S1x1
          (multiReduction .add [1] S1
            (mulf (shapeCast S1x128 (multiReduction .add [0] S128 (mulf t ky) 0x00000000#32 h0 hφ hacc) h1)
              (shapeCast S1x128 sm h2))
            0x00000000#32 h3 hφ hacc) h4) h5
      = ∑ v : Fin 128, (∑ y : Fin 512, t (ix2 y v) * ky (ix2 y v)) * sm (ix3 (0 : Fin 1) (0 : Fin 1) v) := by
  refine (extract11_apply _ h4 h5).trans ?_
  refine (sumLanes_apply _ h3 hφ hacc 0).trans ?_
  refine Finset.sum_congr rfl fun v _ => ?_
  show shapeCast S1x128 (multiReduction .add [0] S128 (mulf t ky) 0x00000000#32 h0 hφ hacc) h1 (ix2 (0 : Fin 1) v)
      * shapeCast S1x128 sm h2 (ix2 (0 : Fin 1) v) = _
  rw [shapeCast_a_1a_apply, shapeCast_1ab_ab_apply, sumRows_apply]
  rfl

/-- The scalar of a cell whose matrix product is computed with it: the doubly contracted sum. -/
theorem pay20_apply (kx : FVec Ideal S512x128 .bf16) (ky : FVec Ideal S512x128 .f32) (M : Vec Ideal S1x1x512x512 .f32)
    (sm : Vec Ideal S1x1x128 .f32) : k0_pay20 (F := Ideal) kx ky M sm = contract M kx ky sm := by
  unfold k0_pay20 contract
  refine (tail_apply (k0_pay18 (F := Ideal) kx M) ky sm _ _ _ _ _ _ _ _).trans ?_
  refine Finset.sum_congr rfl fun v _ => ?_
  refine congrArg (· * _) (Finset.sum_congr rfl fun y _ => ?_)
  rw [pay18_apply]

/-- The first cell's scalar of each batch is the same function with the two weight matrices spelt out. -/
theorem pay14_eq (v5 : IVec S512x128 32) (v11 v14 v15 : FVec Ideal S1x128 .f32) (v30 v35 : IVec S1x128 32)
    (v41 : FVec Ideal S512x128 .f32) (v42 : IVec S512x128 32) (M : Vec Ideal S1x1x512x512 .f32) (sm : Vec Ideal S1x1x128 .f32) :
    k0_pay14 (F := Ideal) v5 v11 v14 v15 v30 v35 v41 v42 M sm
      = k0_pay20 (k0_pay11 v5 v11 v41 v42) (k0_pay12 v5 v14 v15 v30 v35) M sm := rfl

theorem pay34_eq (v5 : IVec S512x128 32) (v11 v14 v15 : FVec Ideal S1x128 .f32) (v30 v35 : IVec S1x128 32)
    (v41 : FVec Ideal S512x128 .f32) (v42 : IVec S512x128 32) (M : Vec Ideal S1x1x512x512 .f32) (sm : Vec Ideal S1x1x128 .f32) :
    k0_pay34 (F := Ideal) v5 v11 v14 v15 v30 v35 v41 v42 M sm
      = k0_pay20 (k0_pay11 v5 v11 v41 v42) (k0_pay12 v5 v14 v15 v30 v35) M sm := rfl

theorem pay40_eq (kx : FVec Ideal S512x128 .bf16) (ky : FVec Ideal S512x128 .f32) (M : Vec Ideal S1x1x512x512 .f32)
    (sm : Vec Ideal S1x1x128 .f32) : k0_pay40 (F := Ideal) kx ky M sm = k0_pay20 kx ky M sm := rfl

theorem pay38_eq (kx : FVec Ideal S512x128 .bf16) (M : Vec Ideal S1x1x512x512 .f32) :
    k0_pay38 (F := Ideal) kx M = k0_pay18 kx M := rfl

end Cert.BodyMath
-- ==== Proof.BodyPayCell.lean ====
/-
  The two stores of a batch whose scalar is computed inside the stored value (channels 1 and 2),
  read at an index of the [32, 4] block, and the second batch's stores as the first batch's functions.
-/
import proofs.«174235_j4939212390583_2_alg».proof.Proof.BodyPaySum2
import proofs.«174235_j4939212390583_2_alg».proof.Proof.BodyPayAcc

namespace Cert.BodyMath

open Idealize.ShloMosaic Idealize.ShloMosaic.ValueIdx Cert.KernelIdeal Cert.KernelIdeal.Gen

/-- A column mask against a literal column, at (r, q). -/
theorem colmask_apply (c : Nat) (hc : c < 4) (h' : 1 < 32) (r : Fin 32) (q : Fin 4) :
    (sitofp (F := Ideal) .f32 (extui 32 (cmpi .eq (iota .tc S32x4 32 [1] iota_S32x4_d1_w32) (broadcast S32x4 (BitVec.ofNat 32 c))) h')
        : FVec Ideal S32x4 .f32) (ix2 r q) = if q.val = c then 1 else 0 := by
  rw [mask_apply 1 _ _ _ (ix2 r q)]
  exact if_congr (colword_iff c hc q) rfl rfl

/-- Channel 1 of a batch: the loaded block plus (row mask · column-1 mask) times the cell's
    doubly contracted sum. -/
theorem pay17_apply (kx : FVec Ideal S512x128 .bf16) (ky : FVec Ideal S512x128 .f32) (rowm : FVec Ideal S32x4 .f32)
    (M : Vec Ideal S1x1x512x512 .f32) (sm : Vec Ideal S1x1x128 .f32) (old : Vec Ideal S32x4 .f32) (r : Fin 32) (q : Fin 4) :
    k0_pay17 (F := Ideal) (iota .tc S32x4 32 [1] iota_S32x4_d1_w32) kx ky rowm M sm old (ix2 r q)
      = old (ix2 r q) + (rowm (ix2 r q) * (if q.val = 1 then 1 else 0)) * contract M kx ky sm := by
  unfold k0_pay17
  show k0_pay16 (F := Ideal) rowm (k0_pay20 (F := Ideal) kx ky M sm)
      (sitofp (F := Ideal) .f32 (extui 32 (cmpi .eq (iota .tc S32x4 32 [1] iota_S32x4_d1_w32) (broadcast S32x4 (BitVec.ofNat 32 1))) natLt_1_32))
      old (ix2 r q) = _
  rw [pay16_apply, pay20_apply, colmask_apply 1 (by decide)]

/-- Channel 2 of a batch, from the matrix product t computed before it: the loaded block plus
    (row mask · column-2 mask) times the rest of the contraction. -/
theorem pay19_apply (ky : FVec Ideal S512x128 .f32) (rowm : FVec Ideal S32x4 .f32) (kx : FVec Ideal S512x128 .bf16)
    (M : Vec Ideal S1x1x512x512 .f32) (sm : Vec Ideal S1x1x128 .f32) (old : Vec Ideal S32x4 .f32) (r : Fin 32) (q : Fin 4) :
    k0_pay19 (F := Ideal) (iota .tc S32x4 32 [1] iota_S32x4_d1_w32) ky rowm (k0_pay18 (F := Ideal) kx M) sm old (ix2 r q)
      = old (ix2 r q) + (rowm (ix2 r q) * (if q.val = 2 then 1 else 0)) * contract M kx ky sm := by
  unfold k0_pay19
  show k0_pay16 (F := Ideal) rowm (k0_pay20 (F := Ideal) kx ky M sm)
      (sitofp (F := Ideal) .f32 (extui 32 (cmpi .eq (iota .tc S32x4 32 [1] iota_S32x4_d1_w32) (broadcast S32x4 (BitVec.ofNat 32 2))) natLt_1_32))
      old (ix2 r q) = _
  rw [pay16_apply, pay20_apply, colmask_apply 2 (by decide)]

/-- The second batch's two such stores are the same functions. -/
theorem pay37_eq (v4 : IVec S32x4 32) (kx : FVec Ideal S512x128 .bf16) (ky : FVec Ideal S512x128 .f32) (rowm : FVec Ideal S32x4 .f32)
    (M : Vec Ideal S1x1x512x512 .f32) (sm : Vec Ideal S1x1x128 .f32) (old : Vec Ideal S32x4 .f32) :
    k0_pay37 (F := Ideal) v4 kx ky rowm M sm old = k0_pay17 v4 kx ky rowm M sm old := rfl

theorem pay39_eq (v4 : IVec S32x4 32) (ky : FVec Ideal S512x128 .f32) (rowm : FVec Ideal S32x4 .f32) (t : FVec Ideal S512x128 .f32)
    (sm : Vec Ideal S1x1x128 .f32) (old : Vec Ideal S32x4 .f32) :
    k0_pay39 (F := Ideal) v4 ky rowm t sm old = k0_pay19 v4 ky rowm t sm old := rfl

/-- The zero block stored at the first step of a half. -/
theorem pay2_apply (j : S32x4.Idx) : k0_pay2 (F := Ideal) j = 0 := by
  unfold k0_pay2
  exact Ideal.ofBits_zero_f32

end Cert.BodyMath
-- ==== Proof.BodyCell.lean ====
/-
  One cell of the kernel body as the reference's four-corner interpolation.

  With the two one-hot weight matrices built from the batch's table of point data, the doubly
  contracted sum of a (batch, channel) table M is, vertex by vertex, the bilinear interpolation
      ((wx0·wy0)·M[Y0, X0] + (wx0·wy1)·M[Y1, X0] + (wx1·wy0)·M[Y0, X1]) + (wx1·wy1)·M[Y1, X1]
  at the clipped integer positions X0, X1, Y0, Y1 of rows 0, 1, 4, 5 of the table, with the weights
  of rows 2, 3, 6, 7, times the sign row, summed over the vertices. Needs every table entry and
  every weight to be a real number.
-/
import proofs.«174235_j4939212390583_2_alg».proof.Proof.BodyPaySum
import proofs.«174235_j4939212390583_2_alg».proof.Proof.BodyPayK
import proofs.«174235_j4939212390583_2_alg».proof.Proof.RefSpec

namespace Cert.BodyMath

open Idealize.ShloMosaic Idealize.ShloMosaic.ValueIdx Cert.KernelIdeal Cert.KernelIdeal.Gen

/-! ## The kernel's position word and the reference's clipped position -/

/-- The position of a float: its index word as an index below 512. -/
noncomputable def posOf (a : EReal) : Fin 512 := ⟨(idxWord a).toNat, idxWord_lt a⟩

theorem clipF_eq (a : EReal) :
    Cert.RefSide.clipF a = min (Ideal.ofBits .f32 0x43FF8000#32) (max (Ideal.ofBits .f32 0x00000000#32) a) := by
  unfold Cert.RefSide.clipF
  rw [ofBits_511, Ideal.ofBits_zero_f32]
  have h1 : (511#32 : BitVec 32).toInt = 511 := by decide
  have h0 : (0#32 : BitVec 32).toInt = 0 := by decide
  rw [h1, h0]
  simp

/-- A word below 512 is not negative, so the wrap of negative words leaves it. -/
theorem wrapW_of_lt (w : BitVec 32) (h : w.toNat < 512) : Cert.RefSide.wrapW w = w := by
  unfold Cert.RefSide.wrapW
  have hw : w.toInt = (w.toNat : ℤ) := by
    rw [BitVec.toInt_eq_toNat_cond]
    split <;> omega
  have hn : ¬ IntOp.cmpi .slt w 0#32 = 1#1 := by
    rw [IntOp.cmpi_slt, hw]
    have : (0#32 : BitVec 32).toInt = 0 := by decide
    rw [this]
    omega
  exact if_neg hn

/-- The kernel's position is the reference's clipped position. -/
theorem posOf_eq_clipIdx (a : EReal) : posOf a = Cert.RefSide.clipIdx a := by
  apply Fin.ext
  have hlt := idxWord_lt a
  have e : Cert.RefSide.idxWord a = idxWord a := by
    unfold Cert.RefSide.idxWord
    rw [clipF_eq]
    exact wrapW_of_lt _ hlt
  show (idxWord a).toNat = min (Cert.RefSide.idxWord a).toInt.toNat 511
  rw [e]
  have hw : (idxWord a).toInt = ((idxWord a).toNat : ℤ) := by
    rw [BitVec.toInt_eq_toNat_cond]
    split <;> omega
  rw [hw]
  omega

/-! ## The four corners -/

/-- The bilinear interpolation of the table at vertex v, from the batch's table of point data. -/
noncomputable def corners (M : Vec Ideal S1x1x512x512 .f32) (pts : Vec Ideal S1x8x128 .f32) (v : Fin 128) : EReal :=
  (((pts (ix3 (0 : Fin 1) (2 : Fin 8) v) * pts (ix3 (0 : Fin 1) (6 : Fin 8) v))
        * M (ix4 (0 : Fin 1) (0 : Fin 1) (Cert.RefSide.clipIdx (pts (ix3 (0 : Fin 1) (4 : Fin 8) v)))
              (Cert.RefSide.clipIdx (pts (ix3 (0 : Fin 1) (0 : Fin 8) v))))
      + (pts (ix3 (0 : Fin 1) (2 : Fin 8) v) * pts (ix3 (0 : Fin 1) (7 : Fin 8) v))
        * M (ix4 (0 : Fin 1) (0 : Fin 1) (Cert.RefSide.clipIdx (pts (ix3 (0 : Fin 1) (5 : Fin 8) v)))
              (Cert.RefSide.clipIdx (pts (ix3 (0 : Fin 1) (0 : Fin 8) v)))))
    + (pts (ix3 (0 : Fin 1) (3 : Fin 8) v) * pts (ix3 (0 : Fin 1) (6 : Fin 8) v))
        * M (ix4 (0 : Fin 1) (0 : Fin 1) (Cert.RefSide.clipIdx (pts (ix3 (0 : Fin 1) (4 : Fin 8) v)))
              (Cert.RefSide.clipIdx (pts (ix3 (0 : Fin 1) (1 : Fin 8) v)))))
  + (pts (ix3 (0 : Fin 1) (3 : Fin 8) v) * pts (ix3 (0 : Fin 1) (7 : Fin 8) v))
      * M (ix4 (0 : Fin 1) (0 : Fin 1) (Cert.RefSide.clipIdx (pts (ix3 (0 : Fin 1) (5 : Fin 8) v)))
            (Cert.RefSide.clipIdx (pts (ix3 (0 : Fin 1) (1 : Fin 8) v))))

/-- The two contractions over x and y at one vertex are the four-corner interpolation. -/
theorem twoContractions_eq_corners (M : Vec Ideal S1x1x512x512 .f32) (pts : Vec Ideal S1x8x128 .f32)
    (hM : ∀ y x : Fin 512, IsReal (M (ix4 (0 : Fin 1) (0 : Fin 1) y x)))
    (hw : ∀ (k : Fin 8) (v : Fin 128), IsReal (pts (ix3 (0 : Fin 1) k v))) (v : Fin 128) :
    ∑ y : Fin 512, (∑ x : Fin 512, M (ix4 (0 : Fin 1) (0 : Fin 1) y x) * kxAt pts x v) * kyAt pts y v
      = corners M pts v := by
  unfold corners kxAt kyAt
  simp only [← posOf_eq_clipIdx]
  exact separable_words (n := 512) (m := 512) (by norm_num) (by norm_num)
    (fun y x => M (ix4 (0 : Fin 1) (0 : Fin 1) y x)) _ _ _ _
    (idxWord_lt _) (idxWord_lt _) (idxWord_lt _) (idxWord_lt _) _ _ _ _ hM (hw 2 v) (hw 3 v) (hw 6 v) (hw 7 v)

/-- A cell's doubly contracted sum, with the weight matrices the body builds from the table of point
    data, is the sum over the vertices of the interpolation times the sign row. -/
theorem contract_eq_corners (M : Vec Ideal S1x1x512x512 .f32) (pts : Vec Ideal S1x8x128 .f32) (sm : Vec Ideal S1x1x128 .f32)
    (hM : ∀ y x : Fin 512, IsReal (M (ix4 (0 : Fin 1) (0 : Fin 1) y x)))
    (hw : ∀ (k : Fin 8) (v : Fin 128), IsReal (pts (ix3 (0 : Fin 1) k v))) :
    contract M
        (k0_pay11 (F := Ideal) (iota .tc S512x128 32 [0] iota_S512x128_d0_w32) (k0_pay4 pts) (k0_pay9 pts) (k0_pay10 pts))
        (k0_pay12 (F := Ideal) (iota .tc S512x128 32 [0] iota_S512x128_d0_w32) (k0_pay5 pts) (k0_pay6 pts) (k0_pay7 pts) (k0_pay8 pts))
        sm
      = ∑ v : Fin 128, corners M pts v * sm (ix3 (0 : Fin 1) (0 : Fin 1) v) := by
  unfold contract
  refine Finset.sum_congr rfl fun v _ => ?_
  refine congrArg (· * _) ?_
  refine (Finset.sum_congr rfl fun y _ => ?_).trans (twoContractions_eq_corners M pts hM hw v)
  refine congrArg₂ (· * ·) (Finset.sum_congr rfl fun x _ => ?_) (ky_apply pts y v)
  exact congrArg (_ * ·) (kx_apply pts x v)

end Cert.BodyMath
-- ==== Proof.BodyCells.lean ====
/-
  The four accumulate steps of one batch of a grid step, each read at an index (r, q) of the
  [32, 4] block: the block loaded before the step, plus the row mask at (r, q) times the 0/1 column
  mask of the step's channel, times the channel's interpolated, sign-weighted sum over the vertices.
  The row mask is left general (it is the first batch's or the second batch's); the second batch's
  steps are the same functions of its own loads (the equations proved with each step's lemma).
-/
import proofs.«174235_j4939212390583_2_alg».proof.Proof.BodyCell
import proofs.«174235_j4939212390583_2_alg».proof.Proof.BodyPayCell

namespace Cert.BodyMath

open Idealize.ShloMosaic Idealize.ShloMosaic.ValueIdx Cert.KernelIdeal Cert.KernelIdeal.Gen

/-- The x-weight matrix the body builds from a batch's table of point data. -/
noncomputable abbrev kxVec (pts : Vec Ideal S1x8x128 .f32) : FVec Ideal S512x128 .bf16 :=
  k0_pay11 (F := Ideal) (iota .tc S512x128 32 [0] iota_S512x128_d0_w32) (k0_pay4 pts) (k0_pay9 pts) (k0_pay10 pts)

/-- The y-weight matrix. -/
noncomputable abbrev kyVec (pts : Vec Ideal S1x8x128 .f32) : FVec Ideal S512x128 .f32 :=
  k0_pay12 (F := Ideal) (iota .tc S512x128 32 [0] iota_S512x128_d0_w32) (k0_pay5 pts) (k0_pay6 pts) (k0_pay7 pts) (k0_pay8 pts)

/-- A channel's interpolated, sign-weighted sum over the vertices. -/
noncomputable def cellSum (M : Vec Ideal S1x1x512x512 .f32) (pts : Vec Ideal S1x8x128 .f32) (sm : Vec Ideal S1x1x128 .f32) : EReal :=
  ∑ v : Fin 128, corners M pts v * sm (ix3 (0 : Fin 1) (0 : Fin 1) v)

section
variable (M : Vec Ideal S1x1x512x512 .f32) (pts : Vec Ideal S1x8x128 .f32) (sm : Vec Ideal S1x1x128 .f32)
  (rowm : FVec Ideal S32x4 .f32) (old : Vec Ideal S32x4 .f32)
  (hM : ∀ y x : Fin 512, IsReal (M (ix4 (0 : Fin 1) (0 : Fin 1) y x)))
  (hw : ∀ (k : Fin 8) (v : Fin 128), IsReal (pts (ix3 (0 : Fin 1) k v)))
  (r : Fin 32) (q : Fin 4)
include hM hw

/-- Channel 0. -/
theorem step0_apply :
    k0_pay16 (F := Ideal) rowm
        (k0_pay14 (F := Ideal) (iota .tc S512x128 32 [0] iota_S512x128_d0_w32) (k0_pay4 pts) (k0_pay5 pts) (k0_pay6 pts)
          (k0_pay7 pts) (k0_pay8 pts) (k0_pay9 pts) (k0_pay10 pts) M sm)
        (k0_pay15 (F := Ideal) (iota .tc S32x4 32 [1] iota_S32x4_d1_w32)) old (ix2 r q)
      = old (ix2 r q) + (rowm (ix2 r q) * (if q.val = 0 then 1 else 0)) * cellSum M pts sm := by
  rw [pay16_apply, pay15_apply, pay14_eq, pay20_apply, contract_eq_corners M pts sm hM hw]
  rfl

/-- Channel 1. -/
theorem step1_apply :
    k0_pay17 (F := Ideal) (iota .tc S32x4 32 [1] iota_S32x4_d1_w32) (kxVec pts) (kyVec pts) rowm M sm old (ix2 r q)
      = old (ix2 r q) + (rowm (ix2 r q) * (if q.val = 1 then 1 else 0)) * cellSum M pts sm := by
  rw [pay17_apply, contract_eq_corners M pts sm hM hw]
  rfl

/-- Channel 2. -/
theorem step2_apply :
    k0_pay19 (F := Ideal) (iota .tc S32x4 32 [1] iota_S32x4_d1_w32) (kyVec pts) rowm (k0_pay18 (F := Ideal) (kxVec pts) M) sm old (ix2 r q)
      = old (ix2 r q) + (rowm (ix2 r q) * (if q.val = 2 then 1 else 0)) * cellSum M pts sm := by
  rw [pay19_apply, contract_eq_corners M pts sm hM hw]
  rfl

/-- Channel 3. -/
theorem step3_apply :
    k0_pay22 (F := Ideal) rowm (k0_pay20 (F := Ideal) (kxVec pts) (kyVec pts) M sm)
        (k0_pay21 (F := Ideal) (iota .tc S32x4 32 [1] iota_S32x4_d1_w32)) old (ix2 r q)
      = old (ix2 r q) + (rowm (ix2 r q) * (if q.val = 3 then 1 else 0)) * cellSum M pts sm := by
  rw [pay22_eq, pay16_apply, pay21_apply, pay20_apply, contract_eq_corners M pts sm hM hw]
  rfl

end

end Cert.BodyMath
-- ==== Proof.BodyCells2.lean ====
/-
  The four accumulate steps of the SECOND batch of a grid step: the same functions of the second
  batch's loads as the first batch's steps are of the first batch's, so each is the first batch's
  lemma read through definitional equalities.
-/
import proofs.«174235_j4939212390583_2_alg».proof.Proof.BodyCells

namespace Cert.BodyMath

open Idealize.ShloMosaic Idealize.ShloMosaic.ValueIdx Cert.KernelIdeal Cert.KernelIdeal.Gen

/-- The second batch's x-weight matrix, as the body spells it. -/
noncomputable abbrev kxVec' (pts : Vec Ideal S1x8x128 .f32) : FVec Ideal S512x128 .bf16 :=
  k0_pay31 (F := Ideal) (iota .tc S512x128 32 [0] iota_S512x128_d0_w32) (k0_pay24 pts)
    (k0_pay29 (F := Ideal) (iota .tc S512x128 32 [0] iota_S512x128_d0_w32) pts) (k0_pay30 pts)

/-- The second batch's y-weight matrix. -/
noncomputable abbrev kyVec' (pts : Vec Ideal S1x8x128 .f32) : FVec Ideal S512x128 .f32 :=
  k0_pay32 (F := Ideal) (iota .tc S512x128 32 [0] iota_S512x128_d0_w32) (k0_pay25 pts) (k0_pay26 pts) (k0_pay27 pts) (k0_pay28 pts)

theorem kxVec'_eq (pts : Vec Ideal S1x8x128 .f32) : kxVec' pts = kxVec pts := rfl
theorem kyVec'_eq (pts : Vec Ideal S1x8x128 .f32) : kyVec' pts = kyVec pts := rfl

section
variable (M : Vec Ideal S1x1x512x512 .f32) (pts : Vec Ideal S1x8x128 .f32) (sm : Vec Ideal S1x1x128 .f32)
  (rowm : FVec Ideal S32x4 .f32) (old : Vec Ideal S32x4 .f32)
  (hM : ∀ y x : Fin 512, IsReal (M (ix4 (0 : Fin 1) (0 : Fin 1) y x)))
  (hw : ∀ (k : Fin 8) (v : Fin 128), IsReal (pts (ix3 (0 : Fin 1) k v)))
  (r : Fin 32) (q : Fin 4)
include hM hw

/-- Channel 0 of the second batch. -/
theorem step0'_apply :
    k0_pay36 (F := Ideal) rowm
        (k0_pay34 (F := Ideal) (iota .tc S512x128 32 [0] iota_S512x128_d0_w32) (k0_pay24 pts) (k0_pay25 pts) (k0_pay26 pts)
          (k0_pay27 pts) (k0_pay28 pts) (k0_pay29 (F := Ideal) (iota .tc S512x128 32 [0] iota_S512x128_d0_w32) pts) (k0_pay30 pts) M sm)
        (k0_pay35 (F := Ideal) (iota .tc S32x4 32 [1] iota_S32x4_d1_w32)) old (ix2 r q)
      = old (ix2 r q) + (rowm (ix2 r q) * (if q.val = 0 then 1 else 0)) * cellSum M pts sm :=
  step0_apply M pts sm rowm old hM hw r q

/-- Channel 1 of the second batch. -/
theorem step1'_apply :
    k0_pay37 (F := Ideal) (iota .tc S32x4 32 [1] iota_S32x4_d1_w32) (kxVec' pts) (kyVec' pts) rowm M sm old (ix2 r q)
      = old (ix2 r q) + (rowm (ix2 r q) * (if q.val = 1 then 1 else 0)) * cellSum M pts sm :=
  step1_apply M pts sm rowm old hM hw r q

/-- Channel 2 of the second batch. -/
theorem step2'_apply :
    k0_pay39 (F := Ideal) (iota .tc S32x4 32 [1] iota_S32x4_d1_w32) (kyVec' pts) rowm (k0_pay38 (F := Ideal) (kxVec' pts) M) sm old (ix2 r q)
      = old (ix2 r q) + (rowm (ix2 r q) * (if q.val = 2 then 1 else 0)) * cellSum M pts sm :=
  step2_apply M pts sm rowm old hM hw r q

/-- Channel 3 of the second batch. -/
theorem step3'_apply :
    k0_pay1 (F := Ideal) rowm (k0_pay40 (F := Ideal) (kxVec' pts) (kyVec' pts) M sm)
        (k0_pay41 (F := Ideal) (iota .tc S32x4 32 [1] iota_S32x4_d1_w32)) old (ix2 r q)
      = old (ix2 r q) + (rowm (ix2 r q) * (if q.val = 3 then 1 else 0)) * cellSum M pts sm :=
  step3_apply M pts sm rowm old hM hw r q

end

/-! ## The row masks at a grid step -/

/-- The first batch's row mask at step g of a half: 1 on row 2·g, else 0. -/
theorem rowmask0_apply (g : Nat) (hg : g < 16) (r : Fin 32) (q : Fin 4) :
    k0_pay13 (F := Ideal) (BitVec.ofNat 32 g) (iota .tc S32x4 32 [0] iota_S32x4_d0_w32) (ix2 r q)
      = if r.val = 2 * g then 1 else 0 := by
  rw [pay13_apply]
  exact if_congr ((rowword_iff g hg 0 (by decide) r).trans (by rw [Nat.add_zero])) rfl rfl

/-- The second batch's row mask at step g: 1 on row 2·g + 1, else 0. -/
theorem rowmask1_apply (g : Nat) (hg : g < 16) (r : Fin 32) (q : Fin 4) :
    k0_pay33 (F := Ideal) (BitVec.ofNat 32 g) (iota .tc S32x4 32 [0] iota_S32x4_d0_w32) (ix2 r q)
      = if r.val = 2 * g + 1 then 1 else 0 := by
  rw [pay33_apply]
  exact if_congr (rowword_iff g hg 1 (by decide) r) rfl rfl

end Cert.BodyMath
-- ==== Proof.KIStep.lean ====
/-
  One grid step of the kernel body, entry by entry of the 32 × 4 output block. The body's eight stores each add, to
  the block loaded just before, (row mask · column mask) · (cell sum), the cell sum being the interpolated,
  sign-weighted sum over the vertices for one batch of the step and one channel. Read off the run's found stores: a
  whole-block load after a whole-block store reads the stored block, whatever was stored before. The row masks pick
  rows 2g and 2g + 1 at step g of a half and the column masks one column each, so exactly one of the eight terms is
  not zero times a sum; on the extended reals the rest vanish.
-/
import proofs.«174235_j4939212390583_2_alg».proof.Proof.KIInv
import proofs.«174235_j4939212390583_2_alg».proof.Proof.BodyPayAcc
import proofs.«174235_j4939212390583_2_alg».proof.Proof.BodyPayK
import proofs.«174235_j4939212390583_2_alg».proof.Proof.BodyPaySum2
import proofs.«174235_j4939212390583_2_alg».proof.Proof.BodyPayCell
import proofs.«174235_j4939212390583_2_alg».proof.Proof.BodyCells2
set_option maxRecDepth 16384

noncomputable section

namespace Cert.KernelIdeal.Val

open Cert.KernelIdeal Cert.KernelIdeal.Gen Cert.KernelIdeal.Frm Cert.BodyMath
open Idealize.ShloMosaic Idealize.ShloMosaic.TcCoe Idealize.ShloMosaic.ValueIdx Idealize.SL.Sem Idealize.ShloMosaic.Tactic

theorem hz2 : (![0, 0] : Fin 2 → Nat) = fun _ => 0 := funext fun a => by fin_cases a <;> rfl

/-- A whole-block load of a buffer whose LAST store was a whole-block store reads that store's value, whatever was
    stored before. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

set_option maxHeartbeats 4000000 in
/-- A later step, entry by entry: the block the step before left plus the eight masked cell sums. -/
theorem out_B_sum (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc : ¬cond0_0 i)
    (x0 : Vec Ideal S2x4x512x512 .f32) (x1 : Vec Ideal S2x8x128 .f32) (x2 : Vec Ideal S2x4x128 .f32) (xo : Vec Ideal S32x4 .f32)
    (h0 : ∀ j, IsReal (x0 j)) (h1 : ∀ j, IsReal (x1 j)) (g : Nat) (hg : g < 16) (hi : (i 1).val = g) (r : Fin 32) (q : Fin 4) :
    out0_B_3 c i arg2 harg2 arg3 harg3 arg4 harg4 arg5 harg5 hc x0 x1 x2 xo (ix2 r q)
      = ((((((((xo (ix2 r q) + ((if r.val = 2 * g then 1 else 0) * (if q.val = 0 then 1 else 0)) * cellSum (View.ld x0 (Rect.unit (s := S2x4x512x512) ![0, 0, 0, 0] S1x1x512x512.size inb_S2x4x512x512_S1x1x512x512_0_0_0_0)) (View.ld x1 (Rect.unit (s := S2x8x128) ![0, 0, 0] S1x8x128.size inb_S2x8x128_S1x8x128_0_0_0)) (View.ld x2 (Rect.unit (s := S2x4x128) ![0, 0, 0] S1x1x128.size inb_S2x4x128_S1x1x128_0_0_0))) + ((if r.val = 2 * g then 1 else 0) * (if q.val = 1 then 1 else 0)) * cellSum (View.ld x0 (Rect.unit (s := S2x4x512x512) ![0, 1, 0, 0] S1x1x512x512.size inb_S2x4x512x512_S1x1x512x512_0_1_0_0)) (View.ld x1 (Rect.unit (s := S2x8x128) ![0, 0, 0] S1x8x128.size inb_S2x8x128_S1x8x128_0_0_0)) (View.ld x2 (Rect.unit (s := S2x4x128) ![0, 1, 0] S1x1x128.size inb_S2x4x128_S1x1x128_0_1_0))) + ((if r.val = 2 * g then 1 else 0) * (if q.val = 2 then 1 else 0)) * cellSum (View.ld x0 (Rect.unit (s := S2x4x512x512) ![0, 2, 0, 0] S1x1x512x512.size inb_S2x4x512x512_S1x1x512x512_0_2_0_0)) (View.ld x1 (Rect.unit (s := S2x8x128) ![0, 0, 0] S1x8x128.size inb_S2x8x128_S1x8x128_0_0_0)) (View.ld x2 (Rect.unit (s := S2x4x128) ![0, 2, 0] S1x1x128.size inb_S2x4x128_S1x1x128_0_2_0))) + ((if r.val = 2 * g then 1 else 0) * (if q.val = 3 then 1 else 0)) * cellSum (View.ld x0 (Rect.unit (s := S2x4x512x512) ![0, 3, 0, 0] S1x1x512x512.size inb_S2x4x512x512_S1x1x512x512_0_3_0_0)) (View.ld x1 (Rect.unit (s := S2x8x128) ![0, 0, 0] S1x8x128.size inb_S2x8x128_S1x8x128_0_0_0)) (View.ld x2 (Rect.unit (s := S2x4x128) ![0, 3, 0] S1x1x128.size inb_S2x4x128_S1x1x128_0_3_0))) + ((if r.val = 2 * g + 1 then 1 else 0) * (if q.val = 0 then 1 else 0)) * cellSum (View.ld x0 (Rect.unit (s := S2x4x512x512) ![1, 0, 0, 0] S1x1x512x512.size inb_S2x4x512x512_S1x1x512x512_1_0_0_0)) (View.ld x1 (Rect.unit (s := S2x8x128) ![1, 0, 0] S1x8x128.size inb_S2x8x128_S1x8x128_1_0_0)) (View.ld x2 (Rect.unit (s := S2x4x128) ![1, 0, 0] S1x1x128.size inb_S2x4x128_S1x1x128_1_0_0))) + ((if r.val = 2 * g + 1 then 1 else 0) * (if q.val = 1 then 1 else 0)) * cellSum (View.ld x0 (Rect.unit (s := S2x4x512x512) ![1, 1, 0, 0] S1x1x512x512.size inb_S2x4x512x512_S1x1x512x512_1_1_0_0)) (View.ld x1 (Rect.unit (s := S2x8x128) ![1, 0, 0] S1x8x128.size inb_S2x8x128_S1x8x128_1_0_0)) (View.ld x2 (Rect.unit (s := S2x4x128) ![1, 1, 0] S1x1x128.size inb_S2x4x128_S1x1x128_1_1_0))) + ((if r.val = 2 * g + 1 then 1 else 0) * (if q.val = 2 then 1 else 0)) * cellSum (View.ld x0 (Rect.unit (s := S2x4x512x512) ![1, 2, 0, 0] S1x1x512x512.size inb_S2x4x512x512_S1x1x512x512_1_2_0_0)) (View.ld x1 (Rect.unit (s := S2x8x128) ![1, 0, 0] S1x8x128.size inb_S2x8x128_S1x8x128_1_0_0)) (View.ld x2 (Rect.unit (s := S2x4x128) ![1, 2, 0] S1x1x128.size inb_S2x4x128_S1x1x128_1_2_0))) + ((if r.val = 2 * g + 1 then 1 else 0) * (if q.val = 3 then 1 else 0)) * cellSum (View.ld x0 (Rect.unit (s := S2x4x512x512) ![1, 3, 0, 0] S1x1x512x512.size inb_S2x4x512x512_S1x1x512x512_1_3_0_0)) (View.ld x1 (Rect.unit (s := S2x8x128) ![1, 0, 0] S1x8x128.size inb_S2x8x128_S1x8x128_1_0_0)) (View.ld x2 (Rect.unit (s := S2x4x128) ![1, 3, 0] S1x1x128.size inb_S2x4x128_S1x1x128_1_3_0))) := by
  unfold out0_B_3
  rw [View.read_writes_eq_canon _ _ _ (cover0_B_3 c i arg2 harg2 arg3 harg3 arg4 harg4 arg5 harg5 hc x0 x1 x2 xo)]
  unfold kernelRun0_B
  dsimp only
  sl_unfold_words
  rw [View.canon_cons_unit_zero (S := S32x4) hz2]
  simp only [View.readAt_eq_ld, harg2.read_unread, harg3.read_unread, harg4.read_unread, harg5.read_unread]
  rw [hi]
  rw [step3'_apply (View.ld x0 (Rect.unit (s := S2x4x512x512) ![1, 3, 0, 0] S1x1x512x512.size inb_S2x4x512x512_S1x1x512x512_1_3_0_0)) (View.ld x1 (Rect.unit (s := S2x8x128) ![1, 0, 0] S1x8x128.size inb_S2x8x128_S1x8x128_1_0_0)) (View.ld x2 (Rect.unit (s := S2x4x128) ![1, 3, 0] S1x1x128.size inb_S2x4x128_S1x1x128_1_3_0)) (k0_pay33 (BitVec.ofNat 32 g) (iota .tc S32x4 32 [0] iota_S32x4_d0_w32)) _ (fun y x => h0 _) (fun k v => h1 _) r q]
  rw [readCov_cons_whole (S := S32x4) _ hz2]
  rw [step2'_apply (View.ld x0 (Rect.unit (s := S2x4x512x512) ![1, 2, 0, 0] S1x1x512x512.size inb_S2x4x512x512_S1x1x512x512_1_2_0_0)) (View.ld x1 (Rect.unit (s := S2x8x128) ![1, 0, 0] S1x8x128.size inb_S2x8x128_S1x8x128_1_0_0)) (View.ld x2 (Rect.unit (s := S2x4x128) ![1, 2, 0] S1x1x128.size inb_S2x4x128_S1x1x128_1_2_0)) (k0_pay33 (BitVec.ofNat 32 g) (iota .tc S32x4 32 [0] iota_S32x4_d0_w32)) _ (fun y x => h0 _) (fun k v => h1 _) r q]
  rw [readCov_cons_whole (S := S32x4) _ hz2]
  rw [step1'_apply (View.ld x0 (Rect.unit (s := S2x4x512x512) ![1, 1, 0, 0] S1x1x512x512.size inb_S2x4x512x512_S1x1x512x512_1_1_0_0)) (View.ld x1 (Rect.unit (s := S2x8x128) ![1, 0, 0] S1x8x128.size inb_S2x8x128_S1x8x128_1_0_0)) (View.ld x2 (Rect.unit (s := S2x4x128) ![1, 1, 0] S1x1x128.size inb_S2x4x128_S1x1x128_1_1_0)) (k0_pay33 (BitVec.ofNat 32 g) (iota .tc S32x4 32 [0] iota_S32x4_d0_w32)) _ (fun y x => h0 _) (fun k v => h1 _) r q]
  rw [readCov_cons_whole (S := S32x4) _ hz2]
  rw [step0'_apply (View.ld x0 (Rect.unit (s := S2x4x512x512) ![1, 0, 0, 0] S1x1x512x512.size inb_S2x4x512x512_S1x1x512x512_1_0_0_0)) (View.ld x1 (Rect.unit (s := S2x8x128) ![1, 0, 0] S1x8x128.size inb_S2x8x128_S1x8x128_1_0_0)) (View.ld x2 (Rect.unit (s := S2x4x128) ![1, 0, 0] S1x1x128.size inb_S2x4x128_S1x1x128_1_0_0)) (k0_pay33 (BitVec.ofNat 32 g) (iota .tc S32x4 32 [0] iota_S32x4_d0_w32)) _ (fun y x => h0 _) (fun k v => h1 _) r q]
  rw [readCov_cons_whole (S := S32x4) _ hz2]
  rw [step3_apply (View.ld x0 (Rect.unit (s := S2x4x512x512) ![0, 3, 0, 0] S1x1x512x512.size inb_S2x4x512x512_S1x1x512x512_0_3_0_0)) (View.ld x1 (Rect.unit (s := S2x8x128) ![0, 0, 0] S1x8x128.size inb_S2x8x128_S1x8x128_0_0_0)) (View.ld x2 (Rect.unit (s := S2x4x128) ![0, 3, 0] S1x1x128.size inb_S2x4x128_S1x1x128_0_3_0)) (k0_pay13 (BitVec.ofNat 32 g) (iota .tc S32x4 32 [0] iota_S32x4_d0_w32)) _ (fun y x => h0 _) (fun k v => h1 _) r q]
  rw [readCov_cons_whole (S := S32x4) _ hz2]
  rw [step2_apply (View.ld x0 (Rect.unit (s := S2x4x512x512) ![0, 2, 0, 0] S1x1x512x512.size inb_S2x4x512x512_S1x1x512x512_0_2_0_0)) (View.ld x1 (Rect.unit (s := S2x8x128) ![0, 0, 0] S1x8x128.size inb_S2x8x128_S1x8x128_0_0_0)) (View.ld x2 (Rect.unit (s := S2x4x128) ![0, 2, 0] S1x1x128.size inb_S2x4x128_S1x1x128_0_2_0)) (k0_pay13 (BitVec.ofNat 32 g) (iota .tc S32x4 32 [0] iota_S32x4_d0_w32)) _ (fun y x => h0 _) (fun k v => h1 _) r q]
  rw [readCov_cons_whole (S := S32x4) _ hz2]
  rw [step1_apply (View.ld x0 (Rect.unit (s := S2x4x512x512) ![0, 1, 0, 0] S1x1x512x512.size inb_S2x4x512x512_S1x1x512x512_0_1_0_0)) (View.ld x1 (Rect.unit (s := S2x8x128) ![0, 0, 0] S1x8x128.size inb_S2x8x128_S1x8x128_0_0_0)) (View.ld x2 (Rect.unit (s := S2x4x128) ![0, 1, 0] S1x1x128.size inb_S2x4x128_S1x1x128_0_1_0)) (k0_pay13 (BitVec.ofNat 32 g) (iota .tc S32x4 32 [0] iota_S32x4_d0_w32)) _ (fun y x => h0 _) (fun k v => h1 _) r q]
  rw [readCov_cons_whole (S := S32x4) _ hz2]
  rw [step0_apply (View.ld x0 (Rect.unit (s := S2x4x512x512) ![0, 0, 0, 0] S1x1x512x512.size inb_S2x4x512x512_S1x1x512x512_0_0_0_0)) (View.ld x1 (Rect.unit (s := S2x8x128) ![0, 0, 0] S1x8x128.size inb_S2x8x128_S1x8x128_0_0_0)) (View.ld x2 (Rect.unit (s := S2x4x128) ![0, 0, 0] S1x1x128.size inb_S2x4x128_S1x1x128_0_0_0)) (k0_pay13 (BitVec.ofNat 32 g) (iota .tc S32x4 32 [0] iota_S32x4_d0_w32)) _ (fun y x => h0 _) (fun k v => h1 _) r q]
  rw [View.ld_unit_zero (S := S32x4) hz2]
  rw [rowmask0_apply g hg r q, rowmask1_apply g hg r q]

set_option maxHeartbeats 4000000 in
/-- A first step of a half, entry by entry: zero plus the eight masked cell sums. -/
theorem out_A_sum (c : Dev nD) (i : grid0.Coords) (arg2 : Memref sig .tc .vmem S2x4x512x512 .f32) (harg2 : arg2.IsWhole) (arg3 : Memref sig .tc .vmem S2x8x128 .f32) (harg3 : arg3.IsWhole)
    (arg4 : Memref sig .tc .vmem S2x4x128 .f32) (harg4 : arg4.IsWhole) (arg5 : Memref sig .tc .vmem S32x4 .f32) (harg5 : arg5.IsWhole) (hc : cond0_0 i)
    (x0 : Vec Ideal S2x4x512x512 .f32) (x1 : Vec Ideal S2x8x128 .f32) (x2 : Vec Ideal S2x4x128 .f32)
    (h0 : ∀ j, IsReal (x0 j)) (h1 : ∀ j, IsReal (x1 j)) (g : Nat) (hg : g < 16) (hi : (i 1).val = g) (r : Fin 32) (q : Fin 4) :
    out0_A_3 c i arg2 harg2 arg3 harg3 arg4 harg4 arg5 harg5 hc x0 x1 x2 (ix2 r q)
      = (((((((((0 : Ideal .f32) + ((if r.val = 2 * g then 1 else 0) * (if q.val = 0 then 1 else 0)) * cellSum (View.ld x0 (Rect.unit (s := S2x4x512x512) ![0, 0, 0, 0] S1x1x512x512.size inb_S2x4x512x512_S1x1x512x512_0_0_0_0)) (View.ld x1 (Rect.unit (s := S2x8x128) ![0, 0, 0] S1x8x128.size inb_S2x8x128_S1x8x128_0_0_0)) (View.ld x2 (Rect.unit (s := S2x4x128) ![0, 0, 0] S1x1x128.size inb_S2x4x128_S1x1x128_0_0_0))) + ((if r.val = 2 * g then 1 else 0) * (if q.val = 1 then 1 else 0)) * cellSum (View.ld x0 (Rect.unit (s := S2x4x512x512) ![0, 1, 0, 0] S1x1x512x512.size inb_S2x4x512x512_S1x1x512x512_0_1_0_0)) (View.ld x1 (Rect.unit (s := S2x8x128) ![0, 0, 0] S1x8x128.size inb_S2x8x128_S1x8x128_0_0_0)) (View.ld x2 (Rect.unit (s := S2x4x128) ![0, 1, 0] S1x1x128.size inb_S2x4x128_S1x1x128_0_1_0))) + ((if r.val = 2 * g then 1 else 0) * (if q.val = 2 then 1 else 0)) * cellSum (View.ld x0 (Rect.unit (s := S2x4x512x512) ![0, 2, 0, 0] S1x1x512x512.size inb_S2x4x512x512_S1x1x512x512_0_2_0_0)) (View.ld x1 (Rect.unit (s := S2x8x128) ![0, 0, 0] S1x8x128.size inb_S2x8x128_S1x8x128_0_0_0)) (View.ld x2 (Rect.unit (s := S2x4x128) ![0, 2, 0] S1x1x128.size inb_S2x4x128_S1x1x128_0_2_0))) + ((if r.val = 2 * g then 1 else 0) * (if q.val = 3 then 1 else 0)) * cellSum (View.ld x0 (Rect.unit (s := S2x4x512x512) ![0, 3, 0, 0] S1x1x512x512.size inb_S2x4x512x512_S1x1x512x512_0_3_0_0)) (View.ld x1 (Rect.unit (s := S2x8x128) ![0, 0, 0] S1x8x128.size inb_S2x8x128_S1x8x128_0_0_0)) (View.ld x2 (Rect.unit (s := S2x4x128) ![0, 3, 0] S1x1x128.size inb_S2x4x128_S1x1x128_0_3_0))) + ((if r.val = 2 * g + 1 then 1 else 0) * (if q.val = 0 then 1 else 0)) * cellSum (View.ld x0 (Rect.unit (s := S2x4x512x512) ![1, 0, 0, 0] S1x1x512x512.size inb_S2x4x512x512_S1x1x512x512_1_0_0_0)) (View.ld x1 (Rect.unit (s := S2x8x128) ![1, 0, 0] S1x8x128.size inb_S2x8x128_S1x8x128_1_0_0)) (View.ld x2 (Rect.unit (s := S2x4x128) ![1, 0, 0] S1x1x128.size inb_S2x4x128_S1x1x128_1_0_0))) + ((if r.val = 2 * g + 1 then 1 else 0) * (if q.val = 1 then 1 else 0)) * cellSum (View.ld x0 (Rect.unit (s := S2x4x512x512) ![1, 1, 0, 0] S1x1x512x512.size inb_S2x4x512x512_S1x1x512x512_1_1_0_0)) (View.ld x1 (Rect.unit (s := S2x8x128) ![1, 0, 0] S1x8x128.size inb_S2x8x128_S1x8x128_1_0_0)) (View.ld x2 (Rect.unit (s := S2x4x128) ![1, 1, 0] S1x1x128.size inb_S2x4x128_S1x1x128_1_1_0))) + ((if r.val = 2 * g + 1 then 1 else 0) * (if q.val = 2 then 1 else 0)) * cellSum (View.ld x0 (Rect.unit (s := S2x4x512x512) ![1, 2, 0, 0] S1x1x512x512.size inb_S2x4x512x512_S1x1x512x512_1_2_0_0)) (View.ld x1 (Rect.unit (s := S2x8x128) ![1, 0, 0] S1x8x128.size inb_S2x8x128_S1x8x128_1_0_0)) (View.ld x2 (Rect.unit (s := S2x4x128) ![1, 2, 0] S1x1x128.size inb_S2x4x128_S1x1x128_1_2_0))) + ((if r.val = 2 * g + 1 then 1 else 0) * (if q.val = 3 then 1 else 0)) * cellSum (View.ld x0 (Rect.unit (s := S2x4x512x512) ![1, 3, 0, 0] S1x1x512x512.size inb_S2x4x512x512_S1x1x512x512_1_3_0_0)) (View.ld x1 (Rect.unit (s := S2x8x128) ![1, 0, 0] S1x8x128.size inb_S2x8x128_S1x8x128_1_0_0)) (View.ld x2 (Rect.unit (s := S2x4x128) ![1, 3, 0] S1x1x128.size inb_S2x4x128_S1x1x128_1_3_0))) := by
  unfold out0_A_3
  rw [View.read_writes_eq_canon _ _ _ (cover0_A_3 c i arg2 harg2 arg3 harg3 arg4 harg4 arg5 harg5 hc x0 x1 x2)]
  unfold kernelRun0_A
  dsimp only
  sl_unfold_words
  rw [View.canon_cons_unit_zero (S := S32x4) hz2]
  simp only [View.readAt_eq_ld, harg2.read_unread, harg3.read_unread, harg4.read_unread, harg5.read_unread]
  rw [hi]
  rw [step3'_apply (View.ld x0 (Rect.unit (s := S2x4x512x512) ![1, 3, 0, 0] S1x1x512x512.size inb_S2x4x512x512_S1x1x512x512_1_3_0_0)) (View.ld x1 (Rect.unit (s := S2x8x128) ![1, 0, 0] S1x8x128.size inb_S2x8x128_S1x8x128_1_0_0)) (View.ld x2 (Rect.unit (s := S2x4x128) ![1, 3, 0] S1x1x128.size inb_S2x4x128_S1x1x128_1_3_0)) (k0_pay33 (BitVec.ofNat 32 g) (iota .tc S32x4 32 [0] iota_S32x4_d0_w32)) _ (fun y x => h0 _) (fun k v => h1 _) r q]
  rw [readCov_cons_whole (S := S32x4) _ hz2]
  rw [step2'_apply (View.ld x0 (Rect.unit (s := S2x4x512x512) ![1, 2, 0, 0] S1x1x512x512.size inb_S2x4x512x512_S1x1x512x512_1_2_0_0)) (View.ld x1 (Rect.unit (s := S2x8x128) ![1, 0, 0] S1x8x128.size inb_S2x8x128_S1x8x128_1_0_0)) (View.ld x2 (Rect.unit (s := S2x4x128) ![1, 2, 0] S1x1x128.size inb_S2x4x128_S1x1x128_1_2_0)) (k0_pay33 (BitVec.ofNat 32 g) (iota .tc S32x4 32 [0] iota_S32x4_d0_w32)) _ (fun y x => h0 _) (fun k v => h1 _) r q]
  rw [readCov_cons_whole (S := S32x4) _ hz2]
  rw [step1'_apply (View.ld x0 (Rect.unit (s := S2x4x512x512) ![1, 1, 0, 0] S1x1x512x512.size inb_S2x4x512x512_S1x1x512x512_1_1_0_0)) (View.ld x1 (Rect.unit (s := S2x8x128) ![1, 0, 0] S1x8x128.size inb_S2x8x128_S1x8x128_1_0_0)) (View.ld x2 (Rect.unit (s := S2x4x128) ![1, 1, 0] S1x1x128.size inb_S2x4x128_S1x1x128_1_1_0)) (k0_pay33 (BitVec.ofNat 32 g) (iota .tc S32x4 32 [0] iota_S32x4_d0_w32)) _ (fun y x => h0 _) (fun k v => h1 _) r q]
  rw [readCov_cons_whole (S := S32x4) _ hz2]
  rw [step0'_apply (View.ld x0 (Rect.unit (s := S2x4x512x512) ![1, 0, 0, 0] S1x1x512x512.size inb_S2x4x512x512_S1x1x512x512_1_0_0_0)) (View.ld x1 (Rect.unit (s := S2x8x128) ![1, 0, 0] S1x8x128.size inb_S2x8x128_S1x8x128_1_0_0)) (View.ld x2 (Rect.unit (s := S2x4x128) ![1, 0, 0] S1x1x128.size inb_S2x4x128_S1x1x128_1_0_0)) (k0_pay33 (BitVec.ofNat 32 g) (iota .tc S32x4 32 [0] iota_S32x4_d0_w32)) _ (fun y x => h0 _) (fun k v => h1 _) r q]
  rw [readCov_cons_whole (S := S32x4) _ hz2]
  rw [step3_apply (View.ld x0 (Rect.unit (s := S2x4x512x512) ![0, 3, 0, 0] S1x1x512x512.size inb_S2x4x512x512_S1x1x512x512_0_3_0_0)) (View.ld x1 (Rect.unit (s := S2x8x128) ![0, 0, 0] S1x8x128.size inb_S2x8x128_S1x8x128_0_0_0)) (View.ld x2 (Rect.unit (s := S2x4x128) ![0, 3, 0] S1x1x128.size inb_S2x4x128_S1x1x128_0_3_0)) (k0_pay13 (BitVec.ofNat 32 g) (iota .tc S32x4 32 [0] iota_S32x4_d0_w32)) _ (fun y x => h0 _) (fun k v => h1 _) r q]
  rw [readCov_cons_whole (S := S32x4) _ hz2]
  rw [step2_apply (View.ld x0 (Rect.unit (s := S2x4x512x512) ![0, 2, 0, 0] S1x1x512x512.size inb_S2x4x512x512_S1x1x512x512_0_2_0_0)) (View.ld x1 (Rect.unit (s := S2x8x128) ![0, 0, 0] S1x8x128.size inb_S2x8x128_S1x8x128_0_0_0)) (View.ld x2 (Rect.unit (s := S2x4x128) ![0, 2, 0] S1x1x128.size inb_S2x4x128_S1x1x128_0_2_0)) (k0_pay13 (BitVec.ofNat 32 g) (iota .tc S32x4 32 [0] iota_S32x4_d0_w32)) _ (fun y x => h0 _) (fun k v => h1 _) r q]
  rw [readCov_cons_whole (S := S32x4) _ hz2]
  rw [step1_apply (View.ld x0 (Rect.unit (s := S2x4x512x512) ![0, 1, 0, 0] S1x1x512x512.size inb_S2x4x512x512_S1x1x512x512_0_1_0_0)) (View.ld x1 (Rect.unit (s := S2x8x128) ![0, 0, 0] S1x8x128.size inb_S2x8x128_S1x8x128_0_0_0)) (View.ld x2 (Rect.unit (s := S2x4x128) ![0, 1, 0] S1x1x128.size inb_S2x4x128_S1x1x128_0_1_0)) (k0_pay13 (BitVec.ofNat 32 g) (iota .tc S32x4 32 [0] iota_S32x4_d0_w32)) _ (fun y x => h0 _) (fun k v => h1 _) r q]
  rw [readCov_cons_whole (S := S32x4) _ hz2]
  rw [step0_apply (View.ld x0 (Rect.unit (s := S2x4x512x512) ![0, 0, 0, 0] S1x1x512x512.size inb_S2x4x512x512_S1x1x512x512_0_0_0_0)) (View.ld x1 (Rect.unit (s := S2x8x128) ![0, 0, 0] S1x8x128.size inb_S2x8x128_S1x8x128_0_0_0)) (View.ld x2 (Rect.unit (s := S2x4x128) ![0, 0, 0] S1x1x128.size inb_S2x4x128_S1x1x128_0_0_0)) (k0_pay13 (BitVec.ofNat 32 g) (iota .tc S32x4 32 [0] iota_S32x4_d0_w32)) _ (fun y x => h0 _) (fun k v => h1 _) r q]
  rw [readCov_cons_whole (S := S32x4) _ hz2]
  rw [pay2_apply]
  rw [rowmask0_apply g hg r q, rowmask1_apply g hg r q]

/-- Eight masked terms added to `x`: the masks are 0/1 indicators of one row pair and one column, so at most one
    term is not zero times something; on the extended reals zero times anything is zero and adding zero changes nothing. -/
theorem collapse8 (x s00 s01 s02 s03 s10 s11 s12 s13 : EReal) (g : Nat) (r : Fin 32) (q : Fin 4) :
    ((((((((x + ((if r.val = 2 * g then (1 : EReal) else 0) * (if q.val = 0 then 1 else 0)) * s00)
      + ((if r.val = 2 * g then (1 : EReal) else 0) * (if q.val = 1 then 1 else 0)) * s01)
      + ((if r.val = 2 * g then (1 : EReal) else 0) * (if q.val = 2 then 1 else 0)) * s02)
      + ((if r.val = 2 * g then (1 : EReal) else 0) * (if q.val = 3 then 1 else 0)) * s03)
      + ((if r.val = 2 * g + 1 then (1 : EReal) else 0) * (if q.val = 0 then 1 else 0)) * s10)
      + ((if r.val = 2 * g + 1 then (1 : EReal) else 0) * (if q.val = 1 then 1 else 0)) * s11)
      + ((if r.val = 2 * g + 1 then (1 : EReal) else 0) * (if q.val = 2 then 1 else 0)) * s12)
      + ((if r.val = 2 * g + 1 then (1 : EReal) else 0) * (if q.val = 3 then 1 else 0)) * s13)
    = x + (if r.val / 2 = g then (if r.val % 2 = 0 then ![s00, s01, s02, s03] q else ![s10, s11, s12, s13] q) else 0) := by
  by_cases h0 : r.val = 2 * g
  · have h1 : ¬ r.val = 2 * g + 1 := by omega
    have hd : r.val / 2 = g := by omega
    have hm : r.val % 2 = 0 := by omega
    rw [if_pos hd, if_pos hm, if_pos h0, if_neg h1]
    fin_cases q <;> simp
  · by_cases h1 : r.val = 2 * g + 1
    · have hd : r.val / 2 = g := by omega
      have hm : ¬ r.val % 2 = 0 := by omega
      rw [if_pos hd, if_neg hm, if_neg h0, if_pos h1]
      fin_cases q <;> simp
    · have hd : ¬ r.val / 2 = g := by omega
      rw [if_neg hd, if_neg h0, if_neg h1]
      simp

end Cert.KernelIdeal.Val
end
-- ==== Proof.KIPreC.lean ====
/-
  The host operations before the call, read: the buffers the region finds hold the polygon areas of the scaled
  predicted and ground-truth points, the stacked sign-mask array and the stacked point-data array (floors, floors plus
  one, and the four distances to them), as functions of the two point arrays.
-/
import proofs.«174235_j4939212390583_2_alg».proof.Proof.KIBase
import proofs.«174235_j4939212390583_2_alg».proof.Proof.RefSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 4000000 in
theorem V_pts (c : Dev nD) : V m c main_v101 = Cert.RefSide.ptsArr (m ((c.tc : Thread nD τ).loc main_arg0)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Val

end
-- ==== Proof.RefLayout.lean ====
/-
  The reference side's arrays READ AT AN INDEX: each array of RefSpec.lean at explicit coordinates, down to the
  entries of the two argument arrays. No program is imported. The layout operations (a slice and a reshape that
  take a column, the broadcasts that insert or repeat an axis, the concatenations that stack unit rows, the
  gather of mask entries) are read with the library's index lemmas; the pointwise operations read through by
  definition at the ideal instance.
-/
import proofs.«174235_j4939212390583_2_alg».proof.Proof.RefSpec
import Idealize.ShloMosaic.Lib.Pipeline.Value
import Idealize.ShloMosaic.PureOps.Ideal.Laws

noncomputable section

open scoped BigOperators

namespace Cert.RefSide

open Idealize.ShloMosaic Idealize.ShloMosaic.ValueIdx

/-! ## Layout operations over the literal shapes -/

section Layout
variable {α : Type}

/-- A broadcast of a rank-0 array reads its one element. -/
theorem bcast0_apply {t : Shape} (dims : Fin 0 → Fin t.rank) (h : Sh0.BroadcastsInDim t dims) (x : Sh0.Idx → α)
    (j : t.Idx) : broadcastInDim t dims h x j = x ix0 := by
  unfold broadcastInDim
  exact congrArg x (funext fun a => a.elim0)

/-- Column `k` of a `[64, 128, 2]` array, sliced to `[64, 128, 1]` and reshaped to `[64, 128]`, at `(b, v)`. -/
theorem col_apply (k : Fin 2) (p : ShPts.Idx → α) (hs : ShPts.Slices ![0, 0, k.val] ShCol1) (hc : ShCol1.ShapeCasts ShBV)
    (b : Fin 64) (v : Fin 128) :
    shapeCast ShBV (extractStridedSlice ShCol1 ![0, 0, k.val] p hs) hc (ix2 b v) = p (ix3 b v k) := by
  rw [shapeCast_apply _ hc (ix2 b v) (ix3 b v (0 : Fin 1)) (by
    rewrite [Shape.rowMajor_val_three, Shape.rowMajor_val_two]
    show (b.val * 128 + v.val) * 1 + 0 = b.val * 128 + v.val
    omega)]
  exact extractStridedSlice_apply ![0, 0, k.val] p hs (ix3 b v (0 : Fin 1)) (ix3 b v k) (fun a => match a with
    | ⟨0, _⟩ => by show b.val = 0 + b.val; omega
    | ⟨1, _⟩ => by show v.val = 0 + v.val; omega
    | ⟨2, _⟩ => by show k.val = k.val + 0; omega)

/-- `[64, 128] → [64, 1, 128]` at `(b, 0, v)`. -/
theorem row1_bcast_apply (w : ShBV.Idx → α) (h : ShBV.BroadcastsInDim ShB1V (![0, 2] : Fin 2 → Fin 3)) (b : Fin 64)
    (z : Fin 1) (v : Fin 128) : broadcastInDim ShB1V (![0, 2] : Fin 2 → Fin 3) h w (ix3 b z v) = w (ix2 b v) :=
  broadcastInDim_apply _ h w (ix3 b z v) (ix2 b v) (fun a => match a with
    | ⟨0, _⟩ => by show b.val = if (64 : Nat) = 1 then 0 else b.val; rw [if_neg (by decide)]
    | ⟨1, _⟩ => by show v.val = if (128 : Nat) = 1 then 0 else v.val; rw [if_neg (by decide)])

/-- `[64, 1, 128] → [64, 4, 128]` at `(b, c, v)`. -/
theorem rep4_bcast_apply (w : ShB1V.Idx → α) (h : ShB1V.BroadcastsInDim ShBCV (![0, 1, 2] : Fin 3 → Fin 3)) (b : Fin 64)
    (c : Fin 4) (v : Fin 128) :
    broadcastInDim ShBCV (![0, 1, 2] : Fin 3 → Fin 3) h w (ix3 b c v) = w (ix3 b (0 : Fin 1) v) :=
  broadcastInDim_apply _ h w (ix3 b c v) (ix3 b (0 : Fin 1) v) (fun a => match a with
    | ⟨0, _⟩ => by show b.val = if (64 : Nat) = 1 then 0 else b.val; rw [if_neg (by decide)]
    | ⟨1, _⟩ => by show 0 = if (1 : Nat) = 1 then 0 else c.val; rw [if_pos rfl]
    | ⟨2, _⟩ => by show v.val = if (128 : Nat) = 1 then 0 else v.val; rw [if_neg (by decide)])

/-- `[64, 128] → [64, 128, 1]` at `(b, v, 0)`. -/
theorem col1_bcast_apply (w : ShBV.Idx → α) (h : ShBV.BroadcastsInDim ShCol1 (![0, 1] : Fin 2 → Fin 3)) (b : Fin 64)
    (v : Fin 128) (z : Fin 1) : broadcastInDim ShCol1 (![0, 1] : Fin 2 → Fin 3) h w (ix3 b v z) = w (ix2 b v) :=
  broadcastInDim_apply _ h w (ix3 b v z) (ix2 b v) (fun a => match a with
    | ⟨0, _⟩ => by show b.val = if (64 : Nat) = 1 then 0 else b.val; rw [if_neg (by decide)]
    | ⟨1, _⟩ => by show v.val = if (128 : Nat) = 1 then 0 else v.val; rw [if_neg (by decide)])

/-- Four `[64, 1, 128]` rows stacked on axis 1, at `(b, c, v)`: row `c` at `(b, 0, v)`. -/
theorem stack4_apply (u0 u1 u2 u3 : ShB1V.Idx → α) (h : Shape.Concatenates [ShB1V, ShB1V, ShB1V, ShB1V] ShBCV 1)
    (b : Fin 64) (c : Fin 4) (v : Fin 128) :
    concatenate ShBCV 1 [⟨ShB1V, u0⟩, ⟨ShB1V, u1⟩, ⟨ShB1V, u2⟩, ⟨ShB1V, u3⟩] h (ix3 b c v)
      = (![u0, u1, u2, u3] c) (ix3 b (0 : Fin 1) v) :=
  concatenate_ofFn_unit_apply (t := ShBCV) (s₁ := ShB1V) 1 (![u0, u1, u2, u3]) h rfl rfl (ix3 b c v) c rfl
    (ix3 b (0 : Fin 1) v) (fun d hd => match d with
      | ⟨0, _⟩ => rfl
      | ⟨1, _⟩ => absurd rfl hd
      | ⟨2, _⟩ => rfl)

/-- Eight `[64, 1, 128]` rows stacked on axis 1, at `(b, j, v)`: row `j` at `(b, 0, v)`. -/
theorem stack8_apply (u0 u1 u2 u3 u4 u5 u6 u7 : ShB1V.Idx → α)
    (h : Shape.Concatenates [ShB1V, ShB1V, ShB1V, ShB1V, ShB1V, ShB1V, ShB1V, ShB1V] ShB8V 1)
    (b : Fin 64) (j : Fin 8) (v : Fin 128) :
    concatenate ShB8V 1 [⟨ShB1V, u0⟩, ⟨ShB1V, u1⟩, ⟨ShB1V, u2⟩, ⟨ShB1V, u3⟩, ⟨ShB1V, u4⟩, ⟨ShB1V, u5⟩, ⟨ShB1V, u6⟩,
        ⟨ShB1V, u7⟩] h (ix3 b j v)
      = (![u0, u1, u2, u3, u4, u5, u6, u7] j) (ix3 b (0 : Fin 1) v) :=
  concatenate_ofFn_unit_apply (t := ShB8V) (s₁ := ShB1V) 1 (![u0, u1, u2, u3, u4, u5, u6, u7]) h rfl rfl (ix3 b j v) j rfl
    (ix3 b (0 : Fin 1) v) (fun d hd => match d with
      | ⟨0, _⟩ => rfl
      | ⟨1, _⟩ => absurd rfl hd
      | ⟨2, _⟩ => rfl)

/-- Two `[64, 128, 1]` columns joined on the last axis, at `(b, v, k)`: column `k` at `(b, v, 0)`. -/
theorem pair_apply (u0 u1 : ShCol1.Idx → α) (h : Shape.Concatenates [ShCol1, ShCol1] ShPts 2)
    (b : Fin 64) (v : Fin 128) (k : Fin 2) :
    concatenate ShPts 2 [⟨ShCol1, u0⟩, ⟨ShCol1, u1⟩] h (ix3 b v k) = (![u0, u1] k) (ix3 b v (0 : Fin 1)) :=
  concatenate_ofFn_unit_apply (t := ShPts) (s₁ := ShCol1) 2 (![u0, u1]) h rfl rfl (ix3 b v k) k rfl
    (ix3 b v (0 : Fin 1)) (fun d hd => match d with
      | ⟨0, _⟩ => rfl
      | ⟨1, _⟩ => rfl
      | ⟨2, _⟩ => absurd rfl hd)

end Layout

/-! ## The gather of mask entries -/

section Gather
variable {α : Type} {w : Nat}

/-- `masks[b, c, y[b, v], x[b, v]]`: the start indices `(b, v, 0)` (row) and `(b, v, 1)` (column), each read signed and
    clamped into `[0, 511]`; the batch axis paired, the channel axis the slice's one offset axis. -/
theorem gather_mask_apply (x : ShMask.Idx → α) (idx : IVec ShPts w) (b : Fin 64) (c : Fin 4) (v : Fin 128) :
    Host.gather maskDims x idx (ix3 b c v)
      = x (ix4 b c ⟨min (idx (ix3 b v (0 : Fin 2))).toInt.toNat 511, by omega⟩
                   ⟨min (idx (ix3 b v (1 : Fin 2))).toInt.toNat 511, by omega⟩) := by
  unfold Host.gather
  congr 1
  funext a
  refine Fin.ext ?_
  show maskDims.start (ix3 b c v) idx a + maskDims.batchCoord (ix3 b c v) a + maskDims.offCoord (ix3 b c v) a = _
  match a with
  | ⟨0, _⟩ =>
    rw [GatherDims.start_batching _ _ _ _ (by decide +revert), GatherDims.offCoord_eq_zero _ _ _ (by decide +revert)]
    unfold GatherDims.batchCoord
    rw [dif_pos (by decide +revert)]
    simp only [Nat.zero_add, Nat.add_zero]
    rfl
  | ⟨1, _⟩ =>
    rw [GatherDims.batchCoord_eq_zero _ _ _ (by decide +revert)]
    unfold GatherDims.start GatherDims.offCoord
    rw [dif_neg (by decide +revert), dif_pos (by decide +revert)]
    simp only [Nat.zero_add, Nat.add_zero]
    rfl
  | ⟨2, _⟩ =>
    rw [GatherDims.batchCoord_eq_zero _ _ _ (by decide +revert), GatherDims.offCoord_eq_zero _ _ _ (by decide +revert)]
    unfold GatherDims.start
    rw [dif_pos (by decide +revert)]
    simp only [Nat.add_zero]
    have hsi : ∀ h, maskDims.siIdx (ix3 b c v) ⟨List.idxOf (⟨2, by decide⟩ : Fin 4) maskDims.startIndexMap, h⟩
        = ix3 b v (0 : Fin 2) := by
      intro h
      funext d; refine Fin.ext ?_
      match d with
      | ⟨0, _⟩ => rfl
      | ⟨1, _⟩ => rfl
      | ⟨2, _⟩ => rfl
    rw [hsi]
    rfl
  | ⟨3, _⟩ =>
    rw [GatherDims.batchCoord_eq_zero _ _ _ (by decide +revert), GatherDims.offCoord_eq_zero _ _ _ (by decide +revert)]
    unfold GatherDims.start
    rw [dif_pos (by decide +revert)]
    simp only [Nat.add_zero]
    have hsi : ∀ h, maskDims.siIdx (ix3 b c v) ⟨List.idxOf (⟨3, by decide⟩ : Fin 4) maskDims.startIndexMap, h⟩
        = ix3 b v (1 : Fin 2) := by
      intro h
      funext d; refine Fin.ext ?_
      match d with
      | ⟨0, _⟩ => rfl
      | ⟨1, _⟩ => rfl
      | ⟨2, _⟩ => rfl
    rw [hsi]
    rfl

end Gather

/-! ## The arrays of the specification at an index -/

section Pieces
variable (a : FVec Ideal ShPts .f32) (b : Fin 64) (v : Fin 128)

theorem scaled_apply (i : ShPts.Idx) : scaled a i = a i * Ideal.ofBits .f32 0x44000000#32 := rfl

theorem colX_apply (p : FVec Ideal ShPts .f32) : colX p (ix2 b v) = p (ix3 b v (0 : Fin 2)) :=
  col_apply 0 p _ _ b v

theorem colY_apply (p : FVec Ideal ShPts .f32) : colY p (ix2 b v) = p (ix3 b v (1 : Fin 2)) :=
  col_apply 1 p _ _ b v

theorem xsA_apply : xsA a (ix2 b v) = px a b v := by
  unfold xsA px; rw [colX_apply, scaled_apply]

theorem ysA_apply : ysA a (ix2 b v) = py a b v := by
  unfold ysA py; rw [colY_apply, scaled_apply]

theorem x0fA_apply : x0fA a (ix2 b v) = x0f a b v := by
  show FloatOps.hostUnary .floor (xsA a (ix2 b v)) = _
  rw [xsA_apply]; rfl

theorem y0fA_apply : y0fA a (ix2 b v) = y0f a b v := by
  show FloatOps.hostUnary .floor (ysA a (ix2 b v)) = _
  rw [ysA_apply]; rfl

theorem oneBV_apply (i : ShBV.Idx) : oneBV i = Ideal.ofBits .f32 0x3F800000#32 := rfl

theorem x1fA_apply : x1fA a (ix2 b v) = x1f a b v := by
  show x0fA a (ix2 b v) + oneBV (ix2 b v) = _
  rw [x0fA_apply]; rfl

theorem y1fA_apply : y1fA a (ix2 b v) = y1f a b v := by
  show y0fA a (ix2 b v) + oneBV (ix2 b v) = _
  rw [y0fA_apply]; rfl

/-- `X1f − X` as an array entry. -/
theorem wx0A_apply : subf (x1fA a) (xsA a) (ix2 b v) = wx0 a b v := by
  show x1fA a (ix2 b v) - xsA a (ix2 b v) = _
  rw [x1fA_apply, xsA_apply]; rfl

theorem wx1A_apply : subf (xsA a) (x0fA a) (ix2 b v) = wx1 a b v := by
  show xsA a (ix2 b v) - x0fA a (ix2 b v) = _
  rw [x0fA_apply, xsA_apply]; rfl

theorem wy0A_apply : subf (y1fA a) (ysA a) (ix2 b v) = wy0 a b v := by
  show y1fA a (ix2 b v) - ysA a (ix2 b v) = _
  rw [y1fA_apply, ysA_apply]; rfl

theorem wy1A_apply : subf (ysA a) (y0fA a) (ix2 b v) = wy1 a b v := by
  show ysA a (ix2 b v) - y0fA a (ix2 b v) = _
  rw [y0fA_apply, ysA_apply]; rfl

theorem w00A_apply : w00A a (ix2 b v) = wx0 a b v * wy0 a b v := by
  show subf (x1fA a) (xsA a) (ix2 b v) * subf (y1fA a) (ysA a) (ix2 b v) = _
  rw [wx0A_apply, wy0A_apply]

theorem w01A_apply : w01A a (ix2 b v) = wx0 a b v * wy1 a b v := by
  show subf (x1fA a) (xsA a) (ix2 b v) * subf (ysA a) (y0fA a) (ix2 b v) = _
  rw [wx0A_apply, wy1A_apply]

theorem w10A_apply : w10A a (ix2 b v) = wx1 a b v * wy0 a b v := by
  show subf (xsA a) (x0fA a) (ix2 b v) * subf (y1fA a) (ysA a) (ix2 b v) = _
  rw [wx1A_apply, wy0A_apply]

theorem w11A_apply : w11A a (ix2 b v) = wx1 a b v * wy1 a b v := by
  show subf (xsA a) (x0fA a) (ix2 b v) * subf (ysA a) (y0fA a) (ix2 b v) = _
  rw [wx1A_apply, wy1A_apply]

theorem row1_apply (w : FVec Ideal ShBV .f32) (z : Fin 1) : row1 w (ix3 b z v) = w (ix2 b v) := by
  unfold row1; exact row1_bcast_apply w _ b z v

theorem spread_apply (w : FVec Ideal ShBV .f32) (c : Fin 4) : spread w (ix3 b c v) = w (ix2 b v) := by
  unfold spread; rw [rep4_bcast_apply, row1_bcast_apply]

/-- The kernel's eight rows are the named per-vertex quantities. -/
theorem ptsArr_apply (j : Fin 8) :
    ptsArr a (ix3 b j v)
      = ![x0f a b v, x1f a b v, wx0 a b v, wx1 a b v, y0f a b v, y1f a b v, wy0 a b v, wy1 a b v] j := by
  unfold ptsArr
  rw [stack8_apply]
  match j with
  | ⟨0, _⟩ => show row1 (x0fA a) (ix3 b (0 : Fin 1) v) = x0f a b v; rw [row1_apply, x0fA_apply]
  | ⟨1, _⟩ => show row1 (x1fA a) (ix3 b (0 : Fin 1) v) = x1f a b v; rw [row1_apply, x1fA_apply]
  | ⟨2, _⟩ => show row1 (subf (x1fA a) (xsA a)) (ix3 b (0 : Fin 1) v) = wx0 a b v; rw [row1_apply, wx0A_apply]
  | ⟨3, _⟩ => show row1 (subf (xsA a) (x0fA a)) (ix3 b (0 : Fin 1) v) = wx1 a b v; rw [row1_apply, wx1A_apply]
  | ⟨4, _⟩ => show row1 (y0fA a) (ix3 b (0 : Fin 1) v) = y0f a b v; rw [row1_apply, y0fA_apply]
  | ⟨5, _⟩ => show row1 (y1fA a) (ix3 b (0 : Fin 1) v) = y1f a b v; rw [row1_apply, y1fA_apply]
  | ⟨6, _⟩ => show row1 (subf (y1fA a) (ysA a)) (ix3 b (0 : Fin 1) v) = wy0 a b v; rw [row1_apply, wy0A_apply]
  | ⟨7, _⟩ => show row1 (subf (ysA a) (y0fA a)) (ix3 b (0 : Fin 1) v) = wy1 a b v; rw [row1_apply, wy1A_apply]

end Pieces

/-! ## Words, start indices and the mask entries -/

theorem wordA_apply (t : FVec Ideal ShBV .f32) (i : ShBV.Idx) : wordA t i = Ideal.fptosi 32 (clipF (t i)) := rfl

theorem wrapA_apply (w : IVec ShBV 32) (i : ShBV.Idx) : wrapA w i = wrapW (w i) := rfl

theorem startA_apply (wy wx : IVec ShBV 32) (b : Fin 64) (v : Fin 128) (k : Fin 2) :
    startA wy wx (ix3 b v k) = wrapW ((![wy, wx] k) (ix2 b v)) := by
  unfold startA
  rw [pair_apply]
  match k with
  | ⟨0, _⟩ => exact (col1_bcast_apply (wrapA wy) (by decide) b v (0 : Fin 1)).trans rfl
  | ⟨1, _⟩ => exact (col1_bcast_apply (wrapA wx) (by decide) b v (0 : Fin 1)).trans rfl

/-- The mask entry picked for the float positions `ty` (row) and `tx` (column). -/
theorem pickA_apply (a2 : FVec Ideal ShMask .f32) (ty tx : FVec Ideal ShBV .f32) (b : Fin 64) (c : Fin 4) (v : Fin 128) :
    pickA a2 (wordA ty) (wordA tx) (ix3 b c v) = a2 (ix4 b c (clipIdx (ty (ix2 b v))) (clipIdx (tx (ix2 b v)))) := by
  unfold pickA
  rw [gather_mask_apply]
  have h0 : startA (wordA ty) (wordA tx) (ix3 b v (0 : Fin 2)) = idxWord (ty (ix2 b v)) :=
    startA_apply (wordA ty) (wordA tx) b v 0
  have h1 : startA (wordA ty) (wordA tx) (ix3 b v (1 : Fin 2)) = idxWord (tx (ix2 b v)) :=
    startA_apply (wordA ty) (wordA tx) b v 1
  refine congrArg a2 (funext fun d => Fin.ext ?_)
  match d with
  | ⟨0, _⟩ => rfl
  | ⟨1, _⟩ => rfl
  | ⟨2, _⟩ => exact congrArg (fun w : BitVec 32 => min w.toInt.toNat 511) h0
  | ⟨3, _⟩ => exact congrArg (fun w : BitVec 32 => min w.toInt.toNat 511) h1

/-! ## The interpolation and the raw term at an index -/

theorem interpA_apply (a0 : FVec Ideal ShPts .f32) (a2 : FVec Ideal ShMask .f32) (b : Fin 64) (c : Fin 4) (v : Fin 128) :
    interpA a0 a2 (ix3 b c v) = interp a0 a2 b c v := by
  show ((spread (w00A a0) (ix3 b c v) * pickA a2 (wordA (y0fA a0)) (wordA (x0fA a0)) (ix3 b c v)
          + spread (w01A a0) (ix3 b c v) * pickA a2 (wordA (y1fA a0)) (wordA (x0fA a0)) (ix3 b c v))
        + spread (w10A a0) (ix3 b c v) * pickA a2 (wordA (y0fA a0)) (wordA (x1fA a0)) (ix3 b c v))
      + spread (w11A a0) (ix3 b c v) * pickA a2 (wordA (y1fA a0)) (wordA (x1fA a0)) (ix3 b c v) = _
  rw [spread_apply, spread_apply, spread_apply, spread_apply, pickA_apply, pickA_apply, pickA_apply, pickA_apply,
    w00A_apply, w01A_apply, w10A_apply, w11A_apply, x0fA_apply, y0fA_apply, x1fA_apply, y1fA_apply]
  rfl

/-- The array operations' raw term is the specification's: at `(b, c)` the initial zero plus the sum over the
    vertices of `interp · sm`. -/
theorem rawArr_eq (a0 : FVec Ideal ShPts .f32) (a2 : FVec Ideal ShMask .f32) : rawArr a0 a2 = rawR a0 a2 := by
  funext j
  obtain ⟨b, c, rfl⟩ : ∃ (b : Fin 64) (c : Fin 4), j = ix2 b c := ⟨j 0, j 1, eq_ix2 j⟩
  rw [rawR_apply]
  unfold rawArr
  simp only [Host.reduceAdd, Ideal.hostReduceAdd_def]
  rw [Ideal.hostReduceAdd_single _ (by decide)]
  refine congrArg (_ + ·) (Finset.sum_congr rfl fun k _ => ?_)
  have hk : ∀ h : ShBCV.Reduces [2] ShBC, h.lift (ix2 b c) k = ix3 b c k := fun h =>
    funext fun d => Fin.ext (by match d with | ⟨0, _⟩ => rfl | ⟨1, _⟩ => rfl | ⟨2, _⟩ => rfl)
  rw [hk]
  exact congrArg (· * smArr a0 (ix3 b c k)) (interpA_apply a0 a2 b c k)

end Cert.RefSide

end
-- ==== Proof.BodyReal.lean ====
/-
  The per-vertex data of the interpolation are real numbers when the point's coordinates are:
  the scaled coordinates X = 512·x, Y = 512·y, their floors, the floors plus one, and the four
  weights X1f − X, X − X0f, Y1f − Y, Y − Y0f.
-/
import proofs.«174235_j4939212390583_2_alg».proof.Proof.BodyLaw
import proofs.«174235_j4939212390583_2_alg».proof.Proof.RefSpec

namespace Cert.BodyMath

open Idealize.ShloMosaic Idealize.ShloMosaic.ValueIdx Cert.RefSide

/-- The float literal 512. -/
theorem ofBits_512 : Ideal.ofBits .f32 0x44000000#32 = ((512 : ℝ) : EReal) := by
  simp [Ideal.ofBits, Ideal.ieee]
  rw [← EReal.coe_mul]
  exact congrArg _ (by norm_num)

/-- The float literal 1. -/
theorem ofBits_one : Ideal.ofBits .f32 0x3F800000#32 = ((1 : ℝ) : EReal) := by
  simp [Ideal.ofBits, Ideal.ieee]
  rw [← EReal.coe_mul, ← EReal.coe_one]
  exact congrArg _ (by norm_num)

theorem isReal_ofBits_512 : IsReal (Ideal.ofBits .f32 0x44000000#32) := ⟨512, ofBits_512⟩
theorem isReal_ofBits_one : IsReal (Ideal.ofBits .f32 0x3F800000#32) := ⟨1, ofBits_one⟩

section
variable (a0 : FVec Ideal ShPts .f32) (b : Fin 64) (v : Fin 128)

theorem isReal_px (h : IsReal (a0 (ix3 b v (0 : Fin 2)))) : IsReal (px a0 b v) := h.mul isReal_ofBits_512
theorem isReal_py (h : IsReal (a0 (ix3 b v (1 : Fin 2)))) : IsReal (py a0 b v) := h.mul isReal_ofBits_512
theorem isReal_x0f (h : IsReal (a0 (ix3 b v (0 : Fin 2)))) : IsReal (x0f a0 b v) := isReal_liftRound _ (isReal_px a0 b v h)
theorem isReal_y0f (h : IsReal (a0 (ix3 b v (1 : Fin 2)))) : IsReal (y0f a0 b v) := isReal_liftRound _ (isReal_py a0 b v h)
theorem isReal_x1f (h : IsReal (a0 (ix3 b v (0 : Fin 2)))) : IsReal (x1f a0 b v) := (isReal_x0f a0 b v h).add isReal_ofBits_one
theorem isReal_y1f (h : IsReal (a0 (ix3 b v (1 : Fin 2)))) : IsReal (y1f a0 b v) := (isReal_y0f a0 b v h).add isReal_ofBits_one
theorem isReal_wx0 (h : IsReal (a0 (ix3 b v (0 : Fin 2)))) : IsReal (wx0 a0 b v) := (isReal_x1f a0 b v h).sub (isReal_px a0 b v h)
theorem isReal_wx1 (h : IsReal (a0 (ix3 b v (0 : Fin 2)))) : IsReal (wx1 a0 b v) := (isReal_px a0 b v h).sub (isReal_x0f a0 b v h)
theorem isReal_wy0 (h : IsReal (a0 (ix3 b v (1 : Fin 2)))) : IsReal (wy0 a0 b v) := (isReal_y1f a0 b v h).sub (isReal_py a0 b v h)
theorem isReal_wy1 (h : IsReal (a0 (ix3 b v (1 : Fin 2)))) : IsReal (wy1 a0 b v) := (isReal_py a0 b v h).sub (isReal_y0f a0 b v h)

end

end Cert.BodyMath
-- ==== Proof.BodyFinite.lean ====
/-
  Finiteness from the precondition: the precondition says that every entry of the three argument
  arrays has absolute value below +∞, that is, is a real number. Hence the arrays the call's windows
  read are real-valued: the mask array is an argument, and the point-data array holds floors, floors
  plus one and differences of scaled point coordinates, all real when the coordinates are.
-/
import proofs.«174235_j4939212390583_2_alg».proof.Defs
import proofs.«174235_j4939212390583_2_alg».proof.Proof.Gen.Pre_finite_inputs
import proofs.«174235_j4939212390583_2_alg».proof.Proof.KIPreC
import proofs.«174235_j4939212390583_2_alg».proof.Proof.KIBlocks
import proofs.«174235_j4939212390583_2_alg».proof.Proof.RefLayout
import proofs.«174235_j4939212390583_2_alg».proof.Proof.BodyReal
import Idealize.ShloMosaic.Lib.ReduceAll

set_option maxRecDepth 16384

namespace Cert.BodyMath

open Idealize.ShloMosaic Idealize.ShloMosaic.ValueIdx Idealize.ShloMosaic.TcCoe Idealize.SL.Sem
open Cert.KernelIdeal Cert.KernelIdeal.Gen Cert.KernelIdeal.Frm

/-- The rank-0 shape has one index. -/
instance : Subsingleton Cert.Pre_finite_inputs.S_.Idx := ⟨fun a b => funext fun d => d.elim0⟩

/-- The float literal +∞. -/
theorem ofBits_inf : Ideal.ofBits .f32 0x7F800000#32 = ⊤ := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- One conjunct of the precondition: all entries of an array have absolute value below +∞. -/
theorem all_finite {s : Shape} {axes : List (Fin s.rank)} (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) h hu j = 1#1) (i : s.Idx) : IsReal (x i) :=
  isReal_of_abs_lt_inf (x i) (Host.reduce_andi_all _ _ h hu j e i)

variable (m : (ℓ : Loc nD τ sig) → Buf (Elt Ideal) ℓ)

/-- Under the precondition every entry of the three argument arrays is a real number. -/
theorem finite_args (hpre : Cert.Pre_KernelIdeal m) (c : Dev nD) :
    (∀ j : S64x128x2.Idx, IsReal (m ((c.tc : Thread nD τ).loc main_arg0) j))
    ∧ (∀ j : S64x128x2.Idx, IsReal (m ((c.tc : Thread nD τ).loc main_arg1) j))
    ∧ (∀ j : S64x4x512x512.Idx, IsReal (m ((c.tc : Thread nD τ).loc main_arg2) j)) := by
  have h := congrFun (hpre c) ValueIdx.ix0
  dsimp only [Cert.Pre_finite_inputs.fn] at h
  obtain ⟨h01, h2⟩ := IntOp.andi_eq_one.1 h
  obtain ⟨h0, h1⟩ := IntOp.andi_eq_one.1 h01
  exact ⟨all_finite _ _ _ _ _ h0, all_finite _ _ _ _ _ h1, all_finite _ _ _ _ _ h2⟩

/-! ## The arrays the call's windows read -/

/-- The mask array as the call finds it is real-valued. -/
theorem mask_real (hpre : Cert.Pre_KernelIdeal m) (c : Dev nD) (j : S64x4x512x512.Idx) :
    IsReal (V m c main_arg2 j) := by
  rw [V_main_arg2]
  exact (finite_args m hpre c).2.2 j

/-- The point-data array as the call finds it is real-valued: each of its eight rows is a floor, a
    floor plus one, or a difference of such with a scaled coordinate. -/
theorem pts_real (hpre : Cert.Pre_KernelIdeal m) (c : Dev nD) (j : S64x8x128.Idx) :
    IsReal (V m c main_v101 j) := by
  obtain ⟨b, k, v, rfl⟩ : ∃ (b : Fin 64) (k : Fin 8) (v : Fin 128), j = ix3 b k v := ⟨j 0, j 1, j 2, eq_ix3 j⟩
  rw [Cert.KernelIdeal.Val.V_pts, Cert.RefSide.ptsArr_apply]
  have h0 : IsReal (m ((c.tc : Thread nD τ).loc main_arg0) (ix3 b v (0 : Fin 2))) := (finite_args m hpre c).1 _
  have h1 : IsReal (m ((c.tc : Thread nD τ).loc main_arg0) (ix3 b v (1 : Fin 2))) := (finite_args m hpre c).1 _
  match k with
  | ⟨0, _⟩ => exact isReal_x0f _ b v h0
  | ⟨1, _⟩ => exact isReal_x1f _ b v h0
  | ⟨2, _⟩ => exact isReal_wx0 _ b v h0
  | ⟨3, _⟩ => exact isReal_wx1 _ b v h0
  | ⟨4, _⟩ => exact isReal_y0f _ b v h1
  | ⟨5, _⟩ => exact isReal_y1f _ b v h1
  | ⟨6, _⟩ => exact isReal_wy0 _ b v h1
  | ⟨7, _⟩ => exact isReal_wy1 _ b v h1

/-- Every entry of the mask block a grid point fetches is a real number. -/
theorem iblk0_real (hpre : Cert.Pre_KernelIdeal m) (c : Dev nD) (t : Fin cfg0.N) (y : S2x4x512x512.Idx) :
    IsReal (iblk m c 0 t y) := by
  show IsReal (V m c main_arg2 (((cfg0.win 0).blk t).view.emb y))
  exact mask_real m hpre c _

/-- Every entry of the point-data block a grid point fetches is a real number. -/
theorem iblk1_real (hpre : Cert.Pre_KernelIdeal m) (c : Dev nD) (t : Fin cfg0.N) (y : S2x8x128.Idx) :
    IsReal (iblk m c 1 t y) := by
  show IsReal (V m c main_v101 (((cfg0.win 1).blk t).view.emb y))
  exact pts_real m hpre c _

end Cert.BodyMath
-- ==== Proof.BodyRaw.lean ====
/-
  One cell of the kernel body meets the reference's raw term: when the loaded table is channel q of
  batch B of the mask array, the loaded point data the rows of the point-data array at batch B, and
  the loaded sign row the sign-mask array at (B, q), the cell's interpolated, sign-weighted sum over
  the vertices is raw[B, q].
-/
import proofs.«174235_j4939212390583_2_alg».proof.Proof.BodyCells2
import proofs.«174235_j4939212390583_2_alg».proof.Proof.RefLayout

namespace Cert.BodyMath

open Idealize.ShloMosaic Idealize.ShloMosaic.ValueIdx Cert.KernelIdeal Cert.KernelIdeal.Gen

section
variable (a0 : FVec Ideal Cert.RefSide.ShPts .f32) (a2 : FVec Ideal Cert.RefSide.ShMask .f32) (B : Fin 64) (q : Fin 4)
  (M : Vec Ideal S1x1x512x512 .f32) (pts : Vec Ideal S1x8x128 .f32) (sm : Vec Ideal S1x1x128 .f32)
  (hM : ∀ y x : Fin 512, M (ix4 (0 : Fin 1) (0 : Fin 1) y x) = a2 (ix4 B q y x))
  (hp : ∀ (k : Fin 8) (v : Fin 128), pts (ix3 (0 : Fin 1) k v) = Cert.RefSide.ptsArr a0 (ix3 B k v))
  (hs : ∀ v : Fin 128, sm (ix3 (0 : Fin 1) (0 : Fin 1) v) = Cert.RefSide.smArr a0 (ix3 B q v))

include hM hp in
/-- The four corners at a vertex are the reference's interpolation there. -/
theorem corners_eq_interp (v : Fin 128) : corners M pts v = Cert.RefSide.interp a0 a2 B q v := by
  have r0 : pts (ix3 (0 : Fin 1) (0 : Fin 8) v) = Cert.RefSide.x0f a0 B v := (hp 0 v).trans (Cert.RefSide.ptsArr_apply a0 B v 0)
  have r1 : pts (ix3 (0 : Fin 1) (1 : Fin 8) v) = Cert.RefSide.x1f a0 B v := (hp 1 v).trans (Cert.RefSide.ptsArr_apply a0 B v 1)
  have r2 : pts (ix3 (0 : Fin 1) (2 : Fin 8) v) = Cert.RefSide.wx0 a0 B v := (hp 2 v).trans (Cert.RefSide.ptsArr_apply a0 B v 2)
  have r3 : pts (ix3 (0 : Fin 1) (3 : Fin 8) v) = Cert.RefSide.wx1 a0 B v := (hp 3 v).trans (Cert.RefSide.ptsArr_apply a0 B v 3)
  have r4 : pts (ix3 (0 : Fin 1) (4 : Fin 8) v) = Cert.RefSide.y0f a0 B v := (hp 4 v).trans (Cert.RefSide.ptsArr_apply a0 B v 4)
  have r5 : pts (ix3 (0 : Fin 1) (5 : Fin 8) v) = Cert.RefSide.y1f a0 B v := (hp 5 v).trans (Cert.RefSide.ptsArr_apply a0 B v 5)
  have r6 : pts (ix3 (0 : Fin 1) (6 : Fin 8) v) = Cert.RefSide.wy0 a0 B v := (hp 6 v).trans (Cert.RefSide.ptsArr_apply a0 B v 6)
  have r7 : pts (ix3 (0 : Fin 1) (7 : Fin 8) v) = Cert.RefSide.wy1 a0 B v := (hp 7 v).trans (Cert.RefSide.ptsArr_apply a0 B v 7)
  unfold corners Cert.RefSide.interp Cert.RefSide.X0 Cert.RefSide.X1 Cert.RefSide.Y0 Cert.RefSide.Y1
  rw [r0, r1, r2, r3, r4, r5, r6, r7, hM, hM, hM, hM]

include hM hp hs in
/-- A cell's sum is the reference's raw term at (B, q). -/
theorem cellSum_eq_raw : cellSum M pts sm = Cert.RefSide.rawR a0 a2 (ix2 B q) := by
  unfold cellSum
  rw [Cert.RefSide.rawR_apply, Ideal.ofBits_zero_f32, zero_add]
  refine Finset.sum_congr rfl fun v _ => ?_
  rw [corners_eq_interp a0 a2 B q M pts hM hp v, hs v]

end

end Cert.BodyMath
-- ==== Proof.KIPreB.lean ====
/-
  The host operations before the call, read: the buffers the region finds hold the polygon areas of the scaled
  predicted and ground-truth points, the stacked sign-mask array and the stacked point-data array (floors, floors plus
  one, and the four distances to them), as functions of the two point arrays.
-/
import proofs.«174235_j4939212390583_2_alg».proof.Proof.KIBase
import proofs.«174235_j4939212390583_2_alg».proof.Proof.RefSpec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 4000000 in
theorem V_sm (c : Dev nD) : V m c main_v78 = Cert.RefSide.smArr (m ((c.tc : Thread nD τ).loc main_arg0)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Val

end
-- ==== Proof.BodyRawBlock.lean ====
/-
  The same meeting, for the blocks the call's windows fetch: at grid point t the mask, point-data
  and sign-mask blocks hold batches 2t and 2t+1 of their arrays, so a cell computed from batch i of
  the blocks and channel q is the reference's raw term at (2t + i, q).
-/
import proofs.«174235_j4939212390583_2_alg».proof.Proof.BodyRaw
import proofs.«174235_j4939212390583_2_alg».proof.Proof.KIPreB
import proofs.«174235_j4939212390583_2_alg».proof.Proof.KIPreC
import proofs.«174235_j4939212390583_2_alg».proof.Proof.KIBlocks

set_option maxRecDepth 16384

namespace Cert.BodyMath

open Idealize.ShloMosaic Idealize.ShloMosaic.ValueIdx Idealize.ShloMosaic.TcCoe Idealize.SL.Sem
open Cert.KernelIdeal Cert.KernelIdeal.Gen Cert.KernelIdeal.Frm Cert.KernelIdeal.Val

variable (m : (ℓ : Loc nD τ sig) → Buf (Elt Ideal) ℓ)

/-- A cell computed from batch i, channel q of the blocks fetched at grid point t is the reference's
    raw term at batch 2t + i, channel q. -/
theorem cellSum_block_eq_raw (c : Dev nD) (t : Fin cfg0.N) (i : Fin 2) (B : Fin 64) (hB : B.val = 2 * t.val + i.val) (q : Fin 4)
    (M : Vec Ideal S1x1x512x512 .f32) (pts : Vec Ideal S1x8x128 .f32) (sm : Vec Ideal S1x1x128 .f32)
    (hM' : ∀ y x : Fin 512, M (ix4 (0 : Fin 1) (0 : Fin 1) y x) = iblk m c 0 t (ix4 i q y x : S2x4x512x512.Idx))
    (hp' : ∀ (k : Fin 8) (v : Fin 128), pts (ix3 (0 : Fin 1) k v) = iblk m c 1 t (ix3 i k v : S2x8x128.Idx))
    (hs' : ∀ v : Fin 128, sm (ix3 (0 : Fin 1) (0 : Fin 1) v) = iblk m c 2 t (ix3 i q v : S2x4x128.Idx)) :
    cellSum M pts sm
      = Cert.RefSide.rawR (m ((c.tc : Thread nD τ).loc main_arg0)) (m ((c.tc : Thread nD τ).loc main_arg2)) (ix2 B q) := by
  refine cellSum_eq_raw _ _ B q M pts sm (fun y x => ?_) (fun k v => ?_) (fun v => ?_)
  · rw [hM', iblk0_apply m c t (ix4 i q y x) (ix4 B q y x) hB rfl rfl rfl, V_main_arg2]
  · rw [hp', iblk1_apply m c t (ix3 i k v) (ix3 B k v) hB rfl rfl, V_pts]
  · rw [hs', iblk2_apply m c t (ix3 i q v) (ix3 B q v) hB rfl rfl, V_sm]

end Cert.BodyMath
-- ==== Proof.BodyOut.lean ====
/-
  The call's result array is the reference's raw term. At every grid point the body adds to entry
  (r, q) of the output block the cell sum of batch r mod 2, channel q of the point's blocks when
  r / 2 is the point's step within its half, and nothing otherwise; a cell sum of the blocks at
  point t is the raw term at batch 2t + (r mod 2); so after the last step of each half every entry
  holds its own raw term, and the written-back blocks are the two halves of the raw array.
-/
import proofs.«174235_j4939212390583_2_alg».proof.Proof.KIStep
import proofs.«174235_j4939212390583_2_alg».proof.Proof.BodyFinite
import proofs.«174235_j4939212390583_2_alg».proof.Proof.BodyRawBlock

set_option maxRecDepth 16384

noncomputable section

namespace Cert.BodyMath

open Idealize.ShloMosaic Idealize.ShloMosaic.ValueIdx Idealize.ShloMosaic.TcCoe Idealize.SL.Sem
open Cert.KernelIdeal Cert.KernelIdeal.Gen Cert.KernelIdeal.Frm Cert.KernelIdeal.Val

/-! ## Sub-blocks of a step's blocks, at an index -/

theorem ld4_apply (X : Vec Ideal S2x4x512x512 .f32) (a b : Nat)
    (inb : ∀ ax, (![a, b, 0, 0] : Fin 4 → Nat) ax + S1x1x512x512.size ax ≤ S2x4x512x512.size ax)
    (i : Fin 2) (q : Fin 4) (hi : i.val = a) (hq : q.val = b) (y x : Fin 512) :
    View.ld X (Rect.unit (s := S2x4x512x512) ![a, b, 0, 0] S1x1x512x512.size inb) (ix4 (0 : Fin 1) (0 : Fin 1) y x)
      = X (ix4 i q y x) := by
  show X _ = X _
  refine congrArg X (funext fun ax => Fin.ext ?_)
  match ax with
  | ⟨0, _⟩ => show a + 1 * 0 = i.val; omega
  | ⟨1, _⟩ => show b + 1 * 0 = q.val; omega
  | ⟨2, _⟩ => show 0 + 1 * y.val = y.val; omega
  | ⟨3, _⟩ => show 0 + 1 * x.val = x.val; omega

theorem ld3p_apply (X : Vec Ideal S2x8x128 .f32) (a : Nat)
    (inb : ∀ ax, (![a, 0, 0] : Fin 3 → Nat) ax + S1x8x128.size ax ≤ S2x8x128.size ax)
    (i : Fin 2) (hi : i.val = a) (k : Fin 8) (v : Fin 128) :
    View.ld X (Rect.unit (s := S2x8x128) ![a, 0, 0] S1x8x128.size inb) (ix3 (0 : Fin 1) k v) = X (ix3 i k v) := by
  show X _ = X _
  refine congrArg X (funext fun ax => Fin.ext ?_)
  match ax with
  | ⟨0, _⟩ => show a + 1 * 0 = i.val; omega
  | ⟨1, _⟩ => show 0 + 1 * k.val = k.val; omega
  | ⟨2, _⟩ => show 0 + 1 * v.val = v.val; omega

theorem ld3s_apply (X : Vec Ideal S2x4x128 .f32) (a b : Nat)
    (inb : ∀ ax, (![a, b, 0] : Fin 3 → Nat) ax + S1x1x128.size ax ≤ S2x4x128.size ax)
    (i : Fin 2) (q : Fin 4) (hi : i.val = a) (hq : q.val = b) (v : Fin 128) :
    View.ld X (Rect.unit (s := S2x4x128) ![a, b, 0] S1x1x128.size inb) (ix3 (0 : Fin 1) (0 : Fin 1) v) = X (ix3 i q v) := by
  show X _ = X _
  refine congrArg X (funext fun ax => Fin.ext ?_)
  match ax with
  | ⟨0, _⟩ => show a + 1 * 0 = i.val; omega
  | ⟨1, _⟩ => show b + 1 * 0 = q.val; omega
  | ⟨2, _⟩ => show 0 + 1 * v.val = v.val; omega

/-! ## The contribution of a step -/

/-- The cell sum a step adds at entry (r, q): batch r mod 2, channel q of the step's three blocks. -/
def cellOfBlocks (x0 : Vec Ideal S2x4x512x512 .f32) (x1 : Vec Ideal S2x8x128 .f32) (x2 : Vec Ideal S2x4x128 .f32)
    (r : Fin 32) (q : Fin 4) : EReal :=
  if r.val % 2 = 0 then
    ![cellSum (View.ld x0 (Rect.unit (s := S2x4x512x512) ![0, 0, 0, 0] S1x1x512x512.size inb_S2x4x512x512_S1x1x512x512_0_0_0_0)) (View.ld x1 (Rect.unit (s := S2x8x128) ![0, 0, 0] S1x8x128.size inb_S2x8x128_S1x8x128_0_0_0)) (View.ld x2 (Rect.unit (s := S2x4x128) ![0, 0, 0] S1x1x128.size inb_S2x4x128_S1x1x128_0_0_0)),
        cellSum (View.ld x0 (Rect.unit (s := S2x4x512x512) ![0, 1, 0, 0] S1x1x512x512.size inb_S2x4x512x512_S1x1x512x512_0_1_0_0)) (View.ld x1 (Rect.unit (s := S2x8x128) ![0, 0, 0] S1x8x128.size inb_S2x8x128_S1x8x128_0_0_0)) (View.ld x2 (Rect.unit (s := S2x4x128) ![0, 1, 0] S1x1x128.size inb_S2x4x128_S1x1x128_0_1_0)),
        cellSum (View.ld x0 (Rect.unit (s := S2x4x512x512) ![0, 2, 0, 0] S1x1x512x512.size inb_S2x4x512x512_S1x1x512x512_0_2_0_0)) (View.ld x1 (Rect.unit (s := S2x8x128) ![0, 0, 0] S1x8x128.size inb_S2x8x128_S1x8x128_0_0_0)) (View.ld x2 (Rect.unit (s := S2x4x128) ![0, 2, 0] S1x1x128.size inb_S2x4x128_S1x1x128_0_2_0)),
        cellSum (View.ld x0 (Rect.unit (s := S2x4x512x512) ![0, 3, 0, 0] S1x1x512x512.size inb_S2x4x512x512_S1x1x512x512_0_3_0_0)) (View.ld x1 (Rect.unit (s := S2x8x128) ![0, 0, 0] S1x8x128.size inb_S2x8x128_S1x8x128_0_0_0)) (View.ld x2 (Rect.unit (s := S2x4x128) ![0, 3, 0] S1x1x128.size inb_S2x4x128_S1x1x128_0_3_0))] q
  else
    ![cellSum (View.ld x0 (Rect.unit (s := S2x4x512x512) ![1, 0, 0, 0] S1x1x512x512.size inb_S2x4x512x512_S1x1x512x512_1_0_0_0)) (View.ld x1 (Rect.unit (s := S2x8x128) ![1, 0, 0] S1x8x128.size inb_S2x8x128_S1x8x128_1_0_0)) (View.ld x2 (Rect.unit (s := S2x4x128) ![1, 0, 0] S1x1x128.size inb_S2x4x128_S1x1x128_1_0_0)),
        cellSum (View.ld x0 (Rect.unit (s := S2x4x512x512) ![1, 1, 0, 0] S1x1x512x512.size inb_S2x4x512x512_S1x1x512x512_1_1_0_0)) (View.ld x1 (Rect.unit (s := S2x8x128) ![1, 0, 0] S1x8x128.size inb_S2x8x128_S1x8x128_1_0_0)) (View.ld x2 (Rect.unit (s := S2x4x128) ![1, 1, 0] S1x1x128.size inb_S2x4x128_S1x1x128_1_1_0)),
        cellSum (View.ld x0 (Rect.unit (s := S2x4x512x512) ![1, 2, 0, 0] S1x1x512x512.size inb_S2x4x512x512_S1x1x512x512_1_2_0_0)) (View.ld x1 (Rect.unit (s := S2x8x128) ![1, 0, 0] S1x8x128.size inb_S2x8x128_S1x8x128_1_0_0)) (View.ld x2 (Rect.unit (s := S2x4x128) ![1, 2, 0] S1x1x128.size inb_S2x4x128_S1x1x128_1_2_0)),
        cellSum (View.ld x0 (Rect.unit (s := S2x4x512x512) ![1, 3, 0, 0] S1x1x512x512.size inb_S2x4x512x512_S1x1x512x512_1_3_0_0)) (View.ld x1 (Rect.unit (s := S2x8x128) ![1, 0, 0] S1x8x128.size inb_S2x8x128_S1x8x128_1_0_0)) (View.ld x2 (Rect.unit (s := S2x4x128) ![1, 3, 0] S1x1x128.size inb_S2x4x128_S1x1x128_1_3_0))] q

variable (m : (ℓ : Loc nD τ sig) → Buf (Elt Ideal) ℓ)

/-- The contribution at point n (the blocks the point fetches). -/
def cell (c : Dev nD) (n : ℕ) (r : Fin 32) (q : Fin 4) : Ideal .f32 :=
  if h : n < cfg0.N then cellOfBlocks (iblk m c 0 ⟨n, h⟩) (iblk m c 1 ⟨n, h⟩) (iblk m c 2 ⟨n, h⟩) r q else 0

/-- Grid coordinate 1 of point t is t mod 16, the step within the half. -/
theorem coord1 : ∀ t : Fin cfg0.N, ((grid0.coords t) 1).val = t.val % 16 :=
  (by decide +kernel : ∀ t : Fin grid0.N, _)

/-- What each step does to the output block, from the precondition. -/
theorem stepLaw (hpre : Cert.Pre_KernelIdeal m) (c : Dev nD) : StepLaw m c (cell m c) where
  first := fun t h0 r q => by
    have hg : t.val % 16 < 16 := Nat.mod_lt _ (by decide)
    refine (out_A_sum c (grid0.coords t) _ _ _ _ _ _ _ _ _ (iblk m c 0 t) (iblk m c 1 t) (iblk m c 2 t)
      (fun j => iblk0_real m hpre c t j) (fun j => iblk1_real m hpre c t j) (t.val % 16) hg (coord1 t) r q).trans ?_
    rw [collapse8, zero_add]
    refine if_congr Iff.rfl ?_ rfl
    unfold cell
    rw [dif_pos t.isLt]
    rfl
  later := fun t h0 xo r q => by
    have hg : t.val % 16 < 16 := Nat.mod_lt _ (by decide)
    refine (out_B_sum c (grid0.coords t) _ _ _ _ _ _ _ _ _ (iblk m c 0 t) (iblk m c 1 t) (iblk m c 2 t) xo
      (fun j => iblk0_real m hpre c t j) (fun j => iblk1_real m hpre c t j) (t.val % 16) hg (coord1 t) r q).trans ?_
    rw [collapse8]
    refine congrArg (xo (ix2 r q) + ·) (if_congr Iff.rfl ?_ rfl)
    unfold cell
    rw [dif_pos t.isLt]
    rfl

/-- The contribution of point t at a row of parity i is the raw term at batch 2t + i. -/
theorem cellOfBlocks_eq_raw (c : Dev nD) (t : Fin cfg0.N) (i : Fin 2) (B : Fin 64) (hB : B.val = 2 * t.val + i.val)
    (r : Fin 32) (hr : r.val % 2 = i.val) (q : Fin 4) :
    cellOfBlocks (iblk m c 0 t) (iblk m c 1 t) (iblk m c 2 t) r q
      = Cert.RefSide.rawR (m ((c.tc : Thread nD τ).loc main_arg0)) (m ((c.tc : Thread nD τ).loc main_arg2)) (ix2 B q) := by
  unfold cellOfBlocks
  match i, hB, hr with
  | ⟨0, _⟩, hB, hr =>
    rw [if_pos hr]
    match q with
    | ⟨0, _⟩ =>
      exact cellSum_block_eq_raw m c t 0 B hB 0 _ _ _
        (fun y x => ld4_apply (iblk m c 0 t) 0 0 _ 0 0 rfl rfl y x)
        (fun k v => ld3p_apply (iblk m c 1 t) 0 _ 0 rfl k v)
        (fun v => ld3s_apply (iblk m c 2 t) 0 0 _ 0 0 rfl rfl v)
    | ⟨1, _⟩ =>
      exact cellSum_block_eq_raw m c t 0 B hB 1 _ _ _
        (fun y x => ld4_apply (iblk m c 0 t) 0 1 _ 0 1 rfl rfl y x)
        (fun k v => ld3p_apply (iblk m c 1 t) 0 _ 0 rfl k v)
        (fun v => ld3s_apply (iblk m c 2 t) 0 1 _ 0 1 rfl rfl v)
    | ⟨2, _⟩ =>
      exact cellSum_block_eq_raw m c t 0 B hB 2 _ _ _
        (fun y x => ld4_apply (iblk m c 0 t) 0 2 _ 0 2 rfl rfl y x)
        (fun k v => ld3p_apply (iblk m c 1 t) 0 _ 0 rfl k v)
        (fun v => ld3s_apply (iblk m c 2 t) 0 2 _ 0 2 rfl rfl v)
    | ⟨3, _⟩ =>
      exact cellSum_block_eq_raw m c t 0 B hB 3 _ _ _
        (fun y x => ld4_apply (iblk m c 0 t) 0 3 _ 0 3 rfl rfl y x)
        (fun k v => ld3p_apply (iblk m c 1 t) 0 _ 0 rfl k v)
        (fun v => ld3s_apply (iblk m c 2 t) 0 3 _ 0 3 rfl rfl v)
  | ⟨1, _⟩, hB, hr =>
    have hr' : r.val % 2 = 1 := hr
    rw [if_neg (by omega)]
    match q with
    | ⟨0, _⟩ =>
      exact cellSum_block_eq_raw m c t 1 B hB 0 _ _ _
        (fun y x => ld4_apply (iblk m c 0 t) 1 0 _ 1 0 rfl rfl y x)
        (fun k v => ld3p_apply (iblk m c 1 t) 1 _ 1 rfl k v)
        (fun v => ld3s_apply (iblk m c 2 t) 1 0 _ 1 0 rfl rfl v)
    | ⟨1, _⟩ =>
      exact cellSum_block_eq_raw m c t 1 B hB 1 _ _ _
        (fun y x => ld4_apply (iblk m c 0 t) 1 1 _ 1 1 rfl rfl y x)
        (fun k v => ld3p_apply (iblk m c 1 t) 1 _ 1 rfl k v)
        (fun v => ld3s_apply (iblk m c 2 t) 1 1 _ 1 1 rfl rfl v)
    | ⟨2, _⟩ =>
      exact cellSum_block_eq_raw m c t 1 B hB 2 _ _ _
        (fun y x => ld4_apply (iblk m c 0 t) 1 2 _ 1 2 rfl rfl y x)
        (fun k v => ld3p_apply (iblk m c 1 t) 1 _ 1 rfl k v)
        (fun v => ld3s_apply (iblk m c 2 t) 1 2 _ 1 2 rfl rfl v)
    | ⟨3, _⟩ =>
      exact cellSum_block_eq_raw m c t 1 B hB 3 _ _ _
        (fun y x => ld4_apply (iblk m c 0 t) 1 3 _ 1 3 rfl rfl y x)
        (fun k v => ld3p_apply (iblk m c 1 t) 1 _ 1 rfl k v)
        (fun v => ld3s_apply (iblk m c 2 t) 1 3 _ 1 3 rfl rfl v)

/-- The call's result array is the reference's raw term. -/
theorem kernel_out (hpre : Cert.Pre_KernelIdeal m) (c : Dev nD) :
    (dats m 0 c).arrAt 3 cfg0.N
      = Cert.RefSide.rawR (m ((c.tc : Thread nD τ).loc main_arg0)) (m ((c.tc : Thread nD τ).loc main_arg2)) := by
  rw [final_cells m c (cell m c) (stepLaw m hpre c)]
  funext j
  obtain ⟨B, q, rfl⟩ : ∃ (B : Fin 64) (q : Fin 4), j = ix2 B q := ⟨j 0, j 1, eq_ix2 j⟩
  have hN : cfg0.N = 32 := N_0
  have hB := B.isLt
  have hn : 16 * (B.val / 32) + B.val % 32 / 2 = B.val / 2 := by omega
  have hlt : B.val / 2 < cfg0.N := by omega
  show cell m c (16 * (B.val / 32) + B.val % 32 / 2) ⟨B.val % 32, Nat.mod_lt _ (by decide)⟩ q = _
  rw [hn]
  unfold cell
  rw [dif_pos hlt]
  exact cellOfBlocks_eq_raw m c ⟨B.val / 2, hlt⟩ ⟨B.val % 2, Nat.mod_lt _ (by decide)⟩ B
    (by show B.val = 2 * (B.val / 2) + B.val % 2; omega) _ (by show B.val % 32 % 2 = B.val % 2; omega) q

end Cert.BodyMath

end
-- ==== Proof.RefOps.lean ====
/-
  The reference program's @main as a list of its host operations, in the program's own order, cut into six
  consecutive stretches: (A) the scaled points and the two polygon areas, (B) the uniqueness masks and the signs,
  (C) the positions, their floors and the four bilinear weights, (D) the four clipped integer positions, (E) the
  four gathers of mask entries, (F) the interpolation, the sum over the vertices and the closing operations.
  @main IS the sequence of these operations (by unfolding), every operation stays among the TensorCore's buffers
  and allocates nothing; so the library's run of a straight line of host operations applies.
-/
import proofs.«174235_j4939212390583_2_alg».proof.Proof.Gen.ReferenceIdeal
import Idealize.ShloMosaic.Lib.StableHlo.Run

noncomputable section

namespace Cert.RefSide.Run

open Cert.ReferenceIdeal Cert.ReferenceIdeal.Gen Idealize.ShloMosaic Idealize.ShloMosaic.TcCoe Idealize.SL.Sem Idealize.ShloMosaic.StableHlo

variable {F : FTy → Type} [FloatOps F]

/-- Operations 1 … 56 of @main, in order. -/
abbrev segA : List (HloOp τ sig (Elt F)) :=
  [ nullary main_cst (constant S_ .f32 0x44000000#32),
    unary main_cst main_v0 (broadcastInDim S64x128x2 ![] bcast_S_S64x128x2 : (⟨S_, .f32⟩ : BufTy).Contents (Elt F) → (⟨S64x128x2, .f32⟩ : BufTy).Contents (Elt F)),
    binary main_arg0 main_v0 main_v1 (mulf : (⟨S64x128x2, .f32⟩ : BufTy).Contents (Elt F) → (⟨S64x128x2, .f32⟩ : BufTy).Contents (Elt F) → (⟨S64x128x2, .f32⟩ : BufTy).Contents (Elt F)),
    nullary main_cst_0 (constant S_ .f32 0x44000000#32),
    unary main_cst_0 main_v2 (broadcastInDim S64x128x2 ![] bcast_S_S64x128x2 : (⟨S_, .f32⟩ : BufTy).Contents (Elt F) → (⟨S64x128x2, .f32⟩ : BufTy).Contents (Elt F)),
    binary main_arg1 main_v2 main_v3 (mulf : (⟨S64x128x2, .f32⟩ : BufTy).Contents (Elt F) → (⟨S64x128x2, .f32⟩ : BufTy).Contents (Elt F) → (⟨S64x128x2, .f32⟩ : BufTy).Contents (Elt F)),
    TRef.unary (TRef.of (T := ⟨S64x128x2, .f32⟩) main_v1) (TRef.of (T := ⟨S64x127x2, .f32⟩) main_call0_v0) (extractStridedSlice S64x127x2 ![0, 1, 0] · slices_S64x128x2_S64x127x2_0_1_0),
    TRef.unary (TRef.of (T := ⟨S64x128x2, .f32⟩) main_v1) (TRef.of (T := ⟨S64x1x2, .f32⟩) main_call0_v1) (extractStridedSlice S64x1x2 ![0, 0, 0] · slices_S64x128x2_S64x1x2_0_0_0),
    TRef.binary (TRef.of (T := ⟨S64x127x2, .f32⟩) main_call0_v0) (TRef.of (T := ⟨S64x1x2, .f32⟩) main_call0_v1) (TRef.of (T := ⟨S64x128x2, .f32⟩) main_v4) (fun a b => concatenate S64x128x2 1 [⟨S64x127x2, a⟩, ⟨S64x1x2, b⟩] concatenates_S64x127x2_S64x1x2_S64x128x2_d1),
    unary main_v1 main_v5 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v5 main_v6 rfl shapeCasts_S64x128x1_S64x128,
    unary main_v1 main_v7 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v7 main_v8 rfl shapeCasts_S64x128x1_S64x128,
    unary main_v4 main_v9 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v9 main_v10 rfl shapeCasts_S64x128x1_S64x128,
    unary main_v4 main_v11 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v11 main_v12 rfl shapeCasts_S64x128x1_S64x128,
    nullary main_cst_1 (constant S_ .f32 0xFF800000#32),
    binary main_v8 main_cst_1 main_v13 ((fun x v => Host.reduce FloatOps.maximumf x v reducesTo_S64x128_S64_d1 h_S_) : (⟨S64x128, .f32⟩ : BufTy).Contents (Elt F) → (⟨S_, .f32⟩ : BufTy).Contents (Elt F) → (⟨S64, .f32⟩ : BufTy).Contents (Elt F)),
    unary main_v13 main_v14 (broadcastInDim S64x1 ![0] bcast_S64_S64x1_0 : (⟨S64, .f32⟩ : BufTy).Contents (Elt F) → (⟨S64x1, .f32⟩ : BufTy).Contents (Elt F)),
    binary main_v10 main_v6 main_v15 (subf : (⟨S64x128, .f32⟩ : BufTy).Contents (Elt F) → (⟨S64x128, .f32⟩ : BufTy).Contents (Elt F) → (⟨S64x128, .f32⟩ : BufTy).Contents (Elt F)),
    binary main_v12 main_v8 main_v16 (addf : (⟨S64x128, .f32⟩ : BufTy).Contents (Elt F) → (⟨S64x128, .f32⟩ : BufTy).Contents (Elt F) → (⟨S64x128, .f32⟩ : BufTy).Contents (Elt F)),
    nullary main_cst_2 (constant S_ .f32 0x3F000000#32),
    unary main_cst_2 main_v17 (broadcastInDim S64x128 ![] bcast_S_S64x128 : (⟨S_, .f32⟩ : BufTy).Contents (Elt F) → (⟨S64x128, .f32⟩ : BufTy).Contents (Elt F)),
    binary main_v16 main_v17 main_v18 (mulf : (⟨S64x128, .f32⟩ : BufTy).Contents (Elt F) → (⟨S64x128, .f32⟩ : BufTy).Contents (Elt F) → (⟨S64x128, .f32⟩ : BufTy).Contents (Elt F)),
    unary main_v14 main_v19 (broadcastInDim S64x128 ![0, 1] bcast_S64x1_S64x128_0_1 : (⟨S64x1, .f32⟩ : BufTy).Contents (Elt F) → (⟨S64x128, .f32⟩ : BufTy).Contents (Elt F)),
    binary main_v19 main_v18 main_v20 (subf : (⟨S64x128, .f32⟩ : BufTy).Contents (Elt F) → (⟨S64x128, .f32⟩ : BufTy).Contents (Elt F) → (⟨S64x128, .f32⟩ : BufTy).Contents (Elt F)),
    binary main_v15 main_v20 main_v21 (mulf : (⟨S64x128, .f32⟩ : BufTy).Contents (Elt F) → (⟨S64x128, .f32⟩ : BufTy).Contents (Elt F) → (⟨S64x128, .f32⟩ : BufTy).Contents (Elt F)),
    nullary main_cst_3 (constant S_ .f32 0x00000000#32),
    binary main_v21 main_cst_3 main_v22 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    unary main_v22 main_v23 (Host.absf : (⟨S64, .f32⟩ : BufTy).Contents (Elt F) → (⟨S64, .f32⟩ : BufTy).Contents (Elt F)),
    TRef.unary (TRef.of (T := ⟨S64x128x2, .f32⟩) main_v3) (TRef.of (T := ⟨S64x127x2, .f32⟩) main_call1_v0) (extractStridedSlice S64x127x2 ![0, 1, 0] · slices_S64x128x2_S64x127x2_0_1_0),
    TRef.unary (TRef.of (T := ⟨S64x128x2, .f32⟩) main_v3) (TRef.of (T := ⟨S64x1x2, .f32⟩) main_call1_v1) (extractStridedSlice S64x1x2 ![0, 0, 0] · slices_S64x128x2_S64x1x2_0_0_0),
    TRef.binary (TRef.of (T := ⟨S64x127x2, .f32⟩) main_call1_v0) (TRef.of (T := ⟨S64x1x2, .f32⟩) main_call1_v1) (TRef.of (T := ⟨S64x128x2, .f32⟩) main_v24) (fun a b => concatenate S64x128x2 1 [⟨S64x127x2, a⟩, ⟨S64x1x2, b⟩] concatenates_S64x127x2_S64x1x2_S64x128x2_d1),
    unary main_v3 main_v25 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v25 main_v26 rfl shapeCasts_S64x128x1_S64x128,
    unary main_v3 main_v27 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v27 main_v28 rfl shapeCasts_S64x128x1_S64x128,
    unary main_v24 main_v29 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v29 main_v30 rfl shapeCasts_S64x128x1_S64x128,
    unary main_v24 main_v31 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v31 main_v32 rfl shapeCasts_S64x128x1_S64x128,
    nullary main_cst_4 (constant S_ .f32 0xFF800000#32),
    binary main_v28 main_cst_4 main_v33 ((fun x v => Host.reduce FloatOps.maximumf x v reducesTo_S64x128_S64_d1 h_S_) : (⟨S64x128, .f32⟩ : BufTy).Contents (Elt F) → (⟨S_, .f32⟩ : BufTy).Contents (Elt F) → (⟨S64, .f32⟩ : BufTy).Contents (Elt F)),
    unary main_v33 main_v34 (broadcastInDim S64x1 ![0] bcast_S64_S64x1_0 : (⟨S64, .f32⟩ : BufTy).Contents (Elt F) → (⟨S64x1, .f32⟩ : BufTy).Contents (Elt F)),
    binary main_v30 main_v26 main_v35 (subf : (⟨S64x128, .f32⟩ : BufTy).Contents (Elt F) → (⟨S64x128, .f32⟩ : BufTy).Contents (Elt F) → (⟨S64x128, .f32⟩ : BufTy).Contents (Elt F)),
    binary main_v32 main_v28 main_v36 (addf : (⟨S64x128, .f32⟩ : BufTy).Contents (Elt F) → (⟨S64x128, .f32⟩ : BufTy).Contents (Elt F) → (⟨S64x128, .f32⟩ : BufTy).Contents (Elt F)),
    nullary main_cst_5 (constant S_ .f32 0x3F000000#32),
    unary main_cst_5 main_v37 (broadcastInDim S64x128 ![] bcast_S_S64x128 : (⟨S_, .f32⟩ : BufTy).Contents (Elt F) → (⟨S64x128, .f32⟩ : BufTy).Contents (Elt F)),
    binary main_v36 main_v37 main_v38 (mulf : (⟨S64x128, .f32⟩ : BufTy).Contents (Elt F) → (⟨S64x128, .f32⟩ : BufTy).Contents (Elt F) → (⟨S64x128, .f32⟩ : BufTy).Contents (Elt F)),
    unary main_v34 main_v39 (broadcastInDim S64x128 ![0, 1] bcast_S64x1_S64x128_0_1 : (⟨S64x1, .f32⟩ : BufTy).Contents (Elt F) → (⟨S64x128, .f32⟩ : BufTy).Contents (Elt F)),
    binary main_v39 main_v38 main_v40 (subf : (⟨S64x128, .f32⟩ : BufTy).Contents (Elt F) → (⟨S64x128, .f32⟩ : BufTy).Contents (Elt F) → (⟨S64x128, .f32⟩ : BufTy).Contents (Elt F)),
    binary main_v35 main_v40 main_v41 (mulf : (⟨S64x128, .f32⟩ : BufTy).Contents (Elt F) → (⟨S64x128, .f32⟩ : BufTy).Contents (Elt F) → (⟨S64x128, .f32⟩ : BufTy).Contents (Elt F)),
    nullary main_cst_6 (constant S_ .f32 0x00000000#32),
    binary main_v41 main_cst_6 main_v42 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    unary main_v42 main_v43 (Host.absf : (⟨S64, .f32⟩ : BufTy).Contents (Elt F) → (⟨S64, .f32⟩ : BufTy).Contents (Elt F)) ]

theorem segA_sub : (segA : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., unary_bufs_sub .., binary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., binary_bufs_sub .., unary_bufs_sub .., binary_bufs_sub .., binary_bufs_sub .., nullary_bufs_sub .., unary_bufs_sub .., binary_bufs_sub .., unary_bufs_sub .., binary_bufs_sub .., binary_bufs_sub .., nullary_bufs_sub .., binary_bufs_sub .., unary_bufs_sub ..⟩

theorem segA_fresh : (segA : List (HloOp τ sig (Elt F))).Forall fun op => op.fresh = ∅ := by
  simp only [List.Forall]; repeat' constructor

/-- Operations 57 … 94 of @main, in order. -/
abbrev segB : List (HloOp τ sig (Elt F)) :=
  [ unary main_v1 main_v44 (Host.floor : (⟨S64x128x2, .f32⟩ : BufTy).Contents (Elt F) → (⟨S64x128x2, .f32⟩ : BufTy).Contents (Elt F)),
    TRef.unary (TRef.of (T := ⟨S64x128x2, .f32⟩) main_v1) (TRef.of (T := ⟨S64x127x2, .f32⟩) main_call2_v0) (extractStridedSlice S64x127x2 ![0, 1, 0] · slices_S64x128x2_S64x127x2_0_1_0),
    TRef.unary (TRef.of (T := ⟨S64x128x2, .f32⟩) main_v1) (TRef.of (T := ⟨S64x1x2, .f32⟩) main_call2_v1) (extractStridedSlice S64x1x2 ![0, 0, 0] · slices_S64x128x2_S64x1x2_0_0_0),
    TRef.binary (TRef.of (T := ⟨S64x127x2, .f32⟩) main_call2_v0) (TRef.of (T := ⟨S64x1x2, .f32⟩) main_call2_v1) (TRef.of (T := ⟨S64x128x2, .f32⟩) main_v45) (fun a b => concatenate S64x128x2 1 [⟨S64x127x2, a⟩, ⟨S64x1x2, b⟩] concatenates_S64x127x2_S64x1x2_S64x128x2_d1),
    unary main_v45 main_v46 (Host.floor : (⟨S64x128x2, .f32⟩ : BufTy).Contents (Elt F) → (⟨S64x128x2, .f32⟩ : BufTy).Contents (Elt F)),
    binary main_v46 main_v44 main_v47 (subf : (⟨S64x128x2, .f32⟩ : BufTy).Contents (Elt F) → (⟨S64x128x2, .f32⟩ : BufTy).Contents (Elt F) → (⟨S64x128x2, .f32⟩ : BufTy).Contents (Elt F)),
    unary main_v47 main_v48 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v48 main_v49 rfl shapeCasts_S64x128x1_S64x128,
    nullary main_c (constantI S_ 32 0#32),
    unary main_c main_v50 (broadcastInDim S1 ![] bcast_S_S1 : (⟨S_, .i32⟩ : BufTy).Contents (Elt F) → (⟨S1, .i32⟩ : BufTy).Contents (Elt F)),
    nullary main_cst_7 (constant S_ .f32 0x3F800000#32),
    unary main_cst_7 main_v51 (broadcastInDim S64 ![] bcast_S_S64 : (⟨S_, .f32⟩ : BufTy).Contents (Elt F) → (⟨S64, .f32⟩ : BufTy).Contents (Elt F)),
    ternary main_v49 main_v50 main_v51 main_v52 ((fun x i u => Host.scatter scatter_S64x128_S1_S64_0_1_1_0 (fun _ b => b) x i u) : (⟨S64x128, .f32⟩ : BufTy).Contents (Elt F) → (⟨S1, .i32⟩ : BufTy).Contents (Elt F) → (⟨S64, .f32⟩ : BufTy).Contents (Elt F) → (⟨S64x128, .f32⟩ : BufTy).Contents (Elt F)),
    unary main_v47 main_v53 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v53 main_v54 rfl shapeCasts_S64x128x1_S64x128,
    nullary main_c_8 (constantI S_ 32 0#32),
    unary main_c_8 main_v55 (broadcastInDim S1 ![] bcast_S_S1 : (⟨S_, .i32⟩ : BufTy).Contents (Elt F) → (⟨S1, .i32⟩ : BufTy).Contents (Elt F)),
    nullary main_cst_9 (constant S_ .f32 0x3F800000#32),
    unary main_cst_9 main_v56 (broadcastInDim S64 ![] bcast_S_S64 : (⟨S_, .f32⟩ : BufTy).Contents (Elt F) → (⟨S64, .f32⟩ : BufTy).Contents (Elt F)),
    ternary main_v54 main_v55 main_v56 main_v57 ((fun x i u => Host.scatter scatter_S64x128_S1_S64_0_1_1_0 (fun _ b => b) x i u) : (⟨S64x128, .f32⟩ : BufTy).Contents (Elt F) → (⟨S1, .i32⟩ : BufTy).Contents (Elt F) → (⟨S64, .f32⟩ : BufTy).Contents (Elt F) → (⟨S64x128, .f32⟩ : BufTy).Contents (Elt F)),
    unary main_v52 main_v58 (Host.absf : (⟨S64x128, .f32⟩ : BufTy).Contents (Elt F) → (⟨S64x128, .f32⟩ : BufTy).Contents (Elt F)),
    nullary main_cst_10 (constant S_ .f32 0x3F800000#32),
    unary main_cst_10 main_v59 (broadcastInDim S64x128 ![] bcast_S_S64x128 : (⟨S_, .f32⟩ : BufTy).Contents (Elt F) → (⟨S64x128, .f32⟩ : BufTy).Contents (Elt F)),
    binary main_v58 main_v59 main_v60 (minimumf : (⟨S64x128, .f32⟩ : BufTy).Contents (Elt F) → (⟨S64x128, .f32⟩ : BufTy).Contents (Elt F) → (⟨S64x128, .f32⟩ : BufTy).Contents (Elt F)),
    unary main_v57 main_v61 (Host.absf : (⟨S64x128, .f32⟩ : BufTy).Contents (Elt F) → (⟨S64x128, .f32⟩ : BufTy).Contents (Elt F)),
    nullary main_cst_11 (constant S_ .f32 0x3F800000#32),
    unary main_cst_11 main_v62 (broadcastInDim S64x128 ![] bcast_S_S64x128 : (⟨S_, .f32⟩ : BufTy).Contents (Elt F) → (⟨S64x128, .f32⟩ : BufTy).Contents (Elt F)),
    binary main_v61 main_v62 main_v63 (minimumf : (⟨S64x128, .f32⟩ : BufTy).Contents (Elt F) → (⟨S64x128, .f32⟩ : BufTy).Contents (Elt F) → (⟨S64x128, .f32⟩ : BufTy).Contents (Elt F)),
    TRef.unary (TRef.of (T := ⟨S64x128x2, .f32⟩) main_v1) (TRef.of (T := ⟨S64x127x2, .f32⟩) main_call3_v0) (extractStridedSlice S64x127x2 ![0, 1, 0] · slices_S64x128x2_S64x127x2_0_1_0),
    TRef.unary (TRef.of (T := ⟨S64x128x2, .f32⟩) main_v1) (TRef.of (T := ⟨S64x1x2, .f32⟩) main_call3_v1) (extractStridedSlice S64x1x2 ![0, 0, 0] · slices_S64x128x2_S64x1x2_0_0_0),
    TRef.binary (TRef.of (T := ⟨S64x127x2, .f32⟩) main_call3_v0) (TRef.of (T := ⟨S64x1x2, .f32⟩) main_call3_v1) (TRef.of (T := ⟨S64x128x2, .f32⟩) main_v64) (fun a b => concatenate S64x128x2 1 [⟨S64x127x2, a⟩, ⟨S64x1x2, b⟩] concatenates_S64x127x2_S64x1x2_S64x128x2_d1),
    binary main_v64 main_v1 main_v65 (subf : (⟨S64x128x2, .f32⟩ : BufTy).Contents (Elt F) → (⟨S64x128x2, .f32⟩ : BufTy).Contents (Elt F) → (⟨S64x128x2, .f32⟩ : BufTy).Contents (Elt F)),
    unary main_v65 main_v66 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v66 main_v67 rfl shapeCasts_S64x128x1_S64x128,
    unary main_v67 main_v68 (Host.sign : (⟨S64x128, .f32⟩ : BufTy).Contents (Elt F) → (⟨S64x128, .f32⟩ : BufTy).Contents (Elt F)),
    unary main_v65 main_v69 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v69 main_v70 rfl shapeCasts_S64x128x1_S64x128,
    unary main_v70 main_v71 (Host.sign : (⟨S64x128, .f32⟩ : BufTy).Contents (Elt F) → (⟨S64x128, .f32⟩ : BufTy).Contents (Elt F)) ]

theorem segB_sub : (segB : List (HloOp τ sig (Elt F))).Forall fun op => op.bufs ⊆ tcRefs τ sig :=
  ⟨unary_bufs_sub .., unary_bufs_sub .., unary_bufs_sub .., binary_bufs_sub .., unary_bufs_sub .., binary_bufs_sub .., unary_bufs_sub .., reshape_bufs_sub .., nullary_bufs_sub .., unary_bufs_sub .., nullary_bufs_sub .., unary_bufs_sub .., ternary_bufs_sub .., unary_bufs_sub .., reshape_bufs_sub .., nullary_bufs_sub .., unary_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., reshape_bufs_sub .., unary_bufs_sub ..⟩

theorem segB_fresh : (segB : List (HloOp τ sig (Elt F))).Forall fun op => op.fresh = ∅ := by
  simp only [List.Forall]; repeat' constructor

/-- Operations 95 … 118 of @main, in order. -/
abbrev segC : List (HloOp τ sig (Elt F)) :=
  [ unary main_v1 main_v72 ((extractStridedSlice S64x128x1 ![0, 0, 0] · slices_S64x128x2_S64x128x1_0_0_0) : (⟨S64x128x2, .f32⟩ : BufTy).Contents (Elt F) → (⟨S64x128x1, .f32⟩ : BufTy).Contents (Elt F)),
    reshape main_v72 main_v73 rfl shapeCasts_S64x128x1_S64x128,
    unary main_v1 main_v74 ((extractStridedSlice S64x128x1 ![0, 0, 1] · slices_S64x128x2_S64x128x1_0_0_1) : (⟨S64x128x2, .f32⟩ : BufTy).Contents (Elt F) → (⟨S64x128x1, .f32⟩ : BufTy).Contents (Elt F)),
    reshape main_v74 main_v75 rfl shapeCasts_S64x128x1_S64x128,
    unary main_v73 main_v76 (Host.floor : (⟨S64x128, .f32⟩ : BufTy).Contents (Elt F) → (⟨S64x128, .f32⟩ : BufTy).Contents (Elt F)),
    unary main_v75 main_v77 (Host.floor : (⟨S64x128, .f32⟩ : BufTy).Contents (Elt F) → (⟨S64x128, .f32⟩ : BufTy).Contents (Elt F)),
    nullary main_cst_12 (constant S_ .f32 0x3F800000#32),
    unary main_cst_12 main_v78 (broadcastInDim S64x128 ![] bcast_S_S64x128 : (⟨S_, .f32⟩ : BufTy).Contents (Elt F) → (⟨S64x128, .f32⟩ : BufTy).Contents (Elt F)),
    binary main_v76 main_v78 main_v79 (addf : (⟨S64x128, .f32⟩ : BufTy).Contents (Elt F) → (⟨S64x128, .f32⟩ : BufTy).Contents (Elt F) → (⟨S64x128, .f32⟩ : BufTy).Contents (Elt F)),
    nullary main_cst_13 (constant S_ .f32 0x3F800000#32),
    unary main_cst_13 main_v80 (broadcastInDim S64x128 ![] bcast_S_S64x128 : (⟨S_, .f32⟩ : BufTy).Contents (Elt F) → (⟨S64x128, .f32⟩ : BufTy).Contents (Elt F)),
    binary main_v77 main_v80 main_v81 (addf : (⟨S64x128, .f32⟩ : BufTy).Contents (Elt F) → (⟨S64x128, .f32⟩ : BufTy).Contents (Elt F) → (⟨S64x128, .f32⟩ : BufTy).Contents (Elt F)),
    binary main_v79 main_v73 main_v82 (subf : (⟨S64x128, .f32⟩ : BufTy).Contents (Elt F) → (⟨S64x128, .f32⟩ : BufTy).Contents (Elt F) → (⟨S64x128, .f32⟩ : BufTy).Contents (Elt F)),
    binary main_v81 main_v75 main_v83 (subf : (⟨S64x128, .f32⟩ : BufTy).Contents (Elt F) → (⟨S64x128, .f32⟩ : BufTy).Contents (Elt F) → (⟨S64x128, .f32⟩ : BufTy).Contents (Elt F)),
    binary main_v82 main_v83 main_v84 (mulf : (⟨S64x128, .f32⟩ : BufTy).Contents (Elt F) → (⟨S64x128, .f32⟩ : BufTy).Contents (Elt F) → (⟨S64x128, .f32⟩ : BufTy).Contents (Elt F)),
    binary main_v79 main_v73 main_v85 (subf : (⟨S64x128, .f32⟩ : BufTy).Contents (Elt F) → (⟨S64x128, .f32⟩ : BufTy).Contents (Elt F) → (⟨S64x128, .f32⟩ : BufTy).Contents (Elt F)),
    binary main_v75 main_v77 main_v86 (subf : (⟨S64x128, .f32⟩ : BufTy).Contents (Elt F) → (⟨S64x128, .f32⟩ : BufTy).Contents (Elt F) → (⟨S64x128, .f32⟩ : BufTy).Contents (Elt F)),
    binary main_v85 main_v86 main_v87 (mulf : (⟨S64x128, .f32⟩ : BufTy).Contents (Elt F) → (⟨S64x128, .f32⟩ : BufTy).Contents (Elt F) → (⟨S64x128, .f32⟩ : BufTy).Contents (Elt F)),
    binary main_v73 main_v76 main_v88 (subf : (⟨S64x128, .f32⟩ : BufTy).Contents (Elt F) → (⟨S64x128, .f32⟩ : BufTy).Contents (Elt F) → (⟨S64x128, .f32⟩ : BufTy).Contents (Elt F)),
    binary main_v81 main_v75 main_v89 (subf : (⟨S64x128, .f32⟩ : BufTy).Contents (Elt F) → (⟨S64x128, .f32⟩ : BufTy).Contents (Elt F) → (⟨S64x128, .f32⟩ : BufTy).Contents (Elt F)),
    binary main_v88 main_v89 main_v90 (mulf : (⟨S64x128, .f32⟩ : BufTy).Contents (Elt F) → (⟨S64x128, .f32⟩ : BufTy).Contents (Elt F) → (⟨S64x128, .f32⟩ : BufTy).Contents (Elt F)),
    binary main_v73 main_v76 main_v91 (subf : (⟨S64x128, .f32⟩ : BufTy).Contents (Elt F) → (⟨S64x128, .f32⟩ : BufTy).Contents (Elt F) → (⟨S64x128, .f32⟩ : BufTy).Contents (Elt F)),
    binary main_v75 main_v77 main_v92 (subf : (⟨S64x128, .f32⟩ : BufTy).Contents (Elt F) → (⟨S64x128, .f32⟩ : BufTy).Contents (Elt F) → (⟨S64x128, .f32⟩ : BufTy).Contents (Elt F)),
    binary main_v91 main_v92 main_v93 (mulf : (⟨S64x128, .f32⟩ : BufTy).Contents (Elt F) → (⟨S64x128, .f32⟩ : BufTy).Contents (Elt F) → (⟨S64x128, .f32⟩ : BufTy).Contents (Elt F)) ]

theorem segC_sub : (segC : List (HloOp τ sig (Elt F))).Forall fun op => op.bufs ⊆ tcRefs τ sig :=
  ⟨unary_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

theorem segC_fresh : (segC : List (HloOp τ sig (Elt F))).Forall fun op => op.fresh = ∅ := by
  simp only [List.Forall]; repeat' constructor

/-- Operations 119 … 154 of @main, in order. -/
abbrev segD : List (HloOp τ sig (Elt F)) :=
  [ nullary main_c_14 (constantI S_ 32 0#32),
    nullary main_c_15 (constantI S_ 32 511#32),
    TRef.unary (TRef.of (T := ⟨S_, .i32⟩) main_c_14) (TRef.of (T := ⟨S_, .f32⟩) main_call4_v0) (sitofp .f32),
    TRef.unary (TRef.of (T := ⟨S_, .f32⟩) main_call4_v0) (TRef.of (T := ⟨S64x128, .f32⟩) main_call4_v1) (broadcastInDim S64x128 ![] bcast_S_S64x128),
    TRef.binary (TRef.of (T := ⟨S64x128, .f32⟩) main_call4_v1) (TRef.of (T := ⟨S64x128, .f32⟩) main_v76) (TRef.of (T := ⟨S64x128, .f32⟩) main_call4_v2) maximumf,
    TRef.unary (TRef.of (T := ⟨S_, .i32⟩) main_c_15) (TRef.of (T := ⟨S_, .f32⟩) main_call4_v3) (sitofp .f32),
    TRef.unary (TRef.of (T := ⟨S_, .f32⟩) main_call4_v3) (TRef.of (T := ⟨S64x128, .f32⟩) main_call4_v4) (broadcastInDim S64x128 ![] bcast_S_S64x128),
    TRef.binary (TRef.of (T := ⟨S64x128, .f32⟩) main_call4_v4) (TRef.of (T := ⟨S64x128, .f32⟩) main_call4_v2) (TRef.of (T := ⟨S64x128, .f32⟩) main_v94) minimumf,
    unary main_v94 main_v95 (fptosi 32 : (⟨S64x128, .f32⟩ : BufTy).Contents (Elt F) → (⟨S64x128, .i32⟩ : BufTy).Contents (Elt F)),
    nullary main_c_16 (constantI S_ 32 0#32),
    nullary main_c_17 (constantI S_ 32 511#32),
    TRef.unary (TRef.of (T := ⟨S_, .i32⟩) main_c_16) (TRef.of (T := ⟨S_, .f32⟩) main_call5_v0) (sitofp .f32),
    TRef.unary (TRef.of (T := ⟨S_, .f32⟩) main_call5_v0) (TRef.of (T := ⟨S64x128, .f32⟩) main_call5_v1) (broadcastInDim S64x128 ![] bcast_S_S64x128),
    TRef.binary (TRef.of (T := ⟨S64x128, .f32⟩) main_call5_v1) (TRef.of (T := ⟨S64x128, .f32⟩) main_v79) (TRef.of (T := ⟨S64x128, .f32⟩) main_call5_v2) maximumf,
    TRef.unary (TRef.of (T := ⟨S_, .i32⟩) main_c_17) (TRef.of (T := ⟨S_, .f32⟩) main_call5_v3) (sitofp .f32),
    TRef.unary (TRef.of (T := ⟨S_, .f32⟩) main_call5_v3) (TRef.of (T := ⟨S64x128, .f32⟩) main_call5_v4) (broadcastInDim S64x128 ![] bcast_S_S64x128),
    TRef.binary (TRef.of (T := ⟨S64x128, .f32⟩) main_call5_v4) (TRef.of (T := ⟨S64x128, .f32⟩) main_call5_v2) (TRef.of (T := ⟨S64x128, .f32⟩) main_v96) minimumf,
    unary main_v96 main_v97 (fptosi 32 : (⟨S64x128, .f32⟩ : BufTy).Contents (Elt F) → (⟨S64x128, .i32⟩ : BufTy).Contents (Elt F)),
    nullary main_c_18 (constantI S_ 32 0#32),
    nullary main_c_19 (constantI S_ 32 511#32),
    TRef.unary (TRef.of (T := ⟨S_, .i32⟩) main_c_18) (TRef.of (T := ⟨S_, .f32⟩) main_call6_v0) (sitofp .f32),
    TRef.unary (TRef.of (T := ⟨S_, .f32⟩) main_call6_v0) (TRef.of (T := ⟨S64x128, .f32⟩) main_call6_v1) (broadcastInDim S64x128 ![] bcast_S_S64x128),
    TRef.binary (TRef.of (T := ⟨S64x128, .f32⟩) main_call6_v1) (TRef.of (T := ⟨S64x128, .f32⟩) main_v77) (TRef.of (T := ⟨S64x128, .f32⟩) main_call6_v2) maximumf,
    TRef.unary (TRef.of (T := ⟨S_, .i32⟩) main_c_19) (TRef.of (T := ⟨S_, .f32⟩) main_call6_v3) (sitofp .f32),
    TRef.unary (TRef.of (T := ⟨S_, .f32⟩) main_call6_v3) (TRef.of (T := ⟨S64x128, .f32⟩) main_call6_v4) (broadcastInDim S64x128 ![] bcast_S_S64x128),
    TRef.binary (TRef.of (T := ⟨S64x128, .f32⟩) main_call6_v4) (TRef.of (T := ⟨S64x128, .f32⟩) main_call6_v2) (TRef.of (T := ⟨S64x128, .f32⟩) main_v98) minimumf,
    unary main_v98 main_v99 (fptosi 32 : (⟨S64x128, .f32⟩ : BufTy).Contents (Elt F) → (⟨S64x128, .i32⟩ : BufTy).Contents (Elt F)),
    nullary main_c_20 (constantI S_ 32 0#32),
    nullary main_c_21 (constantI S_ 32 511#32),
    TRef.unary (TRef.of (T := ⟨S_, .i32⟩) main_c_20) (TRef.of (T := ⟨S_, .f32⟩) main_call7_v0) (sitofp .f32),
    TRef.unary (TRef.of (T := ⟨S_, .f32⟩) main_call7_v0) (TRef.of (T := ⟨S64x128, .f32⟩) main_call7_v1) (broadcastInDim S64x128 ![] bcast_S_S64x128),
    TRef.binary (TRef.of (T := ⟨S64x128, .f32⟩) main_call7_v1) (TRef.of (T := ⟨S64x128, .f32⟩) main_v81) (TRef.of (T := ⟨S64x128, .f32⟩) main_call7_v2) maximumf,
    TRef.unary (TRef.of (T := ⟨S_, .i32⟩) main_c_21) (TRef.of (T := ⟨S_, .f32⟩) main_call7_v3) (sitofp .f32),
    TRef.unary (TRef.of (T := ⟨S_, .f32⟩) main_call7_v3) (TRef.of (T := ⟨S64x128, .f32⟩) main_call7_v4) (broadcastInDim S64x128 ![] bcast_S_S64x128),
    TRef.binary (TRef.of (T := ⟨S64x128, .f32⟩) main_call7_v4) (TRef.of (T := ⟨S64x128, .f32⟩) main_call7_v2) (TRef.of (T := ⟨S64x128, .f32⟩) main_v100) minimumf,
    unary main_v100 main_v101 (fptosi 32 : (⟨S64x128, .f32⟩ : BufTy).Contents (Elt F) → (⟨S64x128, .i32⟩ : BufTy).Contents (Elt F)) ]

theorem segD_sub : (segD : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩

theorem segD_fresh : (segD : List (HloOp τ sig (Elt F))).Forall fun op => op.fresh = ∅ := by
  simp only [List.Forall]; repeat' constructor

/-- Operations 155 … 226 of @main, in order. -/
abbrev segE : List (HloOp τ sig (Elt F)) :=
  [ nullary main_c_22 (constantI S_ 32 0#32),
    unary main_c_22 main_v102 (broadcastInDim S64x128 ![] bcast_S_S64x128 : (⟨S_, .i32⟩ : BufTy).Contents (Elt F) → (⟨S64x128, .i32⟩ : BufTy).Contents (Elt F)),
    binary main_v99 main_v102 main_v103 (cmpi .slt : (⟨S64x128, .i32⟩ : BufTy).Contents (Elt F) → (⟨S64x128, .i32⟩ : BufTy).Contents (Elt F) → (⟨S64x128, .i1⟩ : BufTy).Contents (Elt F)),
    nullary main_c_23 (constantI S_ 32 512#32),
    unary main_c_23 main_v104 (broadcastInDim S64x128 ![] bcast_S_S64x128 : (⟨S_, .i32⟩ : BufTy).Contents (Elt F) → (⟨S64x128, .i32⟩ : BufTy).Contents (Elt F)),
    binary main_v99 main_v104 main_v105 (addi : (⟨S64x128, .i32⟩ : BufTy).Contents (Elt F) → (⟨S64x128, .i32⟩ : BufTy).Contents (Elt F) → (⟨S64x128, .i32⟩ : BufTy).Contents (Elt F)),
    ternary main_v103 main_v105 main_v99 main_v106 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    nullary main_c_24 (constantI S_ 32 0#32),
    unary main_c_24 main_v107 (broadcastInDim S64x128 ![] bcast_S_S64x128 : (⟨S_, .i32⟩ : BufTy).Contents (Elt F) → (⟨S64x128, .i32⟩ : BufTy).Contents (Elt F)),
    binary main_v95 main_v107 main_v108 (cmpi .slt : (⟨S64x128, .i32⟩ : BufTy).Contents (Elt F) → (⟨S64x128, .i32⟩ : BufTy).Contents (Elt F) → (⟨S64x128, .i1⟩ : BufTy).Contents (Elt F)),
    nullary main_c_25 (constantI S_ 32 512#32),
    unary main_c_25 main_v109 (broadcastInDim S64x128 ![] bcast_S_S64x128 : (⟨S_, .i32⟩ : BufTy).Contents (Elt F) → (⟨S64x128, .i32⟩ : BufTy).Contents (Elt F)),
    binary main_v95 main_v109 main_v110 (addi : (⟨S64x128, .i32⟩ : BufTy).Contents (Elt F) → (⟨S64x128, .i32⟩ : BufTy).Contents (Elt F) → (⟨S64x128, .i32⟩ : BufTy).Contents (Elt F)),
    ternary main_v108 main_v110 main_v95 main_v111 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    unary main_v106 main_v112 (broadcastInDim S64x128x1 ![0, 1] bcast_S64x128_S64x128x1_0_1 : (⟨S64x128, .i32⟩ : BufTy).Contents (Elt F) → (⟨S64x128x1, .i32⟩ : BufTy).Contents (Elt F)),
    unary main_v111 main_v113 (broadcastInDim S64x128x1 ![0, 1] bcast_S64x128_S64x128x1_0_1 : (⟨S64x128, .i32⟩ : BufTy).Contents (Elt F) → (⟨S64x128x1, .i32⟩ : BufTy).Contents (Elt F)),
    binary main_v112 main_v113 main_v114 ((fun a b => concatenate S64x128x2 2 [⟨S64x128x1, a⟩, ⟨S64x128x1, b⟩] concatenates_S64x128x1_S64x128x1_S64x128x2_d2) : (⟨S64x128x1, .i32⟩ : BufTy).Contents (Elt F) → (⟨S64x128x1, .i32⟩ : BufTy).Contents (Elt F) → (⟨S64x128x2, .i32⟩ : BufTy).Contents (Elt F)),
    binary main_arg2 main_v114 main_v115 ((fun x i => Host.gather gather_S64x4x512x512_S64x128x2_S64x4x128_1_23_0_0_23_2_1411 x i) : (⟨S64x4x512x512, .f32⟩ : BufTy).Contents (Elt F) → (⟨S64x128x2, .i32⟩ : BufTy).Contents (Elt F) → (⟨S64x4x128, .f32⟩ : BufTy).Contents (Elt F)),
    nullary main_c_26 (constantI S_ 32 0#32),
    unary main_c_26 main_v116 (broadcastInDim S64x128 ![] bcast_S_S64x128 : (⟨S_, .i32⟩ : BufTy).Contents (Elt F) → (⟨S64x128, .i32⟩ : BufTy).Contents (Elt F)),
    binary main_v101 main_v116 main_v117 (cmpi .slt : (⟨S64x128, .i32⟩ : BufTy).Contents (Elt F) → (⟨S64x128, .i32⟩ : BufTy).Contents (Elt F) → (⟨S64x128, .i1⟩ : BufTy).Contents (Elt F)),
    nullary main_c_27 (constantI S_ 32 512#32),
    unary main_c_27 main_v118 (broadcastInDim S64x128 ![] bcast_S_S64x128 : (⟨S_, .i32⟩ : BufTy).Contents (Elt F) → (⟨S64x128, .i32⟩ : BufTy).Contents (Elt F)),
    binary main_v101 main_v118 main_v119 (addi : (⟨S64x128, .i32⟩ : BufTy).Contents (Elt F) → (⟨S64x128, .i32⟩ : BufTy).Contents (Elt F) → (⟨S64x128, .i32⟩ : BufTy).Contents (Elt F)),
    ternary main_v117 main_v119 main_v101 main_v120 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    nullary main_c_28 (constantI S_ 32 0#32),
    unary main_c_28 main_v121 (broadcastInDim S64x128 ![] bcast_S_S64x128 : (⟨S_, .i32⟩ : BufTy).Contents (Elt F) → (⟨S64x128, .i32⟩ : BufTy).Contents (Elt F)),
    binary main_v95 main_v121 main_v122 (cmpi .slt : (⟨S64x128, .i32⟩ : BufTy).Contents (Elt F) → (⟨S64x128, .i32⟩ : BufTy).Contents (Elt F) → (⟨S64x128, .i1⟩ : BufTy).Contents (Elt F)),
    nullary main_c_29 (constantI S_ 32 512#32),
    unary main_c_29 main_v123 (broadcastInDim S64x128 ![] bcast_S_S64x128 : (⟨S_, .i32⟩ : BufTy).Contents (Elt F) → (⟨S64x128, .i32⟩ : BufTy).Contents (Elt F)),
    binary main_v95 main_v123 main_v124 (addi : (⟨S64x128, .i32⟩ : BufTy).Contents (Elt F) → (⟨S64x128, .i32⟩ : BufTy).Contents (Elt F) → (⟨S64x128, .i32⟩ : BufTy).Contents (Elt F)),
    ternary main_v122 main_v124 main_v95 main_v125 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    unary main_v120 main_v126 (broadcastInDim S64x128x1 ![0, 1] bcast_S64x128_S64x128x1_0_1 : (⟨S64x128, .i32⟩ : BufTy).Contents (Elt F) → (⟨S64x128x1, .i32⟩ : BufTy).Contents (Elt F)),
    unary main_v125 main_v127 (broadcastInDim S64x128x1 ![0, 1] bcast_S64x128_S64x128x1_0_1 : (⟨S64x128, .i32⟩ : BufTy).Contents (Elt F) → (⟨S64x128x1, .i32⟩ : BufTy).Contents (Elt F)),
    binary main_v126 main_v127 main_v128 ((fun a b => concatenate S64x128x2 2 [⟨S64x128x1, a⟩, ⟨S64x128x1, b⟩] concatenates_S64x128x1_S64x128x1_S64x128x2_d2) : (⟨S64x128x1, .i32⟩ : BufTy).Contents (Elt F) → (⟨S64x128x1, .i32⟩ : BufTy).Contents (Elt F) → (⟨S64x128x2, .i32⟩ : BufTy).Contents (Elt F)),
    binary main_arg2 main_v128 main_v129 ((fun x i => Host.gather gather_S64x4x512x512_S64x128x2_S64x4x128_1_23_0_0_23_2_1411 x i) : (⟨S64x4x512x512, .f32⟩ : BufTy).Contents (Elt F) → (⟨S64x128x2, .i32⟩ : BufTy).Contents (Elt F) → (⟨S64x4x128, .f32⟩ : BufTy).Contents (Elt F)),
    nullary main_c_30 (constantI S_ 32 0#32),
    unary main_c_30 main_v130 (broadcastInDim S64x128 ![] bcast_S_S64x128 : (⟨S_, .i32⟩ : BufTy).Contents (Elt F) → (⟨S64x128, .i32⟩ : BufTy).Contents (Elt F)),
    binary main_v99 main_v130 main_v131 (cmpi .slt : (⟨S64x128, .i32⟩ : BufTy).Contents (Elt F) → (⟨S64x128, .i32⟩ : BufTy).Contents (Elt F) → (⟨S64x128, .i1⟩ : BufTy).Contents (Elt F)),
    nullary main_c_31 (constantI S_ 32 512#32),
    unary main_c_31 main_v132 (broadcastInDim S64x128 ![] bcast_S_S64x128 : (⟨S_, .i32⟩ : BufTy).Contents (Elt F) → (⟨S64x128, .i32⟩ : BufTy).Contents (Elt F)),
    binary main_v99 main_v132 main_v133 (addi : (⟨S64x128, .i32⟩ : BufTy).Contents (Elt F) → (⟨S64x128, .i32⟩ : BufTy).Contents (Elt F) → (⟨S64x128, .i32⟩ : BufTy).Contents (Elt F)),
    ternary main_v131 main_v133 main_v99 main_v134 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    nullary main_c_32 (constantI S_ 32 0#32),
    unary main_c_32 main_v135 (broadcastInDim S64x128 ![] bcast_S_S64x128 : (⟨S_, .i32⟩ : BufTy).Contents (Elt F) → (⟨S64x128, .i32⟩ : BufTy).Contents (Elt F)),
    binary main_v97 main_v135 main_v136 (cmpi .slt : (⟨S64x128, .i32⟩ : BufTy).Contents (Elt F) → (⟨S64x128, .i32⟩ : BufTy).Contents (Elt F) → (⟨S64x128, .i1⟩ : BufTy).Contents (Elt F)),
    nullary main_c_33 (constantI S_ 32 512#32),
    unary main_c_33 main_v137 (broadcastInDim S64x128 ![] bcast_S_S64x128 : (⟨S_, .i32⟩ : BufTy).Contents (Elt F) → (⟨S64x128, .i32⟩ : BufTy).Contents (Elt F)),
    binary main_v97 main_v137 main_v138 (addi : (⟨S64x128, .i32⟩ : BufTy).Contents (Elt F) → (⟨S64x128, .i32⟩ : BufTy).Contents (Elt F) → (⟨S64x128, .i32⟩ : BufTy).Contents (Elt F)),
    ternary main_v136 main_v138 main_v97 main_v139 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    unary main_v134 main_v140 (broadcastInDim S64x128x1 ![0, 1] bcast_S64x128_S64x128x1_0_1 : (⟨S64x128, .i32⟩ : BufTy).Contents (Elt F) → (⟨S64x128x1, .i32⟩ : BufTy).Contents (Elt F)),
    unary main_v139 main_v141 (broadcastInDim S64x128x1 ![0, 1] bcast_S64x128_S64x128x1_0_1 : (⟨S64x128, .i32⟩ : BufTy).Contents (Elt F) → (⟨S64x128x1, .i32⟩ : BufTy).Contents (Elt F)),
    binary main_v140 main_v141 main_v142 ((fun a b => concatenate S64x128x2 2 [⟨S64x128x1, a⟩, ⟨S64x128x1, b⟩] concatenates_S64x128x1_S64x128x1_S64x128x2_d2) : (⟨S64x128x1, .i32⟩ : BufTy).Contents (Elt F) → (⟨S64x128x1, .i32⟩ : BufTy).Contents (Elt F) → (⟨S64x128x2, .i32⟩ : BufTy).Contents (Elt F)),
    binary main_arg2 main_v142 main_v143 ((fun x i => Host.gather gather_S64x4x512x512_S64x128x2_S64x4x128_1_23_0_0_23_2_1411 x i) : (⟨S64x4x512x512, .f32⟩ : BufTy).Contents (Elt F) → (⟨S64x128x2, .i32⟩ : BufTy).Contents (Elt F) → (⟨S64x4x128, .f32⟩ : BufTy).Contents (Elt F)),
    nullary main_c_34 (constantI S_ 32 0#32),
    unary main_c_34 main_v144 (broadcastInDim S64x128 ![] bcast_S_S64x128 : (⟨S_, .i32⟩ : BufTy).Contents (Elt F) → (⟨S64x128, .i32⟩ : BufTy).Contents (Elt F)),
    binary main_v101 main_v144 main_v145 (cmpi .slt : (⟨S64x128, .i32⟩ : BufTy).Contents (Elt F) → (⟨S64x128, .i32⟩ : BufTy).Contents (Elt F) → (⟨S64x128, .i1⟩ : BufTy).Contents (Elt F)),
    nullary main_c_35 (constantI S_ 32 512#32),
    unary main_c_35 main_v146 (broadcastInDim S64x128 ![] bcast_S_S64x128 : (⟨S_, .i32⟩ : BufTy).Contents (Elt F) → (⟨S64x128, .i32⟩ : BufTy).Contents (Elt F)),
    binary main_v101 main_v146 main_v147 (addi : (⟨S64x128, .i32⟩ : BufTy).Contents (Elt F) → (⟨S64x128, .i32⟩ : BufTy).Contents (Elt F) → (⟨S64x128, .i32⟩ : BufTy).Contents (Elt F)),
    ternary main_v145 main_v147 main_v101 main_v148 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    nullary main_c_36 (constantI S_ 32 0#32),
    unary main_c_36 main_v149 (broadcastInDim S64x128 ![] bcast_S_S64x128 : (⟨S_, .i32⟩ : BufTy).Contents (Elt F) → (⟨S64x128, .i32⟩ : BufTy).Contents (Elt F)),
    binary main_v97 main_v149 main_v150 (cmpi .slt : (⟨S64x128, .i32⟩ : BufTy).Contents (Elt F) → (⟨S64x128, .i32⟩ : BufTy).Contents (Elt F) → (⟨S64x128, .i1⟩ : BufTy).Contents (Elt F)),
    nullary main_c_37 (constantI S_ 32 512#32),
    unary main_c_37 main_v151 (broadcastInDim S64x128 ![] bcast_S_S64x128 : (⟨S_, .i32⟩ : BufTy).Contents (Elt F) → (⟨S64x128, .i32⟩ : BufTy).Contents (Elt F)),
    binary main_v97 main_v151 main_v152 (addi : (⟨S64x128, .i32⟩ : BufTy).Contents (Elt F) → (⟨S64x128, .i32⟩ : BufTy).Contents (Elt F) → (⟨S64x128, .i32⟩ : BufTy).Contents (Elt F)),
    ternary main_v150 main_v152 main_v97 main_v153 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    unary main_v148 main_v154 (broadcastInDim S64x128x1 ![0, 1] bcast_S64x128_S64x128x1_0_1 : (⟨S64x128, .i32⟩ : BufTy).Contents (Elt F) → (⟨S64x128x1, .i32⟩ : BufTy).Contents (Elt F)),
    unary main_v153 main_v155 (broadcastInDim S64x128x1 ![0, 1] bcast_S64x128_S64x128x1_0_1 : (⟨S64x128, .i32⟩ : BufTy).Contents (Elt F) → (⟨S64x128x1, .i32⟩ : BufTy).Contents (Elt F)),
    binary main_v154 main_v155 main_v156 ((fun a b => concatenate S64x128x2 2 [⟨S64x128x1, a⟩, ⟨S64x128x1, b⟩] concatenates_S64x128x1_S64x128x1_S64x128x2_d2) : (⟨S64x128x1, .i32⟩ : BufTy).Contents (Elt F) → (⟨S64x128x1, .i32⟩ : BufTy).Contents (Elt F) → (⟨S64x128x2, .i32⟩ : BufTy).Contents (Elt F)),
    binary main_arg2 main_v156 main_v157 ((fun x i => Host.gather gather_S64x4x512x512_S64x128x2_S64x4x128_1_23_0_0_23_2_1411 x i) : (⟨S64x4x512x512, .f32⟩ : BufTy).Contents (Elt F) → (⟨S64x128x2, .i32⟩ : BufTy).Contents (Elt F) → (⟨S64x4x128, .f32⟩ : BufTy).Contents (Elt F)) ]

theorem segE_sub : (segE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

theorem segE_fresh : (segE : List (HloOp τ sig (Elt F))).Forall fun op => op.fresh = ∅ := by
  simp only [List.Forall]; repeat' constructor

/-- Operations 227 … 264 of @main, in order. -/
abbrev segF : List (HloOp τ sig (Elt F)) :=
  [ unary main_v84 main_v158 (broadcastInDim S64x1x128 ![0, 2] bcast_S64x128_S64x1x128_0_2 : (⟨S64x128, .f32⟩ : BufTy).Contents (Elt F) → (⟨S64x1x128, .f32⟩ : BufTy).Contents (Elt F)),
    unary main_v87 main_v159 (broadcastInDim S64x1x128 ![0, 2] bcast_S64x128_S64x1x128_0_2 : (⟨S64x128, .f32⟩ : BufTy).Contents (Elt F) → (⟨S64x1x128, .f32⟩ : BufTy).Contents (Elt F)),
    unary main_v90 main_v160 (broadcastInDim S64x1x128 ![0, 2] bcast_S64x128_S64x1x128_0_2 : (⟨S64x128, .f32⟩ : BufTy).Contents (Elt F) → (⟨S64x1x128, .f32⟩ : BufTy).Contents (Elt F)),
    unary main_v93 main_v161 (broadcastInDim S64x1x128 ![0, 2] bcast_S64x128_S64x1x128_0_2 : (⟨S64x128, .f32⟩ : BufTy).Contents (Elt F) → (⟨S64x1x128, .f32⟩ : BufTy).Contents (Elt F)),
    unary main_v158 main_v162 (broadcastInDim S64x4x128 ![0, 1, 2] bcast_S64x1x128_S64x4x128_0_1_2 : (⟨S64x1x128, .f32⟩ : BufTy).Contents (Elt F) → (⟨S64x4x128, .f32⟩ : BufTy).Contents (Elt F)),
    binary main_v162 main_v115 main_v163 (mulf : (⟨S64x4x128, .f32⟩ : BufTy).Contents (Elt F) → (⟨S64x4x128, .f32⟩ : BufTy).Contents (Elt F) → (⟨S64x4x128, .f32⟩ : BufTy).Contents (Elt F)),
    unary main_v159 main_v164 (broadcastInDim S64x4x128 ![0, 1, 2] bcast_S64x1x128_S64x4x128_0_1_2 : (⟨S64x1x128, .f32⟩ : BufTy).Contents (Elt F) → (⟨S64x4x128, .f32⟩ : BufTy).Contents (Elt F)),
    binary main_v164 main_v129 main_v165 (mulf : (⟨S64x4x128, .f32⟩ : BufTy).Contents (Elt F) → (⟨S64x4x128, .f32⟩ : BufTy).Contents (Elt F) → (⟨S64x4x128, .f32⟩ : BufTy).Contents (Elt F)),
    binary main_v163 main_v165 main_v166 (addf : (⟨S64x4x128, .f32⟩ : BufTy).Contents (Elt F) → (⟨S64x4x128, .f32⟩ : BufTy).Contents (Elt F) → (⟨S64x4x128, .f32⟩ : BufTy).Contents (Elt F)),
    unary main_v160 main_v167 (broadcastInDim S64x4x128 ![0, 1, 2] bcast_S64x1x128_S64x4x128_0_1_2 : (⟨S64x1x128, .f32⟩ : BufTy).Contents (Elt F) → (⟨S64x4x128, .f32⟩ : BufTy).Contents (Elt F)),
    binary main_v167 main_v143 main_v168 (mulf : (⟨S64x4x128, .f32⟩ : BufTy).Contents (Elt F) → (⟨S64x4x128, .f32⟩ : BufTy).Contents (Elt F) → (⟨S64x4x128, .f32⟩ : BufTy).Contents (Elt F)),
    binary main_v166 main_v168 main_v169 (addf : (⟨S64x4x128, .f32⟩ : BufTy).Contents (Elt F) → (⟨S64x4x128, .f32⟩ : BufTy).Contents (Elt F) → (⟨S64x4x128, .f32⟩ : BufTy).Contents (Elt F)),
    unary main_v161 main_v170 (broadcastInDim S64x4x128 ![0, 1, 2] bcast_S64x1x128_S64x4x128_0_1_2 : (⟨S64x1x128, .f32⟩ : BufTy).Contents (Elt F) → (⟨S64x4x128, .f32⟩ : BufTy).Contents (Elt F)),
    binary main_v170 main_v157 main_v171 (mulf : (⟨S64x4x128, .f32⟩ : BufTy).Contents (Elt F) → (⟨S64x4x128, .f32⟩ : BufTy).Contents (Elt F) → (⟨S64x4x128, .f32⟩ : BufTy).Contents (Elt F)),
    binary main_v169 main_v171 main_v172 (addf : (⟨S64x4x128, .f32⟩ : BufTy).Contents (Elt F) → (⟨S64x4x128, .f32⟩ : BufTy).Contents (Elt F) → (⟨S64x4x128, .f32⟩ : BufTy).Contents (Elt F)),
    binary main_v68 main_v60 main_v173 (mulf : (⟨S64x128, .f32⟩ : BufTy).Contents (Elt F) → (⟨S64x128, .f32⟩ : BufTy).Contents (Elt F) → (⟨S64x128, .f32⟩ : BufTy).Contents (Elt F)),
    binary main_v71 main_v63 main_v174 (mulf : (⟨S64x128, .f32⟩ : BufTy).Contents (Elt F) → (⟨S64x128, .f32⟩ : BufTy).Contents (Elt F) → (⟨S64x128, .f32⟩ : BufTy).Contents (Elt F)),
    unary main_v173 main_v175 (broadcastInDim S64x1x128 ![0, 2] bcast_S64x128_S64x1x128_0_2 : (⟨S64x128, .f32⟩ : BufTy).Contents (Elt F) → (⟨S64x1x128, .f32⟩ : BufTy).Contents (Elt F)),
    unary main_v173 main_v176 (broadcastInDim S64x1x128 ![0, 2] bcast_S64x128_S64x1x128_0_2 : (⟨S64x128, .f32⟩ : BufTy).Contents (Elt F) → (⟨S64x1x128, .f32⟩ : BufTy).Contents (Elt F)),
    unary main_v174 main_v177 (broadcastInDim S64x1x128 ![0, 2] bcast_S64x128_S64x1x128_0_2 : (⟨S64x128, .f32⟩ : BufTy).Contents (Elt F) → (⟨S64x1x128, .f32⟩ : BufTy).Contents (Elt F)),
    unary main_v174 main_v178 (broadcastInDim S64x1x128 ![0, 2] bcast_S64x128_S64x1x128_0_2 : (⟨S64x128, .f32⟩ : BufTy).Contents (Elt F) → (⟨S64x1x128, .f32⟩ : BufTy).Contents (Elt F)),
    nary ![main_v175, main_v176, main_v177, main_v178] main_v179 (fun u => concatenate S64x4x128 1 [⟨S64x1x128, u 0⟩, ⟨S64x1x128, u 1⟩, ⟨S64x1x128, u 2⟩, ⟨S64x1x128, u 3⟩] concatenates_S64x1x128_S64x1x128_S64x1x128_S64x1x128_S64x4x128_d1),
    binary main_v172 main_v179 main_v180 (mulf : (⟨S64x4x128, .f32⟩ : BufTy).Contents (Elt F) → (⟨S64x4x128, .f32⟩ : BufTy).Contents (Elt F) → (⟨S64x4x128, .f32⟩ : BufTy).Contents (Elt F)),
    nullary main_cst_38 (constant S_ .f32 0x00000000#32),
    binary main_v180 main_cst_38 main_v181 ((fun x v => Host.reduceAdd x v reducesTo_S64x4x128_S64x4_d2 h_S_) : (⟨S64x4x128, .f32⟩ : BufTy).Contents (Elt F) → (⟨S_, .f32⟩ : BufTy).Contents (Elt F) → (⟨S64x4, .f32⟩ : BufTy).Contents (Elt F)),
    unary main_v181 main_v182 (Host.absf : (⟨S64x4, .f32⟩ : BufTy).Contents (Elt F) → (⟨S64x4, .f32⟩ : BufTy).Contents (Elt F)),
    nullary main_cst_39 (constant S_ .f32 0x00000000#32),
    binary main_v182 main_cst_39 main_v183 ((fun x v => Host.reduceAdd x v reducesTo_S64x4_S64_d1 h_S_) : (⟨S64x4, .f32⟩ : BufTy).Contents (Elt F) → (⟨S_, .f32⟩ : BufTy).Contents (Elt F) → (⟨S64, .f32⟩ : BufTy).Contents (Elt F)),
    nullary main_cst_40 (constant S_ .f32 0x40800000#32),
    unary main_cst_40 main_v184 (broadcastInDim S64 ![] bcast_S_S64 : (⟨S_, .f32⟩ : BufTy).Contents (Elt F) → (⟨S64, .f32⟩ : BufTy).Contents (Elt F)),
    binary main_v183 main_v184 main_v185 (Host.divf : (⟨S64, .f32⟩ : BufTy).Contents (Elt F) → (⟨S64, .f32⟩ : BufTy).Contents (Elt F) → (⟨S64, .f32⟩ : BufTy).Contents (Elt F)),
    binary main_v23 main_v43 main_v186 (addf : (⟨S64, .f32⟩ : BufTy).Contents (Elt F) → (⟨S64, .f32⟩ : BufTy).Contents (Elt F) → (⟨S64, .f32⟩ : BufTy).Contents (Elt F)),
    binary main_v186 main_v185 main_v187 (subf : (⟨S64, .f32⟩ : BufTy).Contents (Elt F) → (⟨S64, .f32⟩ : BufTy).Contents (Elt F) → (⟨S64, .f32⟩ : BufTy).Contents (Elt F)),
    binary main_v185 main_v187 main_v188 (Host.divf : (⟨S64, .f32⟩ : BufTy).Contents (Elt F) → (⟨S64, .f32⟩ : BufTy).Contents (Elt F) → (⟨S64, .f32⟩ : BufTy).Contents (Elt F)),
    nullary main_cst_41 (constant S_ .f32 0x00000000#32),
    binary main_v188 main_cst_41 main_v189 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_42 (constant S_ .f32 0x42800000#32),
    binary main_v189 main_cst_42 main_v190 (Host.divf : (⟨S_, .f32⟩ : BufTy).Contents (Elt F) → (⟨S_, .f32⟩ : BufTy).Contents (Elt F) → (⟨S_, .f32⟩ : BufTy).Contents (Elt F)) ]

theorem segF_sub : (segF : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., binary_bufs_sub .., binary_bufs_sub .., unary_bufs_sub .., binary_bufs_sub .., binary_bufs_sub .., unary_bufs_sub .., binary_bufs_sub .., binary_bufs_sub .., binary_bufs_sub .., binary_bufs_sub .., unary_bufs_sub .., unary_bufs_sub .., unary_bufs_sub .., unary_bufs_sub .., nary_bufs_sub .., binary_bufs_sub .., nullary_bufs_sub .., binary_bufs_sub .., unary_bufs_sub .., nullary_bufs_sub .., binary_bufs_sub .., nullary_bufs_sub .., unary_bufs_sub .., binary_bufs_sub .., binary_bufs_sub .., binary_bufs_sub .., binary_bufs_sub .., nullary_bufs_sub .., binary_bufs_sub .., nullary_bufs_sub .., binary_bufs_sub ..⟩

theorem segF_fresh : (segF : List (HloOp τ sig (Elt F))).Forall fun op => op.fresh = ∅ := by
  simp only [List.Forall]; repeat' constructor

/-- @main's operations, in order. -/
abbrev ops : List (HloOp τ sig (Elt F)) := segA ++ (segB ++ (segC ++ (segD ++ (segE ++ segF))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} (l₁ l₂ : List α) (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append _ _ segA_sub (forall_append _ _ segB_sub (forall_append _ _ segC_sub (forall_append _ _ segD_sub
    (forall_append _ _ segE_sub segF_sub))))

theorem ops_fresh : (ops : List (HloOp τ sig (Elt F))).Forall fun op => op.fresh = ∅ :=
  forall_append _ _ segA_fresh (forall_append _ _ segB_fresh (forall_append _ _ segC_fresh (forall_append _ _ segD_fresh
    (forall_append _ _ segE_fresh segF_fresh))))

/-- Every weakly fair execution of @main terminates, without a fault, with every buffer at the fold of the
    operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.RefSide.Run

end
-- ==== Proof.RefKeep.lean ====
/-
  The reference program's six stretches of host operations: the buffers each stretch writes, listed, and so the
  buffers it keeps — a buffer outside a stretch's list holds after the stretch what it held before.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

/-- The buffers stretch A writes. -/
abbrev segA_W : List (Ref sig .tc) := [main_cst, main_v0, main_v1, main_cst_0, main_v2, main_v3, main_call0_v0, main_call0_v1, main_v4, main_v5, main_v6, main_v7, main_v8, main_v9, main_v10, main_v11, main_v12, main_cst_1, main_v13, main_v14, main_v15, main_v16, main_cst_2, main_v17, main_v18, main_v19, main_v20, main_v21, main_cst_3, main_v22, main_v23, main_call1_v0, main_call1_v1, main_v24, main_v25, main_v26, main_v27, main_v28, main_v29, main_v30, main_v31, main_v32, main_cst_4, main_v33, main_v34, main_v35, main_v36, main_cst_5, main_v37, main_v38, main_v39, main_v40, main_v41, main_cst_6, main_v42, main_v43]

theorem segA_writes : (segA : List (HloOp τ sig (Elt Ideal))).Forall fun op => op.writes ⊆ (segA_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch A does not write keeps its contents. -/
theorem A_keep (r : Ref sig .tc) (h : r ∉ segA_W) : after segA W (Proc.devRef .tc r) = W (Proc.devRef .tc r) :=
  after_of_writes_sub segA W segA_writes h

/-- The buffers stretch B writes. -/
abbrev segB_W : List (Ref sig .tc) := [main_v44, main_call2_v0, main_call2_v1, main_v45, main_v46, main_v47, main_v48, main_v49, main_c, main_v50, main_cst_7, main_v51, main_v52, main_v53, main_v54, main_c_8, main_v55, main_cst_9, main_v56, main_v57, main_v58, main_cst_10, main_v59, main_v60, main_v61, main_cst_11, main_v62, main_v63, main_call3_v0, main_call3_v1, main_v64, main_v65, main_v66, main_v67, main_v68, main_v69, main_v70, main_v71]

theorem segB_writes : (segB : List (HloOp τ sig (Elt Ideal))).Forall fun op => op.writes ⊆ (segB_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch B does not write keeps its contents. -/
theorem B_keep (r : Ref sig .tc) (h : r ∉ segB_W) : after segB W (Proc.devRef .tc r) = W (Proc.devRef .tc r) :=
  after_of_writes_sub segB W segB_writes h

/-- The buffers stretch C writes. -/
abbrev segC_W : List (Ref sig .tc) := [main_v72, main_v73, main_v74, main_v75, main_v76, main_v77, main_cst_12, main_v78, main_v79, main_cst_13, main_v80, main_v81, main_v82, main_v83, main_v84, main_v85, main_v86, main_v87, main_v88, main_v89, main_v90, main_v91, main_v92, main_v93]

theorem segC_writes : (segC : List (HloOp τ sig (Elt Ideal))).Forall fun op => op.writes ⊆ (segC_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch C does not write keeps its contents. -/
theorem C_keep (r : Ref sig .tc) (h : r ∉ segC_W) : after segC W (Proc.devRef .tc r) = W (Proc.devRef .tc r) :=
  after_of_writes_sub segC W segC_writes h

/-- The buffers stretch D writes. -/
abbrev segD_W : List (Ref sig .tc) := [main_c_14, main_c_15, main_call4_v0, main_call4_v1, main_call4_v2, main_call4_v3, main_call4_v4, main_v94, main_v95, main_c_16, main_c_17, main_call5_v0, main_call5_v1, main_call5_v2, main_call5_v3, main_call5_v4, main_v96, main_v97, main_c_18, main_c_19, main_call6_v0, main_call6_v1, main_call6_v2, main_call6_v3, main_call6_v4, main_v98, main_v99, main_c_20, main_c_21, main_call7_v0, main_call7_v1, main_call7_v2, main_call7_v3, main_call7_v4, main_v100, main_v101]

theorem segD_writes : (segD : List (HloOp τ sig (Elt Ideal))).Forall fun op => op.writes ⊆ (segD_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch D does not write keeps its contents. -/
theorem D_keep (r : Ref sig .tc) (h : r ∉ segD_W) : after segD W (Proc.devRef .tc r) = W (Proc.devRef .tc r) :=
  after_of_writes_sub segD W segD_writes h

/-- The buffers stretch E writes. -/
abbrev segE_W : List (Ref sig .tc) := [main_c_22, main_v102, main_v103, main_c_23, main_v104, main_v105, main_v106, main_c_24, main_v107, main_v108, main_c_25, main_v109, main_v110, main_v111, main_v112, main_v113, main_v114, main_v115, main_c_26, main_v116, main_v117, main_c_27, main_v118, main_v119, main_v120, main_c_28, main_v121, main_v122, main_c_29, main_v123, main_v124, main_v125, main_v126, main_v127, main_v128, main_v129, main_c_30, main_v130, main_v131, main_c_31, main_v132, main_v133, main_v134, main_c_32, main_v135, main_v136, main_c_33, main_v137, main_v138, main_v139, main_v140, main_v141, main_v142, main_v143, main_c_34, main_v144, main_v145, main_c_35, main_v146, main_v147, main_v148, main_c_36, main_v149, main_v150, main_c_37, main_v151, main_v152, main_v153, main_v154, main_v155, main_v156, main_v157]

theorem segE_writes : (segE : List (HloOp τ sig (Elt Ideal))).Forall fun op => op.writes ⊆ (segE_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch E does not write keeps its contents. -/
theorem E_keep (r : Ref sig .tc) (h : r ∉ segE_W) : after segE W (Proc.devRef .tc r) = W (Proc.devRef .tc r) :=
  after_of_writes_sub segE W segE_writes h

/-- The buffers stretch F writes. -/
abbrev segF_W : List (Ref sig .tc) := [main_v158, main_v159, main_v160, main_v161, main_v162, main_v163, main_v164, main_v165, main_v166, main_v167, main_v168, main_v169, main_v170, main_v171, main_v172, main_v173, main_v174, main_v175, main_v176, main_v177, main_v178, main_v179, main_v180, main_cst_38, main_v181, main_v182, main_cst_39, main_v183, main_cst_40, main_v184, main_v185, main_v186, main_v187, main_v188, main_cst_41, main_v189, main_cst_42, main_v190]

theorem segF_writes : (segF : List (HloOp τ sig (Elt Ideal))).Forall fun op => op.writes ⊆ (segF_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer stretch F does not write keeps its contents. -/
theorem F_keep (r : Ref sig .tc) (h : r ∉ segF_W) : after segF W (Proc.devRef .tc r) = W (Proc.devRef .tc r) :=
  after_of_writes_sub segF W segF_writes h

end Cert.RefSide.Run

end
-- ==== Proof.RefStA.lean ====
/-
  Stretch A of the reference's host operations read as a function of the argument buffers: it leaves the first
  argument scaled by 512 in its buffer, and the shoelace areas of the two scaled polygons in theirs.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

set_option maxHeartbeats 4000000 in
theorem A_v1 : after segA W (Proc.devRef .tc main_v1) = scaled (W (Proc.devRef .tc main_arg0)) := by
  unfold segA
  after_results
  rfl

set_option maxHeartbeats 4000000 in
theorem A_v23 : after segA W (Proc.devRef .tc main_v23) = areaArr (W (Proc.devRef .tc main_arg0)) := by
  unfold segA
  after_results
  rfl

set_option maxHeartbeats 4000000 in
theorem A_v43 : after segA W (Proc.devRef .tc main_v43) = areaArr (W (Proc.devRef .tc main_arg1)) := by
  unfold segA
  after_results
  rfl

end Cert.RefSide.Run

end
-- ==== Proof.RefStB.lean ====
/-
  Stretch B of the reference's host operations: from the scaled points it leaves, per direction, the uniqueness
  mask (the floors' difference along the rolled polygon, column 0 set to one, clamped in absolute value to one)
  and the sign of the coordinate's difference along the rolled polygon.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

variable (a0 a1 : FVec Ideal ShPts .f32) (a2 : FVec Ideal ShMask .f32)

set_option maxHeartbeats 4000000 in
theorem B_v60 (h1 : W (Proc.devRef .tc main_v1) = scaled a0) :
    after segB W (Proc.devRef .tc main_v60) = uniq (colX (subf (Host.floor (rolled (scaled a0))) (Host.floor (scaled a0)))) := by
  unfold segB
  after_results
  rw [h1]
  rfl

set_option maxHeartbeats 4000000 in
theorem B_v63 (h1 : W (Proc.devRef .tc main_v1) = scaled a0) :
    after segB W (Proc.devRef .tc main_v63) = uniq (colY (subf (Host.floor (rolled (scaled a0))) (Host.floor (scaled a0)))) := by
  unfold segB
  after_results
  rw [h1]
  rfl

set_option maxHeartbeats 4000000 in
theorem B_v68 (h1 : W (Proc.devRef .tc main_v1) = scaled a0) :
    after segB W (Proc.devRef .tc main_v68) = Host.sign (colX (subf (rolled (scaled a0)) (scaled a0))) := by
  unfold segB
  after_results
  rw [h1]
  rfl

set_option maxHeartbeats 4000000 in
theorem B_v71 (h1 : W (Proc.devRef .tc main_v1) = scaled a0) :
    after segB W (Proc.devRef .tc main_v71) = Host.sign (colY (subf (rolled (scaled a0)) (scaled a0))) := by
  unfold segB
  after_results
  rw [h1]
  rfl

end Cert.RefSide.Run

end
-- ==== Proof.RefStC.lean ====
/-
  Stretch C of the reference's host operations: from the scaled points it leaves the floors of the two
  coordinates, the floors plus one, and the four products of distances that weigh the four neighbouring mask entries.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

variable (a0 a1 : FVec Ideal ShPts .f32) (a2 : FVec Ideal ShMask .f32)

set_option maxHeartbeats 4000000 in
theorem C_v76 (h1 : W (Proc.devRef .tc main_v1) = scaled a0) :
    after segC W (Proc.devRef .tc main_v76) = x0fA a0 := by
  unfold segC
  after_results
  rw [h1]
  rfl

set_option maxHeartbeats 4000000 in
theorem C_v77 (h1 : W (Proc.devRef .tc main_v1) = scaled a0) :
    after segC W (Proc.devRef .tc main_v77) = y0fA a0 := by
  unfold segC
  after_results
  rw [h1]
  rfl

set_option maxHeartbeats 4000000 in
theorem C_v79 (h1 : W (Proc.devRef .tc main_v1) = scaled a0) :
    after segC W (Proc.devRef .tc main_v79) = x1fA a0 := by
  unfold segC
  after_results
  rw [h1]
  rfl

set_option maxHeartbeats 4000000 in
theorem C_v81 (h1 : W (Proc.devRef .tc main_v1) = scaled a0) :
    after segC W (Proc.devRef .tc main_v81) = y1fA a0 := by
  unfold segC
  after_results
  rw [h1]
  rfl

set_option maxHeartbeats 4000000 in
theorem C_v84 (h1 : W (Proc.devRef .tc main_v1) = scaled a0) :
    after segC W (Proc.devRef .tc main_v84) = w00A a0 := by
  unfold segC
  after_results
  rw [h1]
  rfl

set_option maxHeartbeats 4000000 in
theorem C_v87 (h1 : W (Proc.devRef .tc main_v1) = scaled a0) :
    after segC W (Proc.devRef .tc main_v87) = w01A a0 := by
  unfold segC
  after_results
  rw [h1]
  rfl

set_option maxHeartbeats 4000000 in
theorem C_v90 (h1 : W (Proc.devRef .tc main_v1) = scaled a0) :
    after segC W (Proc.devRef .tc main_v90) = w10A a0 := by
  unfold segC
  after_results
  rw [h1]
  rfl

set_option maxHeartbeats 4000000 in
theorem C_v93 (h1 : W (Proc.devRef .tc main_v1) = scaled a0) :
    after segC W (Proc.devRef .tc main_v93) = w11A a0 := by
  unfold segC
  after_results
  rw [h1]
  rfl

end Cert.RefSide.Run

end
-- ==== Proof.RefStD.lean ====
/-
  Stretch D of the reference's host operations: each of the four float positions (the two floors, the two floors
  plus one) clipped to [0, 511] and converted to a 32-bit integer.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

variable (a0 a1 : FVec Ideal ShPts .f32) (a2 : FVec Ideal ShMask .f32)

set_option maxHeartbeats 4000000 in
theorem D_v95 (h76 : W (Proc.devRef .tc main_v76) = x0fA a0) :
    after segD W (Proc.devRef .tc main_v95) = wordA (x0fA a0) := by
  unfold segD
  after_results
  rw [h76]
  rfl

set_option maxHeartbeats 4000000 in
theorem D_v97 (h79 : W (Proc.devRef .tc main_v79) = x1fA a0) :
    after segD W (Proc.devRef .tc main_v97) = wordA (x1fA a0) := by
  unfold segD
  after_results
  rw [h79]
  rfl

set_option maxHeartbeats 4000000 in
theorem D_v99 (h77 : W (Proc.devRef .tc main_v77) = y0fA a0) :
    after segD W (Proc.devRef .tc main_v99) = wordA (y0fA a0) := by
  unfold segD
  after_results
  rw [h77]
  rfl

set_option maxHeartbeats 4000000 in
theorem D_v101 (h81 : W (Proc.devRef .tc main_v81) = y1fA a0) :
    after segD W (Proc.devRef .tc main_v101) = wordA (y1fA a0) := by
  unfold segD
  after_results
  rw [h81]
  rfl

end Cert.RefSide.Run

end
-- ==== Proof.RefStE.lean ====
/-
  Stretch E of the reference's host operations: the four gathers. Each pairs a row word with a column word (a
  negative word wrapped by 512), joins them as start indices and reads the mask there on every channel.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

variable (a0 a1 : FVec Ideal ShPts .f32) (a2 : FVec Ideal ShMask .f32)

set_option maxHeartbeats 4000000 in
theorem E_v115 (h99 : W (Proc.devRef .tc main_v99) = wordA (y0fA a0)) (h95 : W (Proc.devRef .tc main_v95) = wordA (x0fA a0)) (hm : W (Proc.devRef .tc main_arg2) = a2) :
    after segE W (Proc.devRef .tc main_v115) = pickA a2 (wordA (y0fA a0)) (wordA (x0fA a0)) := by
  unfold segE
  after_results
  rw [h99, h95, hm]
  rfl

set_option maxHeartbeats 4000000 in
theorem E_v129 (h101 : W (Proc.devRef .tc main_v101) = wordA (y1fA a0)) (h95 : W (Proc.devRef .tc main_v95) = wordA (x0fA a0)) (hm : W (Proc.devRef .tc main_arg2) = a2) :
    after segE W (Proc.devRef .tc main_v129) = pickA a2 (wordA (y1fA a0)) (wordA (x0fA a0)) := by
  unfold segE
  after_results
  rw [h101, h95, hm]
  rfl

set_option maxHeartbeats 4000000 in
theorem E_v143 (h99 : W (Proc.devRef .tc main_v99) = wordA (y0fA a0)) (h97 : W (Proc.devRef .tc main_v97) = wordA (x1fA a0)) (hm : W (Proc.devRef .tc main_arg2) = a2) :
    after segE W (Proc.devRef .tc main_v143) = pickA a2 (wordA (y0fA a0)) (wordA (x1fA a0)) := by
  unfold segE
  after_results
  rw [h99, h97, hm]
  rfl

set_option maxHeartbeats 4000000 in
theorem E_v157 (h101 : W (Proc.devRef .tc main_v101) = wordA (y1fA a0)) (h97 : W (Proc.devRef .tc main_v97) = wordA (x1fA a0)) (hm : W (Proc.devRef .tc main_arg2) = a2) :
    after segE W (Proc.devRef .tc main_v157) = pickA a2 (wordA (y1fA a0)) (wordA (x1fA a0)) := by
  unfold segE
  after_results
  rw [h101, h97, hm]
  rfl

end Cert.RefSide.Run

end
-- ==== Proof.RefStF.lean ====
/-
  Stretch F of the reference's host operations: the four weighted mask entries added, multiplied by the signed
  uniqueness mask (its four channel rows stacked), summed over the vertices, and the closing operations on that
  raw term and the two areas.
-/
import proofs.«174235_j4939212390583_2_alg».proof.Proof.RefOps
import proofs.«174235_j4939212390583_2_alg».proof.Proof.RefSpec

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

variable (W : Valuation τ sig (Elt Ideal))

/-- What stretch F computes from the fourteen arrays it reads: the weights `w`, the picked mask entries `p`, the
    uniqueness masks `u` and signs `s` per direction, the two areas. -/
def closing (w00 w01 w10 w11 : FVec Ideal ShBV .f32) (p00 p01 p10 p11 : FVec Ideal ShBCV .f32)
    (ux uy sx sy : FVec Ideal ShBV .f32) (A B : FVec Ideal ShB .f32) : FVec Ideal Sh0 .f32 :=
  tailArr A B
    (Host.reduceAdd
      (mulf
        (addf
          (addf (addf (mulf (spread w00) p00) (mulf (spread w01) p01)) (mulf (spread w10) p10))
          (mulf (spread w11) p11))
        (concatenate ShBCV 1
          [⟨ShB1V, broadcastInDim ShB1V (![0, 2] : Fin 2 → Fin 3) (by decide) (mulf sx ux)⟩,
           ⟨ShB1V, broadcastInDim ShB1V (![0, 2] : Fin 2 → Fin 3) (by decide) (mulf sx ux)⟩,
           ⟨ShB1V, broadcastInDim ShB1V (![0, 2] : Fin 2 → Fin 3) (by decide) (mulf sy uy)⟩,
           ⟨ShB1V, broadcastInDim ShB1V (![0, 2] : Fin 2 → Fin 3) (by decide) (mulf sy uy)⟩]
          (by decide : Shape.Concatenates [ShB1V, ShB1V, ShB1V, ShB1V] ShBCV 1)))
      (constant (F := Ideal) Sh0 .f32 0x00000000#32) (by decide : ShBCV.ReducesTo [2] ShBC) (by decide))

set_option maxHeartbeats 8000000 in
/-- Stretch F as a function of the fourteen buffers it reads. -/
theorem F_closing :
    after segF W (Proc.devRef .tc main_v190)
      = closing (W (Proc.devRef .tc main_v84)) (W (Proc.devRef .tc main_v87)) (W (Proc.devRef .tc main_v90)) (W (Proc.devRef .tc main_v93))
          (W (Proc.devRef .tc main_v115)) (W (Proc.devRef .tc main_v129)) (W (Proc.devRef .tc main_v143)) (W (Proc.devRef .tc main_v157))
          (W (Proc.devRef .tc main_v60)) (W (Proc.devRef .tc main_v63)) (W (Proc.devRef .tc main_v68)) (W (Proc.devRef .tc main_v71))
          (W (Proc.devRef .tc main_v23)) (W (Proc.devRef .tc main_v43)) := by
  unfold segF
  after_results
  rfl

variable (a0 a1 : FVec Ideal ShPts .f32) (a2 : FVec Ideal ShMask .f32)

/-- With the earlier stretches' arrays in those buffers: the closing operations on the raw term and the areas. -/
theorem F_v190 (h84 : W (Proc.devRef .tc main_v84) = w00A a0)
    (h87 : W (Proc.devRef .tc main_v87) = w01A a0)
    (h90 : W (Proc.devRef .tc main_v90) = w10A a0)
    (h93 : W (Proc.devRef .tc main_v93) = w11A a0)
    (h115 : W (Proc.devRef .tc main_v115) = pickA a2 (wordA (y0fA a0)) (wordA (x0fA a0)))
    (h129 : W (Proc.devRef .tc main_v129) = pickA a2 (wordA (y1fA a0)) (wordA (x0fA a0)))
    (h143 : W (Proc.devRef .tc main_v143) = pickA a2 (wordA (y0fA a0)) (wordA (x1fA a0)))
    (h157 : W (Proc.devRef .tc main_v157) = pickA a2 (wordA (y1fA a0)) (wordA (x1fA a0)))
    (h60 : W (Proc.devRef .tc main_v60) = uniq (colX (subf (Host.floor (rolled (scaled a0))) (Host.floor (scaled a0)))))
    (h63 : W (Proc.devRef .tc main_v63) = uniq (colY (subf (Host.floor (rolled (scaled a0))) (Host.floor (scaled a0)))))
    (h68 : W (Proc.devRef .tc main_v68) = Host.sign (colX (subf (rolled (scaled a0)) (scaled a0))))
    (h71 : W (Proc.devRef .tc main_v71) = Host.sign (colY (subf (rolled (scaled a0)) (scaled a0))))
    (h23 : W (Proc.devRef .tc main_v23) = areaArr a0)
    (h43 : W (Proc.devRef .tc main_v43) = areaArr a1) :
    after segF W (Proc.devRef .tc main_v190) = tailR a0 a1 (rawArr a0 a2) := by
  rw [F_closing, h84, h87, h90, h93, h115, h129, h143, h157, h60, h63, h68, h71, h23, h43]
  rfl

end Cert.RefSide.Run

end
-- ==== Proof.RefMain.lean ====
/-
  The reference program's run. @main is a straight line of 264 host operations (RefOps.lean), so every
  weakly fair execution terminates with each buffer at the fold of the operations over its launch contents;
  that fold is taken one stretch at a time (RefStA … RefStF), each stretch reading only a few buffers of the
  earlier ones and keeping the rest (RefKeep), so no expanded term of the whole program is ever formed. The result
  buffer ends at the closing operations applied to the raw term — the sum over the vertices of the interpolated
  mask times the signed uniqueness mask, index by index `rawR` (RefLayout.lean) — and to the two polygon areas;
  the three argument buffers end as launched.
-/
import proofs.«174235_j4939212390583_2_alg».proof.Proof.RefKeep
import proofs.«174235_j4939212390583_2_alg».proof.Proof.RefStA
import proofs.«174235_j4939212390583_2_alg».proof.Proof.RefStB
import proofs.«174235_j4939212390583_2_alg».proof.Proof.RefStC
import proofs.«174235_j4939212390583_2_alg».proof.Proof.RefStD
import proofs.«174235_j4939212390583_2_alg».proof.Proof.RefStE
import proofs.«174235_j4939212390583_2_alg».proof.Proof.RefStF
import proofs.«174235_j4939212390583_2_alg».proof.Proof.RefLayout

set_option maxRecDepth 16384

noncomputable section

namespace Cert.RefSide.Run

open Cert.ReferenceIdeal Cert.ReferenceIdeal.Gen Idealize.ShloMosaic Idealize.ShloMosaic.TcCoe Idealize.SL.Sem Idealize.ShloMosaic.StableHlo
open Cert.RefSide

/-- The fold over two lists in a row. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

variable (V : Valuation τ sig (Elt Ideal))

/-! ## The buffers after each stretch -/

abbrev WA : Valuation τ sig (Elt Ideal) := after segA V
abbrev WB : Valuation τ sig (Elt Ideal) := after segB (WA V)
abbrev WC : Valuation τ sig (Elt Ideal) := after segC (WB V)
abbrev WD : Valuation τ sig (Elt Ideal) := after segD (WC V)
abbrev WE : Valuation τ sig (Elt Ideal) := after segE (WD V)

theorem after_ops_eq : after (ops (F := Ideal)) V = after segF (WE V) := by
  unfold ops WE WD WC WB WA
  rw [after_app, after_app, after_app, after_app, after_app]

/-! ### After A -/

theorem WA_v1 : WA V (Proc.devRef .tc main_v1) = scaled (V (Proc.devRef .tc main_arg0)) := A_v1 V
theorem WA_v23 : WA V (Proc.devRef .tc main_v23) = areaArr (V (Proc.devRef .tc main_arg0)) := A_v23 V
theorem WA_v43 : WA V (Proc.devRef .tc main_v43) = areaArr (V (Proc.devRef .tc main_arg1)) := A_v43 V
theorem WA_arg2 : WA V (Proc.devRef .tc main_arg2) = (V (Proc.devRef .tc main_arg2)) := A_keep V main_arg2 (by decide)

/-! ### After B -/

theorem WB_v1 : WB V (Proc.devRef .tc main_v1) = scaled (V (Proc.devRef .tc main_arg0)) :=
  (B_keep (WA V) main_v1 (by decide)).trans (WA_v1 V)
theorem WB_v23 : WB V (Proc.devRef .tc main_v23) = areaArr (V (Proc.devRef .tc main_arg0)) :=
  (B_keep (WA V) main_v23 (by decide)).trans (WA_v23 V)
theorem WB_v43 : WB V (Proc.devRef .tc main_v43) = areaArr (V (Proc.devRef .tc main_arg1)) :=
  (B_keep (WA V) main_v43 (by decide)).trans (WA_v43 V)
theorem WB_arg2 : WB V (Proc.devRef .tc main_arg2) = (V (Proc.devRef .tc main_arg2)) :=
  (B_keep (WA V) main_arg2 (by decide)).trans (WA_arg2 V)

theorem WB_v60 : WB V (Proc.devRef .tc main_v60) = uniq (colX (subf (Host.floor (rolled (scaled (V (Proc.devRef .tc main_arg0))))) (Host.floor (scaled (V (Proc.devRef .tc main_arg0)))))) := B_v60 (WA V) _ (WA_v1 V)
theorem WB_v63 : WB V (Proc.devRef .tc main_v63) = uniq (colY (subf (Host.floor (rolled (scaled (V (Proc.devRef .tc main_arg0))))) (Host.floor (scaled (V (Proc.devRef .tc main_arg0)))))) := B_v63 (WA V) _ (WA_v1 V)
theorem WB_v68 : WB V (Proc.devRef .tc main_v68) = Host.sign (colX (subf (rolled (scaled (V (Proc.devRef .tc main_arg0)))) (scaled (V (Proc.devRef .tc main_arg0))))) := B_v68 (WA V) _ (WA_v1 V)
theorem WB_v71 : WB V (Proc.devRef .tc main_v71) = Host.sign (colY (subf (rolled (scaled (V (Proc.devRef .tc main_arg0)))) (scaled (V (Proc.devRef .tc main_arg0))))) := B_v71 (WA V) _ (WA_v1 V)

/-! ### After C -/

theorem WC_v23 : WC V (Proc.devRef .tc main_v23) = areaArr (V (Proc.devRef .tc main_arg0)) :=
  (C_keep (WB V) main_v23 (by decide)).trans (WB_v23 V)
theorem WC_v43 : WC V (Proc.devRef .tc main_v43) = areaArr (V (Proc.devRef .tc main_arg1)) :=
  (C_keep (WB V) main_v43 (by decide)).trans (WB_v43 V)
theorem WC_arg2 : WC V (Proc.devRef .tc main_arg2) = (V (Proc.devRef .tc main_arg2)) :=
  (C_keep (WB V) main_arg2 (by decide)).trans (WB_arg2 V)
theorem WC_v60 : WC V (Proc.devRef .tc main_v60) = uniq (colX (subf (Host.floor (rolled (scaled (V (Proc.devRef .tc main_arg0))))) (Host.floor (scaled (V (Proc.devRef .tc main_arg0)))))) :=
  (C_keep (WB V) main_v60 (by decide)).trans (WB_v60 V)
theorem WC_v63 : WC V (Proc.devRef .tc main_v63) = uniq (colY (subf (Host.floor (rolled (scaled (V (Proc.devRef .tc main_arg0))))) (Host.floor (scaled (V (Proc.devRef .tc main_arg0)))))) :=
  (C_keep (WB V) main_v63 (by decide)).trans (WB_v63 V)
theorem WC_v68 : WC V (Proc.devRef .tc main_v68) = Host.sign (colX (subf (rolled (scaled (V (Proc.devRef .tc main_arg0)))) (scaled (V (Proc.devRef .tc main_arg0))))) :=
  (C_keep (WB V) main_v68 (by decide)).trans (WB_v68 V)
theorem WC_v71 : WC V (Proc.devRef .tc main_v71) = Host.sign (colY (subf (rolled (scaled (V (Proc.devRef .tc main_arg0)))) (scaled (V (Proc.devRef .tc main_arg0))))) :=
  (C_keep (WB V) main_v71 (by decide)).trans (WB_v71 V)

theorem WC_v76 : WC V (Proc.devRef .tc main_v76) = x0fA (V (Proc.devRef .tc main_arg0)) := C_v76 (WB V) _ (WB_v1 V)
theorem WC_v77 : WC V (Proc.devRef .tc main_v77) = y0fA (V (Proc.devRef .tc main_arg0)) := C_v77 (WB V) _ (WB_v1 V)
theorem WC_v79 : WC V (Proc.devRef .tc main_v79) = x1fA (V (Proc.devRef .tc main_arg0)) := C_v79 (WB V) _ (WB_v1 V)
theorem WC_v81 : WC V (Proc.devRef .tc main_v81) = y1fA (V (Proc.devRef .tc main_arg0)) := C_v81 (WB V) _ (WB_v1 V)
theorem WC_v84 : WC V (Proc.devRef .tc main_v84) = w00A (V (Proc.devRef .tc main_arg0)) := C_v84 (WB V) _ (WB_v1 V)
theorem WC_v87 : WC V (Proc.devRef .tc main_v87) = w01A (V (Proc.devRef .tc main_arg0)) := C_v87 (WB V) _ (WB_v1 V)
theorem WC_v90 : WC V (Proc.devRef .tc main_v90) = w10A (V (Proc.devRef .tc main_arg0)) := C_v90 (WB V) _ (WB_v1 V)
theorem WC_v93 : WC V (Proc.devRef .tc main_v93) = w11A (V (Proc.devRef .tc main_arg0)) := C_v93 (WB V) _ (WB_v1 V)

/-! ### After D -/

theorem WD_v23 : WD V (Proc.devRef .tc main_v23) = areaArr (V (Proc.devRef .tc main_arg0)) :=
  (D_keep (WC V) main_v23 (by decide)).trans (WC_v23 V)
theorem WD_v43 : WD V (Proc.devRef .tc main_v43) = areaArr (V (Proc.devRef .tc main_arg1)) :=
  (D_keep (WC V) main_v43 (by decide)).trans (WC_v43 V)
theorem WD_arg2 : WD V (Proc.devRef .tc main_arg2) = (V (Proc.devRef .tc main_arg2)) :=
  (D_keep (WC V) main_arg2 (by decide)).trans (WC_arg2 V)
theorem WD_v60 : WD V (Proc.devRef .tc main_v60) = uniq (colX (subf (Host.floor (rolled (scaled (V (Proc.devRef .tc main_arg0))))) (Host.floor (scaled (V (Proc.devRef .tc main_arg0)))))) :=
  (D_keep (WC V) main_v60 (by decide)).trans (WC_v60 V)
theorem WD_v63 : WD V (Proc.devRef .tc main_v63) = uniq (colY (subf (Host.floor (rolled (scaled (V (Proc.devRef .tc main_arg0))))) (Host.floor (scaled (V (Proc.devRef .tc main_arg0)))))) :=
  (D_keep (WC V) main_v63 (by decide)).trans (WC_v63 V)
theorem WD_v68 : WD V (Proc.devRef .tc main_v68) = Host.sign (colX (subf (rolled (scaled (V (Proc.devRef .tc main_arg0)))) (scaled (V (Proc.devRef .tc main_arg0))))) :=
  (D_keep (WC V) main_v68 (by decide)).trans (WC_v68 V)
theorem WD_v71 : WD V (Proc.devRef .tc main_v71) = Host.sign (colY (subf (rolled (scaled (V (Proc.devRef .tc main_arg0)))) (scaled (V (Proc.devRef .tc main_arg0))))) :=
  (D_keep (WC V) main_v71 (by decide)).trans (WC_v71 V)
theorem WD_v84 : WD V (Proc.devRef .tc main_v84) = w00A (V (Proc.devRef .tc main_arg0)) :=
  (D_keep (WC V) main_v84 (by decide)).trans (WC_v84 V)
theorem WD_v87 : WD V (Proc.devRef .tc main_v87) = w01A (V (Proc.devRef .tc main_arg0)) :=
  (D_keep (WC V) main_v87 (by decide)).trans (WC_v87 V)
theorem WD_v90 : WD V (Proc.devRef .tc main_v90) = w10A (V (Proc.devRef .tc main_arg0)) :=
  (D_keep (WC V) main_v90 (by decide)).trans (WC_v90 V)
theorem WD_v93 : WD V (Proc.devRef .tc main_v93) = w11A (V (Proc.devRef .tc main_arg0)) :=
  (D_keep (WC V) main_v93 (by decide)).trans (WC_v93 V)

theorem WD_v95 : WD V (Proc.devRef .tc main_v95) = wordA (x0fA (V (Proc.devRef .tc main_arg0))) := D_v95 (WC V) _ (WC_v76 V)
theorem WD_v97 : WD V (Proc.devRef .tc main_v97) = wordA (x1fA (V (Proc.devRef .tc main_arg0))) := D_v97 (WC V) _ (WC_v79 V)
theorem WD_v99 : WD V (Proc.devRef .tc main_v99) = wordA (y0fA (V (Proc.devRef .tc main_arg0))) := D_v99 (WC V) _ (WC_v77 V)
theorem WD_v101 : WD V (Proc.devRef .tc main_v101) = wordA (y1fA (V (Proc.devRef .tc main_arg0))) := D_v101 (WC V) _ (WC_v81 V)

/-! ### After E -/

theorem WE_v23 : WE V (Proc.devRef .tc main_v23) = areaArr (V (Proc.devRef .tc main_arg0)) :=
  (E_keep (WD V) main_v23 (by decide)).trans (WD_v23 V)
theorem WE_v43 : WE V (Proc.devRef .tc main_v43) = areaArr (V (Proc.devRef .tc main_arg1)) :=
  (E_keep (WD V) main_v43 (by decide)).trans (WD_v43 V)
theorem WE_v60 : WE V (Proc.devRef .tc main_v60) = uniq (colX (subf (Host.floor (rolled (scaled (V (Proc.devRef .tc main_arg0))))) (Host.floor (scaled (V (Proc.devRef .tc main_arg0)))))) :=
  (E_keep (WD V) main_v60 (by decide)).trans (WD_v60 V)
theorem WE_v63 : WE V (Proc.devRef .tc main_v63) = uniq (colY (subf (Host.floor (rolled (scaled (V (Proc.devRef .tc main_arg0))))) (Host.floor (scaled (V (Proc.devRef .tc main_arg0)))))) :=
  (E_keep (WD V) main_v63 (by decide)).trans (WD_v63 V)
theorem WE_v68 : WE V (Proc.devRef .tc main_v68) = Host.sign (colX (subf (rolled (scaled (V (Proc.devRef .tc main_arg0)))) (scaled (V (Proc.devRef .tc main_arg0))))) :=
  (E_keep (WD V) main_v68 (by decide)).trans (WD_v68 V)
theorem WE_v71 : WE V (Proc.devRef .tc main_v71) = Host.sign (colY (subf (rolled (scaled (V (Proc.devRef .tc main_arg0)))) (scaled (V (Proc.devRef .tc main_arg0))))) :=
  (E_keep (WD V) main_v71 (by decide)).trans (WD_v71 V)
theorem WE_v84 : WE V (Proc.devRef .tc main_v84) = w00A (V (Proc.devRef .tc main_arg0)) :=
  (E_keep (WD V) main_v84 (by decide)).trans (WD_v84 V)
theorem WE_v87 : WE V (Proc.devRef .tc main_v87) = w01A (V (Proc.devRef .tc main_arg0)) :=
  (E_keep (WD V) main_v87 (by decide)).trans (WD_v87 V)
theorem WE_v90 : WE V (Proc.devRef .tc main_v90) = w10A (V (Proc.devRef .tc main_arg0)) :=
  (E_keep (WD V) main_v90 (by decide)).trans (WD_v90 V)
theorem WE_v93 : WE V (Proc.devRef .tc main_v93) = w11A (V (Proc.devRef .tc main_arg0)) :=
  (E_keep (WD V) main_v93 (by decide)).trans (WD_v93 V)

theorem WE_v115 : WE V (Proc.devRef .tc main_v115) = pickA (V (Proc.devRef .tc main_arg2)) (wordA (y0fA (V (Proc.devRef .tc main_arg0)))) (wordA (x0fA (V (Proc.devRef .tc main_arg0)))) := E_v115 (WD V) _ _ (WD_v99 V) (WD_v95 V) (WD_arg2 V)
theorem WE_v129 : WE V (Proc.devRef .tc main_v129) = pickA (V (Proc.devRef .tc main_arg2)) (wordA (y1fA (V (Proc.devRef .tc main_arg0)))) (wordA (x0fA (V (Proc.devRef .tc main_arg0)))) := E_v129 (WD V) _ _ (WD_v101 V) (WD_v95 V) (WD_arg2 V)
theorem WE_v143 : WE V (Proc.devRef .tc main_v143) = pickA (V (Proc.devRef .tc main_arg2)) (wordA (y0fA (V (Proc.devRef .tc main_arg0)))) (wordA (x1fA (V (Proc.devRef .tc main_arg0)))) := E_v143 (WD V) _ _ (WD_v99 V) (WD_v97 V) (WD_arg2 V)
theorem WE_v157 : WE V (Proc.devRef .tc main_v157) = pickA (V (Proc.devRef .tc main_arg2)) (wordA (y1fA (V (Proc.devRef .tc main_arg0)))) (wordA (x1fA (V (Proc.devRef .tc main_arg0)))) := E_v157 (WD V) _ _ (WD_v101 V) (WD_v97 V) (WD_arg2 V)

/-! ## The result buffer after the whole of @main -/

theorem after_ops_v190 :
    after (ops (F := Ideal)) V (Proc.devRef .tc main_v190) = tailR (V (Proc.devRef .tc main_arg0)) (V (Proc.devRef .tc main_arg1)) (rawR (V (Proc.devRef .tc main_arg0)) (V (Proc.devRef .tc main_arg2))) := by
  rw [after_ops_eq, ← rawArr_eq]
  exact F_v190 (WE V) _ _ _ (WE_v84 V) (WE_v87 V) (WE_v90 V) (WE_v93 V) (WE_v115 V) (WE_v129 V) (WE_v143 V) (WE_v157 V)
    (WE_v60 V) (WE_v63 V) (WE_v68 V) (WE_v71 V) (WE_v23 V) (WE_v43 V)

/-- An argument buffer is written by no operation of @main. -/
theorem after_ops_keep (r : Ref sig .tc)
    (hr : r ∉ segA_W ∧ r ∉ segB_W ∧ r ∉ segC_W ∧ r ∉ segD_W ∧ r ∉ segE_W ∧ r ∉ segF_W) :
    after (ops (F := Ideal)) V (Proc.devRef .tc r) = V (Proc.devRef .tc r) := by
  rw [after_ops_eq]
  exact (F_keep (WE V) r hr.2.2.2.2.2).trans ((E_keep (WD V) r hr.2.2.2.2.1).trans ((D_keep (WC V) r hr.2.2.2.1).trans
    ((C_keep (WB V) r hr.2.2.1).trans ((B_keep (WA V) r hr.2.1).trans (A_keep V r hr.1)))))

/-! ## The run -/

/-- From any memory with zero counters, every weakly fair execution of the reference's @main terminates, without
    a fault, with the result buffer at the closing operations applied to the raw term `rawR` and the two polygon
    areas, all of the launch contents of the three argument buffers, which end unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r =>
      ∀ c : Dev nD,
        r.2.mem ((c.tc : Thread nD τ).loc main_v190)
          = tailR (m ((c.tc : Thread nD τ).loc main_arg0)) (m ((c.tc : Thread nD τ).loc main_arg1))
              (rawR (m ((c.tc : Thread nD τ).loc main_arg0)) (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c =>
    ⟨(h c main_v190).trans (after_ops_v190 (launchContents m c)),
     (h c main_arg0).trans (after_ops_keep (launchContents m c) main_arg0 (by decide)),
     (h c main_arg1).trans (after_ops_keep (launchContents m c) main_arg1 (by decide)),
     (h c main_arg2).trans (after_ops_keep (launchContents m c) main_arg2 (by decide))⟩)
    (run_after m ρ)

end Cert.RefSide.Run

end
-- ==== Proof.lean ====
/-
  The certificate of the interpolated-overlap kernel against its jnp reference.

  Both programs scale the predicted points by 512, take floors X0f, Y0f and X1f = X0f + 1, Y1f = Y0f + 1, the four
  distances wx0 = X1f − X, wx1 = X − X0f, wy0 = Y1f − Y, wy1 = Y − Y0f, and the positions X0, X1, Y0, Y1 clipped into
  [0, 511]. The reference gathers the four corners of each mask channel and forms
  ((wx0·wy0)·M[Y0,X0] + (wx0·wy1)·M[Y1,X0] + (wx1·wy0)·M[Y0,X1]) + (wx1·wy1)·M[Y1,X1]; the kernel contracts the mask
  with the two-hot column weights over x on the matrix unit, multiplies by the two-hot row weights and sums over y.
  For finite inputs every quantity is a real number, so the two are equal by distributivity (also where clipping makes
  two positions coincide). Both then multiply by the same signed uniqueness mask, sum over the vertices, and apply
  the same closing operations with the same two polygon areas. The kernel accumulates its 64 × 4 results into two
  32 × 4 blocks through 0/1 row and column masks over 16 grid steps each, starting from zero: on the extended reals
  each entry ends at its own cell's sum.

  Frames: the two kernel programs run to the end with their arguments unchanged (the whole body run at a first and at a
  later step, at any float instance); the reference is a straight line of host operations.
-/
import proofs.«174235_j4939212390583_2_alg».proof.Defs
import proofs.«174235_j4939212390583_2_alg».proof.Proof.Gen.Kernel
import proofs.«174235_j4939212390583_2_alg».proof.Proof.Gen.KernelIdeal
import proofs.«174235_j4939212390583_2_alg».proof.Proof.Gen.ReferenceIdeal
import proofs.«174235_j4939212390583_2_alg».proof.Proof.Gen.Pre_finite_inputs
import proofs.«174235_j4939212390583_2_alg».proof.Proof.KBFrame
import proofs.«174235_j4939212390583_2_alg».proof.Proof.KIBlocks
import proofs.«174235_j4939212390583_2_alg».proof.Proof.KIPreA
import proofs.«174235_j4939212390583_2_alg».proof.Proof.BodyOut
import proofs.«174235_j4939212390583_2_alg».proof.Proof.RefMain

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.RefSide.Run.ref_run m ρ)

/-- No operation differs between the two kernel programs: this conjunct is trivially true. -/
theorem preserves : Cert.preserves_Kernel_KernelIdeal := trivial

/-- Both programs end at the closing operations of the same raw term and the same two polygon areas. -/
theorem algebraic : Cert.algebraic_KernelIdeal_ReferenceIdeal := by
  intro m ρ m' ρ' hpre hagree
  refine ⟨fun c => Cert.RefSide.tailR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.RefSide.rawR (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩) (Cert.KernelIdeal.Val.run_tail m ρ)
    rw [Cert.BodyMath.kernel_out m hpre c, Cert.KernelIdeal.Val.V_area0, Cert.KernelIdeal.Val.V_area1]
    rfl
  · refine (θ_run Cert.ReferenceIdeal.defs _ _).mono (fun _ h c => ⟨(h c).1.trans ?_, (h c).2⟩) (Cert.RefSide.Run.ref_run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
